-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v23)) (v3 : (c : Dev Cert.KernelIdeal.nD) → Buf (Elt Ideal) ((c.tc : Thread Cert.KernelIdeal.nD Cert.KernelIdeal.τ).loc Cert.KernelIdeal.main_v107)) (v4 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_v107) = v3 c
          ∧ r.2.mem ((c.tc : Thread Cert.KernelIdeal.nD Cert.KernelIdeal.τ).loc Cert.KernelIdeal.main_v114) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v157) = v3 c
          ∧ r.2.mem ((c.tc : Thread Cert.ReferenceIdeal.nD Cert.ReferenceIdeal.τ).loc Cert.ReferenceIdeal.main_v164) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S_ : Shape := ⟨0, ![]⟩
abbrev S2x512 : Shape := ⟨2, ![2, 512]⟩
abbrev S512 : Shape := ⟨1, ![512]⟩
abbrev S512x512 : Shape := ⟨2, ![512, 512]⟩
abbrev S512x2 : Shape := ⟨2, ![512, 2]⟩
abbrev S2 : Shape := ⟨1, ![2]⟩

class Facts : Prop where
  bcast_S_S65536 : S_.BroadcastsInDim S65536 (![] : Fin 0 → Fin S65536.rank)
  reducesTo_S65536_S_d0 : S65536.ReducesTo [0] S_
  h_S_ : 0 < S_.numel
  reducesTo_S_S_d : S_.ReducesTo [] S_
  bcast_S_S2x512 : S_.BroadcastsInDim S2x512 (![] : Fin 0 → Fin S2x512.rank)
  reducesTo_S2x512_S_d0_1 : S2x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x2 : S_.BroadcastsInDim S512x2 (![] : Fin 0 → Fin S512x2.rank)
  reducesTo_S512x2_S_d0_1 : S512x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg18 : FVec F S2 .f32) (main_v81 : IVec S_ 1) (main_v84 : IVec S512x2 1) : IVec S_ 1 :=
  let main_c_33 : IVec S_ 1 := constantI S_ 1 1#1
  let main_v85 : IVec S_ 1 := (fun x v => Host.reduce IntOp.andi x v reducesTo_S512x2_S_d0_1 h_S_) main_v84 main_c_33
  let main_v86 : IVec S_ 1 := andi main_v81 main_v85
  let main_v87 : FVec F S2 .f32 := Host.absf main_arg18
  let main_cst_34 : FVec F S_ .f32 := constant S_ .f32 0x7F800000#32
  let main_v88 : FVec F S2 .f32 := broadcastInDim S2 ![] bcast_S_S2 main_cst_34
  let main_v89 : IVec S2 1 := cmpf .olt main_v87 main_v88
  let main_c_35 : IVec S_ 1 := constantI S_ 1 1#1
  let main_v90 : IVec S_ 1 := (fun x v => Host.reduce IntOp.andi x v reducesTo_S2_S_d0 h_S_) main_v89 main_c_35
  let main_v91 : IVec S_ 1 := andi main_v86 main_v90
  main_v91

def fn_part4 {F : FTy → Type} [FloatOps F] (main_arg15 : FVec F S512x512 .f32) (main_arg16 : FVec F S512 .f32) (main_arg17 : FVec F S512x2 .f32) (main_arg18 : FVec F S2 .f32) (main_v66 : IVec S_ 1) (main_v67 : FVec F S512 .f32) : IVec S_ 1 :=
  let main_cst_26 : FVec F S_ .f32 := constant S_ .f32 0x7F800000#32
  let main_v68 : FVec F S512 .f32 := broadcastInDim S512 ![] bcast_S_S512 main_cst_26
  let main_v69 : IVec S512 1 := cmpf .olt main_v67 main_v68
  let main_c_27 : IVec S_ 1 := constantI S_ 1 1#1
  let main_v70 : IVec S_ 1 := (fun x v => Host.reduce IntOp.andi x v reducesTo_S512_S_d0 h_S_) main_v69 main_c_27
  let main_v71 : IVec S_ 1 := andi main_v66 main_v70
  let main_v72 : FVec F S512x512 .f32 := Host.absf main_arg15
  let main_cst_28 : FVec F S_ .f32 := constant S_ .f32 0x7F800000#32
  let main_v73 : FVec F S512x512 .f32 := broadcastInDim S512x512 ![] bcast_S_S512x512 main_cst_28
  let main_v74 : IVec S512x512 1 := cmpf .olt main_v72 main_v73
  let main_c_29 : IVec S_ 1 := constantI S_ 1 1#1
  let main_v75 : IVec S_ 1 := (fun x v => Host.reduce IntOp.andi x v reducesTo_S512x512_S_d0_1 h_S_) main_v74 main_c_29
  let main_v76 : IVec S_ 1 := andi main_v71 main_v75
  let main_v77 : FVec F S512 .f32 := Host.absf main_arg16
  let main_cst_30 : FVec F S_ .f32 := constant S_ .f32 0x7F800000#32
  let main_v78 : FVec F S512 .f32 := broadcastInDim S512 ![] bcast_S_S512 main_cst_30
  let main_v79 : IVec S512 1 := cmpf .olt main_v77 main_v78
  let main_c_31 : IVec S_ 1 := constantI S_ 1 1#1
  let main_v80 : IVec S_ 1 := (fun x v => Host.reduce IntOp.andi x v reducesTo_S512_S_d0 h_S_) main_v79 main_c_31
  let main_v81 : IVec S_ 1 := andi main_v76 main_v80
  let main_v82 : FVec F S512x2 .f32 := Host.absf main_arg17
  let main_cst_32 : FVec F S_ .f32 := constant S_ .f32 0x7F800000#32
  let main_v83 : FVec F S512x2 .f32 := broadcastInDim S512x2 ![] bcast_S_S512x2 main_cst_32
  let main_v84 : IVec S512x2 1 := cmpf .olt main_v82 main_v83
  fn_part5 (F := F) main_arg18 main_v81 main_v84

def fn_part3 {F : FTy → Type} [FloatOps F] (main_arg11 : FVec F S512x2 .f32) (main_arg12 : FVec F S2 .f32) (main_arg13 : FVec F S2x512 .f32) (main_arg14 : FVec F S512 .f32) (main_arg15 : FVec F S512x512 .f32) (main_arg16 : FVec F S512 .f32) (main_arg17 : FVec F S512x2 .f32) (main_arg18 : FVec F S2 .f32) (main_v46 : IVec S_ 1) (main_v49 : IVec S512 1) (main_c_19 : IVec S_ 1) : IVec S_ 1 :=
  let main_v50 : IVec S_ 1 := (fun x v => Host.reduce IntOp.andi x v reducesTo_S512_S_d0 h_S_) main_v49 main_c_19
  let main_v51 : IVec S_ 1 := andi main_v46 main_v50
  let main_v52 : FVec F S512x2 .f32 := Host.absf main_arg11
  let main_cst_20 : FVec F S_ .f32 := constant S_ .f32 0x7F800000#32
  let main_v53 : FVec F S512x2 .f32 := broadcastInDim S512x2 ![] bcast_S_S512x2 main_cst_20
  let main_v54 : IVec S512x2 1 := cmpf .olt main_v52 main_v53
  let main_c_21 : IVec S_ 1 := constantI S_ 1 1#1
  let main_v55 : IVec S_ 1 := (fun x v => Host.reduce IntOp.andi x v reducesTo_S512x2_S_d0_1 h_S_) main_v54 main_c_21
  let main_v56 : IVec S_ 1 := andi main_v51 main_v55
  let main_v57 : FVec F S2 .f32 := Host.absf main_arg12
  let main_cst_22 : FVec F S_ .f32 := constant S_ .f32 0x7F800000#32
  let main_v58 : FVec F S2 .f32 := broadcastInDim S2 ![] bcast_S_S2 main_cst_22
  let main_v59 : IVec S2 1 := cmpf .olt main_v57 main_v58
  let main_c_23 : IVec S_ 1 := constantI S_ 1 1#1
  let main_v60 : IVec S_ 1 := (fun x v => Host.reduce IntOp.andi x v reducesTo_S2_S_d0 h_S_) main_v59 main_c_23
  let main_v61 : IVec S_ 1 := andi main_v56 main_v60
  let main_v62 : FVec F S2x512 .f32 := Host.absf main_arg13
  let main_cst_24 : FVec F S_ .f32 := constant S_ .f32 0x7F800000#32
  let main_v63 : FVec F S2x512 .f32 := broadcastInDim S2x512 ![] bcast_S_S2x512 main_cst_24
  let main_v64 : IVec S2x512 1 := cmpf .olt main_v62 main_v63
  let main_c_25 : IVec S_ 1 := constantI S_ 1 1#1
  let main_v65 : IVec S_ 1 := (fun x v => Host.reduce IntOp.andi x v reducesTo_S2x512_S_d0_1 h_S_) main_v64 main_c_25
  let main_v66 : IVec S_ 1 := andi main_v61 main_v65
  let main_v67 : FVec F S512 .f32 := Host.absf main_arg14
  fn_part4 (F := F) main_arg15 main_arg16 main_arg17 main_arg18 main_v66 main_v67

def fn_part2 {F : FTy → Type} [FloatOps F] (main_arg8 : FVec F S512 .f32) (main_arg9 : FVec F S512x512 .f32) (main_arg10 : FVec F S512 .f32) (main_arg11 : FVec F S512x2 .f32) (main_arg12 : FVec F S2 .f32) (main_arg13 : FVec F S2x512 .f32) (main_arg14 : FVec F S512 .f32) (main_arg15 : FVec F S512x512 .f32) (main_arg16 : FVec F S512 .f32) (main_arg17 : FVec F S512x2 .f32) (main_arg18 : FVec F S2 .f32) (main_v31 : IVec S_ 1) (main_v32 : FVec F S2x512 .f32) (main_cst_12 : FVec F S_ .f32) : IVec S_ 1 :=
  let main_v33 : FVec F S2x512 .f32 := broadcastInDim S2x512 ![] bcast_S_S2x512 main_cst_12
  let main_v34 : IVec S2x512 1 := cmpf .olt main_v32 main_v33
  let main_c_13 : IVec S_ 1 := constantI S_ 1 1#1
  let main_v35 : IVec S_ 1 := (fun x v => Host.reduce IntOp.andi x v reducesTo_S2x512_S_d0_1 h_S_) main_v34 main_c_13
  let main_v36 : IVec S_ 1 := andi main_v31 main_v35
  let main_v37 : FVec F S512 .f32 := Host.absf main_arg8
  let main_cst_14 : FVec F S_ .f32 := constant S_ .f32 0x7F800000#32
  let main_v38 : FVec F S512 .f32 := broadcastInDim S512 ![] bcast_S_S512 main_cst_14
  let main_v39 : IVec S512 1 := cmpf .olt main_v37 main_v38
  let main_c_15 : IVec S_ 1 := constantI S_ 1 1#1
  let main_v40 : IVec S_ 1 := (fun x v => Host.reduce IntOp.andi x v reducesTo_S512_S_d0 h_S_) main_v39 main_c_15
  let main_v41 : IVec S_ 1 := andi main_v36 main_v40
  let main_v42 : FVec F S512x512 .f32 := Host.absf main_arg9
  let main_cst_16 : FVec F S_ .f32 := constant S_ .f32 0x7F800000#32
  let main_v43 : FVec F S512x512 .f32 := broadcastInDim S512x512 ![] bcast_S_S512x512 main_cst_16
  let main_v44 : IVec S512x512 1 := cmpf .olt main_v42 main_v43
  let main_c_17 : IVec S_ 1 := constantI S_ 1 1#1
  let main_v45 : IVec S_ 1 := (fun x v => Host.reduce IntOp.andi x v reducesTo_S512x512_S_d0_1 h_S_) main_v44 main_c_17
  let main_v46 : IVec S_ 1 := andi main_v41 main_v45
  let main_v47 : FVec F S512 .f32 := Host.absf main_arg10
  let main_cst_18 : FVec F S_ .f32 := constant S_ .f32 0x7F800000#32
  let main_v48 : FVec F S512 .f32 := broadcastInDim S512 ![] bcast_S_S512 main_cst_18
  let main_v49 : IVec S512 1 := cmpf .olt main_v47 main_v48
  let main_c_19 : IVec S_ 1 := constantI S_ 1 1#1
  fn_part3 (F := F) main_arg11 main_arg12 main_arg13 main_arg14 main_arg15 main_arg16 main_arg17 main_arg18 main_v46 main_v49 main_c_19

def fn_part1 {F : FTy → Type} [FloatOps F] (main_arg4 : FVec F S65536 .f32) (main_arg5 : FVec F S_ .f32) (main_arg6 : FVec F S_ .f32) (main_arg7 : FVec F S2x512 .f32) (main_arg8 : FVec F S512 .f32) (main_arg9 : FVec F S512x512 .f32) (main_arg10 : FVec F S512 .f32) (main_arg11 : FVec F S512x2 .f32) (main_arg12 : FVec F S2 .f32) (main_arg13 : FVec F S2x512 .f32) (main_arg14 : FVec F S512 .f32) (main_arg15 : FVec F S512x512 .f32) (main_arg16 : FVec F S512 .f32) (main_arg17 : FVec F S512x2 .f32) (main_arg18 : FVec F S2 .f32) (main_v13 : IVec S_ 1) (main_v16 : IVec S65536 1) : IVec S_ 1 :=
  let main_c_5 : IVec S_ 1 := constantI S_ 1 1#1
  let main_v17 : IVec S_ 1 := (fun x v => Host.reduce IntOp.andi x v reducesTo_S65536_S_d0 h_S_) main_v16 main_c_5
  let main_v18 : IVec S_ 1 := andi main_v13 main_v17
  let main_v19 : FVec F S65536 .f32 := Host.absf main_arg4
  let main_cst_6 : FVec F S_ .f32 := constant S_ .f32 0x7F800000#32
  let main_v20 : FVec F S65536 .f32 := broadcastInDim S65536 ![] bcast_S_S65536 main_cst_6
  let main_v21 : IVec S65536 1 := cmpf .olt main_v19 main_v20
  let main_c_7 : IVec S_ 1 := constantI S_ 1 1#1
  let main_v22 : IVec S_ 1 := (fun x v => Host.reduce IntOp.andi x v reducesTo_S65536_S_d0 h_S_) main_v21 main_c_7
  let main_v23 : IVec S_ 1 := andi main_v18 main_v22
  let main_v24 : FVec F S_ .f32 := Host.absf main_arg5
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S_ .f32 := Host.absf main_arg6
  let main_cst_10 : FVec F S_ .f32 := constant S_ .f32 0x7F800000#32
  let main_v29 : IVec S_ 1 := cmpf .olt main_v28 main_cst_10
  let main_c_11 : IVec S_ 1 := constantI S_ 1 1#1
  let main_v30 : IVec S_ 1 := (fun x v => Host.reduce IntOp.andi x v reducesTo_S_S_d h_S_) main_v29 main_c_11
  let main_v31 : IVec S_ 1 := andi main_v27 main_v30
  let main_v32 : FVec F S2x512 .f32 := Host.absf main_arg7
  let main_cst_12 : FVec F S_ .f32 := constant S_ .f32 0x7F800000#32
  fn_part2 (F := F) main_arg8 main_arg9 main_arg10 main_arg11 main_arg12 main_arg13 main_arg14 main_arg15 main_arg16 main_arg17 main_arg18 main_v31 main_v32 main_cst_12

def fn {F : FTy → Type} [FloatOps F] (main_arg0 : FVec F S65536 .f32) (main_arg1 : FVec F S65536 .f32) (main_arg2 : FVec F S65536 .f32) (main_arg3 : FVec F S65536 .f32) (main_arg4 : FVec F S65536 .f32) (main_arg5 : FVec F S_ .f32) (main_arg6 : FVec F S_ .f32) (main_arg7 : FVec F S2x512 .f32) (main_arg8 : FVec F S512 .f32) (main_arg9 : FVec F S512x512 .f32) (main_arg10 : FVec F S512 .f32) (main_arg11 : FVec F S512x2 .f32) (main_arg12 : FVec F S2 .f32) (main_arg13 : FVec F S2x512 .f32) (main_arg14 : FVec F S512 .f32) (main_arg15 : FVec F S512x512 .f32) (main_arg16 : FVec F S512 .f32) (main_arg17 : FVec F S512x2 .f32) (main_arg18 : FVec F S2 .f32) : IVec S_ 1 :=
  let main_v0 : FVec F S65536 .f32 := Host.absf main_arg0
  let main_cst : FVec F S_ .f32 := constant S_ .f32 0x7F800000#32
  let main_v1 : FVec F S65536 .f32 := broadcastInDim S65536 ![] bcast_S_S65536 main_cst
  let main_v2 : IVec S65536 1 := cmpf .olt main_v0 main_v1
  let main_c : IVec S_ 1 := constantI S_ 1 1#1
  let main_v3 : IVec S_ 1 := (fun x v => Host.reduce IntOp.andi x v reducesTo_S65536_S_d0 h_S_) main_v2 main_c
  let main_v4 : FVec F S65536 .f32 := Host.absf main_arg1
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  let main_v14 : FVec F S65536 .f32 := Host.absf main_arg3
  let main_cst_4 : FVec F S_ .f32 := constant S_ .f32 0x7F800000#32
  let main_v15 : FVec F S65536 .f32 := broadcastInDim S65536 ![] bcast_S_S65536 main_cst_4
  let main_v16 : IVec S65536 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S65536 : Shape := ⟨1, ![65536]⟩
abbrev S_ : Shape := ⟨0, ![]⟩
abbrev S2x512 : Shape := ⟨2, ![2, 512]⟩
abbrev S512 : Shape := ⟨1, ![512]⟩
abbrev S512x512 : Shape := ⟨2, ![512, 512]⟩
abbrev S512x2 : Shape := ⟨2, ![512, 2]⟩
abbrev S2 : Shape := ⟨1, ![2]⟩
abbrev S65536x1 : Shape := ⟨2, ![65536, 1]⟩
abbrev S65536x2 : Shape := ⟨2, ![65536, 2]⟩
abbrev S1x512 : Shape := ⟨2, ![1, 512]⟩
abbrev S1x2 : Shape := ⟨2, ![1, 2]⟩
abbrev S1x128 : Shape := ⟨2, ![1, 128]⟩
abbrev S1024x2 : Shape := ⟨2, ![1024, 2]⟩
abbrev S1024x1 : Shape := ⟨2, ![1024, 1]⟩
abbrev S1024x512 : Shape := ⟨2, ![1024, 512]⟩
abbrev S1 : Shape := ⟨1, ![1]⟩
abbrev S1x1 : Shape := ⟨2, ![1, 1]⟩
abbrev S1x126 : Shape := ⟨2, ![1, 126]⟩
abbrev S128 : Shape := ⟨1, ![128]⟩
abbrev S32 : Shape := ⟨1, ![32]⟩
abbrev S128x1 : Shape := ⟨2, ![128, 1]⟩
abbrev S128x2 : Shape := ⟨2, ![128, 2]⟩
abbrev S128x512 : Shape := ⟨2, ![128, 512]⟩
abbrev S4x32 : Shape := ⟨2, ![4, 32]⟩
abbrev S1x32 : Shape := ⟨2, ![1, 32]⟩

abbrev nBuf : Space → Nat
  | .hbm => 155
  | .vmem => 21
  | .smem => 0
  | _ => 0

abbrev hbmTy0_0 (i : Nat) : BufTy := match i % 128 with
  | 0 => ⟨S65536, .f32⟩
  | 1 => ⟨S65536, .f32⟩
  | 2 => ⟨S65536, .f32⟩
  | 3 => ⟨S65536, .f32⟩
  | 4 => ⟨S65536, .f32⟩
  | 5 => ⟨S_, .f32⟩
  | 6 => ⟨S_, .f32⟩
  | 7 => ⟨S2x512, .f32⟩
  | 8 => ⟨S512, .f32⟩
  | 9 => ⟨S512x512, .f32⟩
  | 10 => ⟨S512, .f32⟩
  | 11 => ⟨S512x2, .f32⟩
  | 12 => ⟨S2, .f32⟩
  | 13 => ⟨S2x512, .f32⟩
  | 14 => ⟨S512, .f32⟩
  | 15 => ⟨S512x512, .f32⟩
  | 16 => ⟨S512, .f32⟩
  | 17 => ⟨S512x2, .f32⟩
  | 18 => ⟨S2, .f32⟩
  | 19 => ⟨S65536x1, .f32⟩
  | 20 => ⟨S65536x1, .f32⟩
  | 21 => ⟨S65536x2, .f32⟩
  | 22 => ⟨S65536x1, .f32⟩
  | 23 => ⟨S65536x1, .f32⟩
  | 24 => ⟨S65536x2, .f32⟩
  | 25 => ⟨S65536, .f32⟩
  | 26 => ⟨S65536, .f32⟩
  | 27 => ⟨S65536x1, .f32⟩
  | 28 => ⟨S512x512, .bf16⟩
  | 29 => ⟨S512x2, .bf16⟩
  | 30 => ⟨S512x512, .bf16⟩
  | 31 => ⟨S512x2, .bf16⟩
  | 32 => ⟨S1x512, .f32⟩
  | 33 => ⟨S1x512, .f32⟩
  | 34 => ⟨S1x2, .f32⟩
  | 35 => ⟨S1x512, .f32⟩
  | 36 => ⟨S1x512, .f32⟩
  | 37 => ⟨S1x2, .f32⟩
  | 38 => ⟨S1x128, .f32⟩
  | 39 => ⟨S65536x1, .f32⟩
  | 40 => ⟨S128, .f32⟩
  | 41 => ⟨S1, .f32⟩
  | 42 => ⟨S_, .f32⟩
  | 43 => ⟨S_, .f32⟩
  | 44 => ⟨S_, .f32⟩
  | 45 => ⟨S1, .f32⟩
  | 46 => ⟨S_, .f32⟩
  | 47 => ⟨S_, .f32⟩
  | 48 => ⟨S_, .f32⟩
  | 49 => ⟨S65536, .f32⟩
  | 50 => ⟨S_, .f32⟩
  | 51 => ⟨S65536, .f32⟩
  | 52 => ⟨S65536, .f32⟩
  | 53 => ⟨S65536, .f32⟩
  | 54 => ⟨S_, .f32⟩
  | 55 => ⟨S65536, .f32⟩
  | 56 => ⟨S65536, .f32⟩
  | 57 => ⟨S_, .f32⟩
  | 58 => ⟨S_, .f32⟩
  | 59 => ⟨S_, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S128, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S128, .f32⟩
  | 77 => ⟨S128x1, .f32⟩
  | 78 => ⟨S128x1, .f32⟩
  | 79 => ⟨S128x2, .f32⟩
  | 80 => ⟨S128x512, .f32⟩
  | 81 => ⟨S1x512, .f32⟩
  | 82 => ⟨S128x512, .f32⟩
  | 83 => ⟨S128x512, .f32⟩
  | 84 => ⟨S128x512, .f32⟩
  | 85 => ⟨S128x512, .f32⟩
  | 86 => ⟨S1x512, .f32⟩
  | 87 => ⟨S128x512, .f32⟩
  | 88 => ⟨S128x512, .f32⟩
  | 89 => ⟨S128x512, .f32⟩
  | 90 => ⟨S128x2, .f32⟩
  | 91 => ⟨S1x2, .f32⟩
  | 92 => ⟨S128x2, .f32⟩
  | 93 => ⟨S128x2, .f32⟩
  | 94 => ⟨S128x1, .f32⟩
  | 95 => ⟨S128, .f32⟩
  | 96 => ⟨S4x32, .f32⟩
  | 97 => ⟨S128x1, .f32⟩
  | 98 => ⟨S128, .f32⟩
  | 99 => ⟨S4x32, .f32⟩
  | 100 => ⟨S1x32, .f32⟩
  | 101 => ⟨S32, .f32⟩
  | 102 => ⟨S1x32, .f32⟩
  | 103 => ⟨S32, .f32⟩
  | 104 => ⟨S32, .f32⟩
  | 105 => ⟨S_, .f32⟩
  | 106 => ⟨S32, .f32⟩
  | 107 => ⟨S32, .f32⟩
  | 108 => ⟨S1x32, .f32⟩
  | 109 => ⟨S32, .f32⟩
  | 110 => ⟨S1x32, .f32⟩
  | 111 => ⟨S32, .f32⟩
  | 112 => ⟨S32, .f32⟩
  | 113 => ⟨S_, .f32⟩
  | 114 => ⟨S32, .f32⟩
  | 115 => ⟨S32, .f32⟩
  | 116 => ⟨S1x32, .f32⟩
  | 117 => ⟨S32, .f32⟩
  | 118 => ⟨S1x32, .f32⟩
  | 119 => ⟨S32, .f32⟩
  | 120 => ⟨S32, .f32⟩
  | 121 => ⟨S_, .f32⟩
  | 122 => ⟨S32, .f32⟩
  | 123 => ⟨S32, .f32⟩
  | 124 => ⟨S1x32, .f32⟩
  | 125 => ⟨S32, .f32⟩
  | 126 => ⟨S1x32, .f32⟩
  | 127 => ⟨S32, .f32⟩
  | _ => ⟨S65536, .f32⟩

abbrev hbmTy0_1 (i : Nat) : BufTy := match i % 128 with
  | 0 => ⟨S32, .f32⟩
  | 1 => ⟨S_, .f32⟩
  | 2 => ⟨S32, .f32⟩
  | 3 => ⟨S32, .f32⟩
  | 4 => ⟨S32, .f32⟩
  | 5 => ⟨S32, .f32⟩
  | 6 => ⟨S32, .f32⟩
  | 7 => ⟨S32, .f32⟩
  | 8 => ⟨S_, .f32⟩
  | 9 => ⟨S32, .f32⟩
  | 10 => ⟨S32, .f32⟩
  | 11 => ⟨S32, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | _ => ⟨S65536, .f32⟩

abbrev hbmTy (i : Nat) : BufTy := match i / 128 with
  | 0 => hbmTy0_0 i
  | 1 => hbmTy0_1 i
  | _ => ⟨S65536, .f32⟩

abbrev bufTy : (tb : Table) → Fin (tcTables nBuf tb) → BufTy
  | .hbm, ⟨i, _⟩ => hbmTy i
  | .local _ .vmem, ⟨0, _⟩ => ⟨S1024x2, .f32⟩
  | .local _ .vmem, ⟨1, _⟩ => ⟨S1024x2, .f32⟩
  | .local _ .vmem, ⟨2, _⟩ => ⟨S1024x2, .f32⟩
  | .local _ .vmem, ⟨3, _⟩ => ⟨S1024x2, .f32⟩
  | .local _ .vmem, ⟨4, _⟩ => ⟨S1024x1, .f32⟩
  | .local _ .vmem, ⟨5, _⟩ => ⟨S1024x1, .f32⟩
  | .local _ .vmem, ⟨6, _⟩ => ⟨S2x512, .f32⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S512x2, .bf16⟩
  | .local _ .vmem, ⟨11, _⟩ => ⟨S1x2, .f32⟩
  | .local _ .vmem, ⟨12, _⟩ => ⟨S2x512, .f32⟩
  | .local _ .vmem, ⟨13, _⟩ => ⟨S1x512, .f32⟩
  | .local _ .vmem, ⟨14, _⟩ => ⟨S512x512, .bf16⟩
  | .local _ .vmem, ⟨15, _⟩ => ⟨S1x512, .f32⟩
  | .local _ .vmem, ⟨16, _⟩ => ⟨S512x2, .bf16⟩
  | .local _ .vmem, ⟨17, _⟩ => ⟨S1x2, .f32⟩
  | .local _ .vmem, ⟨18, _⟩ => ⟨S1x128, .f32⟩
  | .local _ .vmem, ⟨19, _⟩ => ⟨S1024x1, .f32⟩
  | .local _ .vmem, ⟨20, _⟩ => ⟨S1024x1, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19_0 : Ref sig .tc := ⟨.hbm, 38, rfl⟩
abbrev main_v19_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_1 : Ref sig .tc := ⟨.hbm, 54, rfl⟩
abbrev main_v32 : Ref sig .tc := ⟨.hbm, 55, rfl⟩
abbrev main_v33 : Ref sig .tc := ⟨.hbm, 56, rfl⟩
abbrev main_cst_2 : Ref sig .tc := ⟨.hbm, 57, rfl⟩
abbrev main_v34 : Ref sig .tc := ⟨.hbm, 58, rfl⟩
abbrev main_cst_3 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_8 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_9 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_10 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_11 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_12 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_13 : Ref sig .tc := ⟨.hbm, 140, rfl⟩
abbrev main_v106 : Ref sig .tc := ⟨.hbm, 141, rfl⟩
abbrev main_cst_14 : Ref sig .tc := ⟨.hbm, 142, rfl⟩
abbrev main_v107 : Ref sig .tc := ⟨.hbm, 143, rfl⟩
abbrev main_cst_15 : Ref sig .tc := ⟨.hbm, 144, rfl⟩
abbrev main_v108 : Ref sig .tc := ⟨.hbm, 145, rfl⟩
abbrev main_cst_16 : Ref sig .tc := ⟨.hbm, 146, rfl⟩
abbrev main_v109 : Ref sig .tc := ⟨.hbm, 147, rfl⟩
abbrev main_v110 : Ref sig .tc := ⟨.hbm, 148, rfl⟩
abbrev main_cst_17 : Ref sig .tc := ⟨.hbm, 149, rfl⟩
abbrev main_v111 : Ref sig .tc := ⟨.hbm, 150, rfl⟩
abbrev main_v112 : Ref sig .tc := ⟨.hbm, 151, rfl⟩
abbrev main_cst_18 : Ref sig .tc := ⟨.hbm, 152, rfl⟩
abbrev main_v113 : Ref sig .tc := ⟨.hbm, 153, rfl⟩
abbrev main_v114 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x2 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S65536_S65536x1_0 : S65536.BroadcastsInDim S65536x1 (![0] : Fin 1 → Fin S65536x1.rank)
  concatenates_S65536x1_S65536x1_S65536x2_d1 : Shape.Concatenates [S65536x1, S65536x1] S65536x2 1
  bcast_S_S65536 : S_.BroadcastsInDim S65536 (![] : Fin 0 → Fin S65536.rank)
  shapeCasts_S65536_S65536x1 : S65536.ShapeCasts S65536x1
  bitsLt_bf16_f32 : FTy.bits .bf16 < FTy.bits .f32
  shapeCasts_S512_S1x512 : S512.ShapeCasts S1x512
  shapeCasts_S2_S1x2 : S2.ShapeCasts S1x2
  inb_S1x128_S1x128_0_0 : ∀ a, (![0, 0] : Fin 2 → Nat) a + S1x128.size a ≤ S1x128.size a
  h_S1x128 : 0 < S1x128.numel
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2x512_S2x512_0_0 : ∀ a, (![0, 0] : Fin 2 → Nat) a + S2x512.size a ≤ S2x512.size a
  h_S2x512 : 0 < S2x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  slices_S1024x2_o0_0_S1024x1 : S1024x2.Slices ![0, 0] S1024x1
  slices_S1024x2_o0_1_S1024x1 : S1024x2.Slices ![0, 1] S1024x1
  slices_S2x512_o0_0_S1x512 : S2x512.Slices ![0, 0] S1x512
  slices_S2x512_o1_0_S1x512 : S2x512.Slices ![1, 0] S1x512
  broadcasts_S1024x1_S1024x512 : S1024x1.Broadcasts S1024x512
  broadcasts_S1x512_S1024x512 : S1x512.Broadcasts S1024x512
  broadcasts_S1x2_S1024x2 : S1x2.Broadcasts S1024x2
  reduces_S1024x1_S1 : S1024x1.Reduces [0] S1
  shapeCasts_S1_S1x1 : S1.ShapeCasts S1x1
  concatenates_S1x1_S1x1_S1x126_S1x128_d1 : Shape.Concatenates [S1x1, S1x1, S1x126] S1x128 1
  shapeCasts_S1x128_S1x128 : S1x128.ShapeCasts S1x128
  shapeCasts_S1x128_S128 : S1x128.ShapeCasts S128
  slices_S128_S1_0 : S128.Slices ![0] S1
  shapeCasts_S1_S_ : S1.ShapeCasts S_
  slices_S128_S1_1 : S128.Slices ![1] S1
  shapeCasts_S65536x1_S65536 : S65536x1.ShapeCasts S65536
  reducesTo_S65536_S_d0 : S65536.ReducesTo [0] S_
  h_S_ : 0 < S_.numel
  slices_S65536_S32_0 : S65536.Slices ![0] S32
  bcast_S_S32 : S_.BroadcastsInDim S32 (![] : Fin 0 → Fin S32.rank)
  concatenates_S32_S32_S32_S32_S128_d0 : Shape.Concatenates [S32, S32, S32, S32] S128 0
  bcast_S128_S128x1_0 : S128.BroadcastsInDim S128x1 (![0] : Fin 1 → Fin S128x1.rank)
  concatenates_S128x1_S128x1_S128x2_d1 : Shape.Concatenates [S128x1, S128x1] S128x2 1
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  slices_S128x2_S128x1_0_0 : S128x2.Slices ![0, 0] S128x1
  shapeCasts_S128x1_S128 : S128x1.ShapeCasts S128
  shapeCasts_S128_S4x32 : S128.ShapeCasts S4x32
  slices_S128x2_S128x1_0_1 : S128x2.Slices ![0, 1] S128x1
  slices_S4x32_S1x32_0_0 : S4x32.Slices ![0, 0] S1x32
  shapeCasts_S1x32_S32 : S1x32.ShapeCasts S32
  slices_S4x32_S1x32_1_0 : S4x32.Slices ![1, 0] S1x32
  slices_S4x32_S1x32_2_0 : S4x32.Slices ![2, 0] S1x32
  slices_S4x32_S1x32_3_0 : S4x32.Slices ![3, 0] S1x32
  reducesTo_S32_S_d0 : S32.ReducesTo [0] S_
  dot_S1024x512_S512x512_S1024x512_1_0_0_1_n_n_wf : DotDims.WF S1024x512 S512x512 S1024x512 [1] [0] [0] [1] [] []
  dot_S1024x512_S512x2_S1024x2_1_0_0_1_n_n_wf : DotDims.WF S1024x512 S512x2 S1024x2 [1] [0] [0] [1] [] []
  dot_S128x2_S2x512_S128x512_1_0_0_1_n_n_wf : DotDims.WF S128x2 S2x512 S128x512 [1] [0] [0] [1] [] []
  dot_S128x512_S512x512_S128x512_1_0_0_1_n_n_wf : DotDims.WF S128x512 S512x512 S128x512 [1] [0] [0] [1] [] []
  dot_S128x512_S512x2_S128x2_1_0_0_1_n_n_wf : DotDims.WF S128x512 S512x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S65536x2.size a
  hwx0_0 : ∀ i : grid0.Coords, EltTy.bits .f32 = 32 ∨ (Rect.block (s := S65536x2) S1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S65536x2.size a
  hwx0_1 : ∀ i : grid0.Coords, EltTy.bits .f32 = 32 ∨ (Rect.block (s := S65536x2) S1024x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S65536x1.size a
  hwx0_2 : ∀ i : grid0.Coords, EltTy.bits .f32 = 32 ∨ (Rect.block (s := S65536x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x512.size a ≤ S2x512.size a
  hwx0_3 : ∀ i : grid0.Coords, EltTy.bits .f32 = 32 ∨ (Rect.block (s := S2x512) S2x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x2.size a ≤ S512x2.size a
  hwx0_7 : ∀ i : grid0.Coords, EltTy.bits .bf16 = 32 ∨ (Rect.block (s := S512x2) S512x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x512.size a ≤ S2x512.size a
  hwx0_9 : ∀ i : grid0.Coords, EltTy.bits .f32 = 32 ∨ (Rect.block (s := S2x512) S2x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .bf16 = 32 ∨ (Rect.block (s := S512x512) S512x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x2.size a ≤ S512x2.size a
  hwx0_13 : ∀ i : grid0.Coords, EltTy.bits .bf16 = 32 ∨ (Rect.block (s := S512x2) S512x2.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x2.size a ≤ S1x2.size a
  hwx0_14 : ∀ i : grid0.Coords, EltTy.bits .f32 = 32 ∨ (Rect.block (s := S1x2) S1x2.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x1.size a ≤ S65536x1.size a
  hwx0_16 : ∀ i : grid0.Coords, EltTy.bits .f32 = 32 ∨ (Rect.block (s := S65536x1) S1024x1.size (cc0_transform_16 i) (hinb0_16 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x2_S1024x2_1_0_0_1_n_n : DotDims S1024x512 S512x2 S1024x2 where
  lhsContracting := [1]
  rhsContracting := [0]
  lhsNonContracting := [0]
  rhsNonContracting := [1]
  lhsBatch := []
  rhsBatch := []
  wf := dot_S1024x512_S512x2_S1024x2_1_0_0_1_n_n_wf
def dot_S128x2_S2x512_S128x512_1_0_0_1_n_n : DotDims S128x2 S2x512 S128x512 where
  lhsContracting := [1]
  rhsContracting := [0]
  lhsNonContracting := [0]
  rhsNonContracting := [1]
  lhsBatch := []
  rhsBatch := []
  wf := dot_S128x2_S2x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x2_S128x2_1_0_0_1_n_n : DotDims S128x512 S512x2 S128x2 where
  lhsContracting := [1]
  rhsContracting := [0]
  lhsNonContracting := [0]
  rhsNonContracting := [1]
  lhsBatch := []
  rhsBatch := []
  wf := dot_S128x512_S512x2_S128x2_1_0_0_1_n_n_wf

abbrev win0_0 : Pipeline.Window sig grid0 :=
  Pipeline.Window.ofSpec (Memref.whole main_v2) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S2x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S512x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S2x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S512x2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v18) S1x2.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v19_0) S1x128.size cc0_transform_15 reads0_15 true true 1 stage0_15 sem0_15
    hrank0 hreads0_15 hinb0_15 nbuf0_15 (Memref.isWhole_whole _) hwx0_15 hstage0_15

abbrev win0_16 : Pipeline.Window sig grid0 :=
  Pipeline.Window.ofSpec (Memref.whole main_v19_1) S1024x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S65536 : Shape := ⟨1, ![65536]⟩
abbrev S_ : Shape := ⟨0, ![]⟩
abbrev S2x512 : Shape := ⟨2, ![2, 512]⟩
abbrev S512 : Shape := ⟨1, ![512]⟩
abbrev S512x512 : Shape := ⟨2, ![512, 512]⟩
abbrev S512x2 : Shape := ⟨2, ![512, 2]⟩
abbrev S2 : Shape := ⟨1, ![2]⟩
abbrev S65536x1 : Shape := ⟨2, ![65536, 1]⟩
abbrev S65536x2 : Shape := ⟨2, ![65536, 2]⟩
abbrev S65536x512 : Shape := ⟨2, ![65536, 512]⟩
abbrev S1x512 : Shape := ⟨2, ![1, 512]⟩
abbrev S1x2 : Shape := ⟨2, ![1, 2]⟩
abbrev S32 : Shape := ⟨1, ![32]⟩
abbrev S128 : Shape := ⟨1, ![128]⟩
abbrev S128x1 : Shape := ⟨2, ![128, 1]⟩
abbrev S128x2 : Shape := ⟨2, ![128, 2]⟩
abbrev S128x512 : Shape := ⟨2, ![128, 512]⟩
abbrev S4x32 : Shape := ⟨2, ![4, 32]⟩
abbrev S1x32 : Shape := ⟨2, ![1, 32]⟩

abbrev nBuf : Space → Nat
  | .hbm => 206
  | .vmem => 0
  | .smem => 0
  | _ => 0

abbrev hbmTy0_0 (i : Nat) : BufTy := match i % 128 with
  | 0 => ⟨S65536, .f32⟩
  | 1 => ⟨S65536, .f32⟩
  | 2 => ⟨S65536, .f32⟩
  | 3 => ⟨S65536, .f32⟩
  | 4 => ⟨S65536, .f32⟩
  | 5 => ⟨S_, .f32⟩
  | 6 => ⟨S_, .f32⟩
  | 7 => ⟨S2x512, .f32⟩
  | 8 => ⟨S512, .f32⟩
  | 9 => ⟨S512x512, .f32⟩
  | 10 => ⟨S512, .f32⟩
  | 11 => ⟨S512x2, .f32⟩
  | 12 => ⟨S2, .f32⟩
  | 13 => ⟨S2x512, .f32⟩
  | 14 => ⟨S512, .f32⟩
  | 15 => ⟨S512x512, .f32⟩
  | 16 => ⟨S512, .f32⟩
  | 17 => ⟨S512x2, .f32⟩
  | 18 => ⟨S2, .f32⟩
  | 19 => ⟨S65536x1, .f32⟩
  | 20 => ⟨S65536x1, .f32⟩
  | 21 => ⟨S65536x2, .f32⟩
  | 22 => ⟨S65536x512, .f32⟩
  | 23 => ⟨S1x512, .f32⟩
  | 24 => ⟨S65536x512, .f32⟩
  | 25 => ⟨S65536x512, .f32⟩
  | 26 => ⟨S65536x512, .f32⟩
  | 27 => ⟨S65536x512, .f32⟩
  | 28 => ⟨S1x512, .f32⟩
  | 29 => ⟨S65536x512, .f32⟩
  | 30 => ⟨S65536x512, .f32⟩
  | 31 => ⟨S65536x512, .f32⟩
  | 32 => ⟨S65536x2, .f32⟩
  | 33 => ⟨S1x2, .f32⟩
  | 34 => ⟨S65536x2, .f32⟩
  | 35 => ⟨S65536x2, .f32⟩
  | 36 => ⟨S65536x1, .f32⟩
  | 37 => ⟨S65536, .f32⟩
  | 38 => ⟨S65536x1, .f32⟩
  | 39 => ⟨S65536, .f32⟩
  | 40 => ⟨S65536x1, .f32⟩
  | 41 => ⟨S65536x1, .f32⟩
  | 42 => ⟨S65536x2, .f32⟩
  | 43 => ⟨S65536x512, .f32⟩
  | 44 => ⟨S1x512, .f32⟩
  | 45 => ⟨S65536x512, .f32⟩
  | 46 => ⟨S65536x512, .f32⟩
  | 47 => ⟨S65536x512, .f32⟩
  | 48 => ⟨S65536x512, .f32⟩
  | 49 => ⟨S1x512, .f32⟩
  | 50 => ⟨S65536x512, .f32⟩
  | 51 => ⟨S65536x512, .f32⟩
  | 52 => ⟨S65536x512, .f32⟩
  | 53 => ⟨S65536x2, .f32⟩
  | 54 => ⟨S1x2, .f32⟩
  | 55 => ⟨S65536x2, .f32⟩
  | 56 => ⟨S65536x2, .f32⟩
  | 57 => ⟨S65536x1, .f32⟩
  | 58 => ⟨S65536, .f32⟩
  | 59 => ⟨S65536x1, .f32⟩
  | 60 => ⟨S65536, .f32⟩
  | 61 => ⟨S65536x1, .f32⟩
  | 62 => ⟨S65536x1, .f32⟩
  | 63 => ⟨S65536x2, .f32⟩
  | 64 => ⟨S65536x512, .f32⟩
  | 65 => ⟨S1x512, .f32⟩
  | 66 => ⟨S65536x512, .f32⟩
  | 67 => ⟨S65536x512, .f32⟩
  | 68 => ⟨S65536x512, .f32⟩
  | 69 => ⟨S65536x512, .f32⟩
  | 70 => ⟨S1x512, .f32⟩
  | 71 => ⟨S65536x512, .f32⟩
  | 72 => ⟨S65536x512, .f32⟩
  | 73 => ⟨S65536x512, .f32⟩
  | 74 => ⟨S65536x2, .f32⟩
  | 75 => ⟨S1x2, .f32⟩
  | 76 => ⟨S65536x2, .f32⟩
  | 77 => ⟨S65536x2, .f32⟩
  | 78 => ⟨S65536x1, .f32⟩
  | 79 => ⟨S65536, .f32⟩
  | 80 => ⟨S65536x1, .f32⟩
  | 81 => ⟨S65536, .f32⟩
  | 82 => ⟨S65536, .f32⟩
  | 83 => ⟨S65536, .f32⟩
  | 84 => ⟨S65536, .f32⟩
  | 85 => ⟨S65536, .f32⟩
  | 86 => ⟨S65536, .f32⟩
  | 87 => ⟨S_, .f32⟩
  | 88 => ⟨S_, .f32⟩
  | 89 => ⟨S_, .f32⟩
  | 90 => ⟨S_, .f32⟩
  | 91 => ⟨S65536, .f32⟩
  | 92 => ⟨S65536, .f32⟩
  | 93 => ⟨S65536, .f32⟩
  | 94 => ⟨S65536, .f32⟩
  | 95 => ⟨S65536, .f32⟩
  | 96 => ⟨S_, .f32⟩
  | 97 => ⟨S_, .f32⟩
  | 98 => ⟨S_, .f32⟩
  | 99 => ⟨S_, .f32⟩
  | 100 => ⟨S65536, .f32⟩
  | 101 => ⟨S_, .f32⟩
  | 102 => ⟨S65536, .f32⟩
  | 103 => ⟨S65536, .f32⟩
  | 104 => ⟨S65536, .f32⟩
  | 105 => ⟨S_, .f32⟩
  | 106 => ⟨S65536, .f32⟩
  | 107 => ⟨S65536, .f32⟩
  | 108 => ⟨S_, .f32⟩
  | 109 => ⟨S_, .f32⟩
  | 110 => ⟨S_, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S_, .f32⟩
  | 118 => ⟨S32, .f32⟩
  | 119 => ⟨S32, .f32⟩
  | 120 => ⟨S128, .f32⟩
  | 121 => ⟨S_, .f32⟩
  | 122 => ⟨S32, .f32⟩
  | 123 => ⟨S32, .f32⟩
  | 124 => ⟨S_, .f32⟩
  | 125 => ⟨S32, .f32⟩
  | 126 => ⟨S32, .f32⟩
  | 127 => ⟨S128, .f32⟩
  | _ => ⟨S65536, .f32⟩

abbrev hbmTy0_1 (i : Nat) : BufTy := match i % 128 with
  | 0 => ⟨S128x1, .f32⟩
  | 1 => ⟨S128x1, .f32⟩
  | 2 => ⟨S128x2, .f32⟩
  | 3 => ⟨S128x512, .f32⟩
  | 4 => ⟨S1x512, .f32⟩
  | 5 => ⟨S128x512, .f32⟩
  | 6 => ⟨S128x512, .f32⟩
  | 7 => ⟨S128x512, .f32⟩
  | 8 => ⟨S128x512, .f32⟩
  | 9 => ⟨S1x512, .f32⟩
  | 10 => ⟨S128x512, .f32⟩
  | 11 => ⟨S128x512, .f32⟩
  | 12 => ⟨S128x512, .f32⟩
  | 13 => ⟨S128x2, .f32⟩
  | 14 => ⟨S1x2, .f32⟩
  | 15 => ⟨S128x2, .f32⟩
  | 16 => ⟨S128x2, .f32⟩
  | 17 => ⟨S128x1, .f32⟩
  | 18 => ⟨S128, .f32⟩
  | 19 => ⟨S128x1, .f32⟩
  | 20 => ⟨S128, .f32⟩
  | 21 => ⟨S4x32, .f32⟩
  | 22 => ⟨S4x32, .f32⟩
  | 23 => ⟨S1x32, .f32⟩
  | 24 => ⟨S32, .f32⟩
  | 25 => ⟨S1x32, .f32⟩
  | 26 => ⟨S32, .f32⟩
  | 27 => ⟨S32, .f32⟩
  | 28 => ⟨S_, .f32⟩
  | 29 => ⟨S32, .f32⟩
  | 30 => ⟨S32, .f32⟩
  | 31 => ⟨S1x32, .f32⟩
  | 32 => ⟨S32, .f32⟩
  | 33 => ⟨S1x32, .f32⟩
  | 34 => ⟨S32, .f32⟩
  | 35 => ⟨S32, .f32⟩
  | 36 => ⟨S_, .f32⟩
  | 37 => ⟨S32, .f32⟩
  | 38 => ⟨S32, .f32⟩
  | 39 => ⟨S1x32, .f32⟩
  | 40 => ⟨S32, .f32⟩
  | 41 => ⟨S1x32, .f32⟩
  | 42 => ⟨S32, .f32⟩
  | 43 => ⟨S32, .f32⟩
  | 44 => ⟨S_, .f32⟩
  | 45 => ⟨S32, .f32⟩
  | 46 => ⟨S32, .f32⟩
  | 47 => ⟨S1x32, .f32⟩
  | 48 => ⟨S32, .f32⟩
  | 49 => ⟨S1x32, .f32⟩
  | 50 => ⟨S32, .f32⟩
  | 51 => ⟨S32, .f32⟩
  | 52 => ⟨S_, .f32⟩
  | 53 => ⟨S32, .f32⟩
  | 54 => ⟨S32, .f32⟩
  | 55 => ⟨S32, .f32⟩
  | 56 => ⟨S32, .f32⟩
  | 57 => ⟨S32, .f32⟩
  | 58 => ⟨S32, .f32⟩
  | 59 => ⟨S_, .f32⟩
  | 60 => ⟨S32, .f32⟩
  | 61 => ⟨S32, .f32⟩
  | 62 => ⟨S32, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | _ => ⟨S65536, .f32⟩

abbrev hbmTy (i : Nat) : BufTy := match i / 128 with
  | 0 => hbmTy0_0 i
  | 1 => hbmTy0_1 i
  | _ => ⟨S65536, .f32⟩

abbrev bufTy : (tb : Table) → Fin (tcTables nBuf tb) → BufTy
  | .hbm, ⟨i, _⟩ => hbmTy i
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst : Ref sig .tc := ⟨.hbm, 87, rfl⟩
abbrev main_v68 : Ref sig .tc := ⟨.hbm, 88, rfl⟩
abbrev main_cst_0 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_1 : Ref sig .tc := ⟨.hbm, 96, rfl⟩
abbrev main_v75 : Ref sig .tc := ⟨.hbm, 97, rfl⟩
abbrev main_cst_2 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_3 : Ref sig .tc := ⟨.hbm, 105, rfl⟩
abbrev main_v82 : Ref sig .tc := ⟨.hbm, 106, rfl⟩
abbrev main_v83 : Ref sig .tc := ⟨.hbm, 107, rfl⟩
abbrev main_cst_4 : Ref sig .tc := ⟨.hbm, 108, rfl⟩
abbrev main_v84 : Ref sig .tc := ⟨.hbm, 109, rfl⟩
abbrev main_cst_5 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_6 : Ref sig .tc := ⟨.hbm, 114, rfl⟩
abbrev main_v88 : Ref sig .tc := ⟨.hbm, 115, rfl⟩
abbrev main_v89 : Ref sig .tc := ⟨.hbm, 116, rfl⟩
abbrev main_cst_7 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_8 : Ref sig .tc := ⟨.hbm, 121, rfl⟩
abbrev main_v93 : Ref sig .tc := ⟨.hbm, 122, rfl⟩
abbrev main_v94 : Ref sig .tc := ⟨.hbm, 123, rfl⟩
abbrev main_cst_9 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_cst_10 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_11 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_cst_12 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_cst_13 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_14 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_cst_15 : Ref sig .tc := ⟨.hbm, 191, rfl⟩
abbrev main_v156 : Ref sig .tc := ⟨.hbm, 192, rfl⟩
abbrev main_cst_16 : Ref sig .tc := ⟨.hbm, 193, rfl⟩
abbrev main_v157 : Ref sig .tc := ⟨.hbm, 194, rfl⟩
abbrev main_cst_17 : Ref sig .tc := ⟨.hbm, 195, rfl⟩
abbrev main_v158 : Ref sig .tc := ⟨.hbm, 196, rfl⟩
abbrev main_cst_18 : Ref sig .tc := ⟨.hbm, 197, rfl⟩
abbrev main_v159 : Ref sig .tc := ⟨.hbm, 198, rfl⟩
abbrev main_v160 : Ref sig .tc := ⟨.hbm, 199, rfl⟩
abbrev main_cst_19 : Ref sig .tc := ⟨.hbm, 200, rfl⟩
abbrev main_v161 : Ref sig .tc := ⟨.hbm, 201, rfl⟩
abbrev main_v162 : Ref sig .tc := ⟨.hbm, 202, rfl⟩
abbrev main_cst_20 : Ref sig .tc := ⟨.hbm, 203, rfl⟩
abbrev main_v163 : Ref sig .tc := ⟨.hbm, 204, rfl⟩
abbrev main_v164 : Ref sig .tc := ⟨.hbm, 205, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  concatenates_S65536x1_S65536x1_S65536x2_d1 : Shape.Concatenates [S65536x1, S65536x1] S65536x2 1
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S2_S1x2_1 : S2.BroadcastsInDim S1x2 (![1] : Fin 1 → Fin S1x2.rank)
  bcast_S1x2_S65536x2_0_1 : S1x2.BroadcastsInDim S65536x2 (![0, 1] : Fin 2 → Fin S65536x2.rank)
  slices_S65536x2_S65536x1_0_0 : S65536x2.Slices ![0, 0] S65536x1
  shapeCasts_S65536x1_S65536 : S65536x1.ShapeCasts S65536
  slices_S65536x2_S65536x1_0_1 : S65536x2.Slices ![0, 1] S65536x1
  reducesTo_S65536_S_d0 : S65536.ReducesTo [0] S_
  h_S_ : 0 < S_.numel
  bcast_S_S65536 : S_.BroadcastsInDim S65536 (![] : Fin 0 → Fin S65536.rank)
  slices_S65536_S32_0 : S65536.Slices ![0] S32
  bcast_S_S32 : S_.BroadcastsInDim S32 (![] : Fin 0 → Fin S32.rank)
  concatenates_S32_S32_S32_S32_S128_d0 : Shape.Concatenates [S32, S32, S32, S32] S128 0
  bcast_S128_S128x1_0 : S128.BroadcastsInDim S128x1 (![0] : Fin 1 → Fin S128x1.rank)
  concatenates_S128x1_S128x1_S128x2_d1 : Shape.Concatenates [S128x1, S128x1] S128x2 1
  bcast_S1x512_S128x512_0_1 : S1x512.BroadcastsInDim S128x512 (![0, 1] : Fin 2 → Fin S128x512.rank)
  bcast_S1x2_S128x2_0_1 : S1x2.BroadcastsInDim S128x2 (![0, 1] : Fin 2 → Fin S128x2.rank)
  slices_S128x2_S128x1_0_0 : S128x2.Slices ![0, 0] S128x1
  shapeCasts_S128x1_S128 : S128x1.ShapeCasts S128
  slices_S128x2_S128x1_0_1 : S128x2.Slices ![0, 1] S128x1
  shapeCasts_S128_S4x32 : S128.ShapeCasts S4x32
  slices_S4x32_S1x32_0_0 : S4x32.Slices ![0, 0] S1x32
  shapeCasts_S1x32_S32 : S1x32.ShapeCasts S32
  slices_S4x32_S1x32_1_0 : S4x32.Slices ![1, 0] S1x32
  slices_S4x32_S1x32_2_0 : S4x32.Slices ![2, 0] S1x32
  slices_S4x32_S1x32_3_0 : S4x32.Slices ![3, 0] S1x32
  reducesTo_S32_S_d0 : S32.ReducesTo [0] S_
  dot_S65536x2_S2x512_S65536x512_1_0_0_1_n_n_wf : DotDims.WF S65536x2 S2x512 S65536x512 [1] [0] [0] [1] [] []
  dot_S65536x512_S512x512_S65536x512_1_0_0_1_n_n_wf : DotDims.WF S65536x512 S512x512 S65536x512 [1] [0] [0] [1] [] []
  dot_S65536x512_S512x2_S65536x2_1_0_0_1_n_n_wf : DotDims.WF S65536x512 S512x2 S65536x2 [1] [0] [0] [1] [] []
  dot_S128x2_S2x512_S128x512_1_0_0_1_n_n_wf : DotDims.WF S128x2 S2x512 S128x512 [1] [0] [0] [1] [] []
  dot_S128x512_S512x512_S128x512_1_0_0_1_n_n_wf : DotDims.WF S128x512 S512x512 S128x512 [1] [0] [0] [1] [] []
  dot_S128x512_S512x2_S128x2_1_0_0_1_n_n_wf : DotDims.WF S128x512 S512x2 S128x2 [1] [0] [0] [1] [] []

variable [Facts₀]

def dot_S65536x2_S2x512_S65536x512_1_0_0_1_n_n : DotDims S65536x2 S2x512 S65536x512 where
  lhsContracting := [1]
  rhsContracting := [0]
  lhsNonContracting := [0]
  rhsNonContracting := [1]
  lhsBatch := []
  rhsBatch := []
  wf := dot_S65536x2_S2x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x2_S65536x2_1_0_0_1_n_n : DotDims S65536x512 S512x2 S65536x2 where
  lhsContracting := [1]
  rhsContracting := [0]
  lhsNonContracting := [0]
  rhsNonContracting := [1]
  lhsBatch := []
  rhsBatch := []
  wf := dot_S65536x512_S512x2_S65536x2_1_0_0_1_n_n_wf
def dot_S128x2_S2x512_S128x512_1_0_0_1_n_n : DotDims S128x2 S2x512 S128x512 where
  lhsContracting := [1]
  rhsContracting := [0]
  lhsNonContracting := [0]
  rhsNonContracting := [1]
  lhsBatch := []
  rhsBatch := []
  wf := dot_S128x2_S2x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x2_S128x2_1_0_0_1_n_n : DotDims S128x512 S512x2 S128x2 where
  lhsContracting := [1]
  rhsContracting := [0]
  lhsNonContracting := [0]
  rhsNonContracting := [1]
  lhsBatch := []
  rhsBatch := []
  wf := dot_S128x512_S512x2_S128x2_1_0_0_1_n_n_wf

class Facts : Prop extends Facts₀ where

variable [Facts]
-- ==== Proof.BitsBase.lean ====
/-
  The launch of the fused kernel inside its host program, and what the body's runs are stated over.

  The host program is three stretches: nineteen host operations that lay the arguments out for the kernel (two [65536,2]
  state arrays, the forcing column, the weights cast and the biases stood up as rows), the kernel over a grid of
  64 tiles of 1024 rows, and 115 host operations that turn the kernel's two results into the five losses.  The
  kernel's seventeen windows are fifteen inputs (three tiled along the rows, twelve whole weight blocks fetched
  once), the [1,128] accumulator, written back only after the last tile, and the [65536,1] column of phase
  differences, written back tile by tile.
  Every buffer the first stretch writes sits at positions 19..37 of the TensorCore's table and every buffer the last
  stretch writes at positions 40 and beyond, while the arguments are positions 0..18 and the kernel's arrays lie
  below 40: so neither stretch touches an argument, and the last one touches no array of the kernel.
-/
import proofs.«114315_j65214783422667_2_alg».proof.Proof.Gen.Kernel.Launch
import proofs.«114315_j65214783422667_2_alg».proof.Proof.Gen.Kernel.Skeleton
import proofs.«114315_j65214783422667_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the kernel -/

/-- Core `c`'s buffers when the kernel is entered: after the first stretch of host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

set_option maxHeartbeats 4000000 in
theorem hostOps1_fresh : (hostOps1 : List (HloOp τ sig (Elt F))).Forall fun op => op.fresh = ∅ := by
  simp only [List.Forall]; repeat' constructor

/-- The first stretch writes only positions 19 and beyond. -/
theorem hostOps0_writes_ge : (hostOps0 : List (HloOp τ sig (Elt F))).Forall fun op =>
    ∀ b : Ref sig .tc, Proc.devRef (τ := τ) .tc b ∈ op.writes → 19 ≤ b.idx.val := by
  simp only [List.Forall, StableHlo.nullary_writes, StableHlo.unary_writes, StableHlo.binary_writes,
    StableHlo.reshape_writes, StableHlo.nary_writes, Finset.mem_singleton]
  repeat' apply And.intro
  all_goals (intro b e; obtain rfl := Proc.devRef_injective _ e; decide)

set_option maxHeartbeats 4000000 in
/-- The last stretch writes only positions 40 and beyond. -/
theorem hostOps1_writes_ge : (hostOps1 : List (HloOp τ sig (Elt F))).Forall fun op =>
    ∀ b : Ref sig .tc, Proc.devRef (τ := τ) .tc b ∈ op.writes → 40 ≤ b.idx.val := by
  simp only [List.Forall, StableHlo.nullary_writes, StableHlo.unary_writes, StableHlo.binary_writes,
    StableHlo.reshape_writes, StableHlo.nary_writes, Finset.mem_singleton]
  repeat' apply And.intro
  all_goals (intro b e; obtain rfl := Proc.devRef_injective _ e; decide)

/-- A buffer below position 19 is written by no operation of the first stretch. -/
theorem head_keeps (b : Ref sig .tc) (hb : b.idx.val < 19) :
    ∀ op ∈ (hostOps0 : List (HloOp τ sig (Elt F))), Proc.devRef (τ := τ) .tc b ∉ op.writes :=
  fun op hop hw => absurd ((List.forall_iff_forall_mem.mp hostOps0_writes_ge) op hop b hw) (Nat.not_le.mpr hb)

/-- A buffer below position 40 is written by no operation of the last stretch. -/
theorem tail_keeps (b : Ref sig .tc) (hb : b.idx.val < 40) :
    ∀ op ∈ (hostOps1 : List (HloOp τ sig (Elt F))), Proc.devRef (τ := τ) .tc b ∉ op.writes :=
  fun op hop hw => absurd ((List.forall_iff_forall_mem.mp hostOps1_writes_ge) op hop b hw) (Nat.not_le.mpr hb)

/-- The host program reduces to the kernel's region continued by the last stretch, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The last stretch touches the kernel's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes no array of the kernel: those all lie below position 40. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact tail_keeps _ ((by decide : ∀ w : Fin 17, (Pipeline.arrRef spec0 w).idx.val < 40) w) op hop

/-- An argument is as launched when the kernel is entered. -/
theorem V_arg (c : Dev nD) (b : Ref sig .tc) (hb : b.idx.val < 19) : V m c b = m ((c : Thread nD τ).loc b) := by
  show StableHlo.after (List.flatten [hostOps0]) (fun b => m (c, b)) (Proc.devRef .tc b) = _
  rw [List.flatten_cons, List.flatten_nil, List.append_nil, StableHlo.after_of_forall_not_mem _ _ (head_keeps b hb)]

/-- An argument that is no array of the kernel is as launched after the last stretch. -/
theorem W_arg (dats : (p : Fin _) → (c : Dev nD) → Dat τ (Elt F) Unit ℕ (UR sig nD τ) ℕ (cfgs p) c) (c : Dev nD)
    (b : Ref sig .tc) (hb : b.idx.val < 19) (hne : ∀ w, Pipeline.arrRef spec0 w ≠ b) :
    Pipeline.afterTail₀ cfgs dats 0 (V0 m) [hostOps1] c b = m ((c : Thread nD τ).loc b) := by
  unfold Pipeline.afterTail₀
  rw [List.flatten_cons, List.flatten_nil, List.append_nil,
    StableHlo.after_of_forall_not_mem (b := Proc.devRef .tc b) _ _ (tail_keeps b (Nat.lt_of_lt_of_le hb (by decide))),
    Pipeline.withArrays_of_ne _ c (V0 m c) _ b hne]
  exact V_arg m c b hb

/-! ## The windows' blocks -/

/-- Window `w`'s block at tile `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every tile, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every tile, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every tile, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every tile, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every tile, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every tile, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every tile, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every tile, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every tile, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every tile, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every tile, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every tile, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every tile, fetched there or not. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current staging buffer holds its block at every tile, fetched there or not. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's current staging buffer holds its block at every tile, fetched there or not. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the launch theorem's post the arguments end as launched: the two weight blocks the kernel stages
    whole are input arrays of it, every other argument bypasses the kernel and no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (W_arg m dats c main_arg0 (by decide) (by decide)),
    ((h c).2 main_arg1 (Pipeline.mem_restRefs_of main_arg1 (by decide) (by decide))).trans (W_arg m dats c main_arg1 (by decide) (by decide)),
    ((h c).2 main_arg2 (Pipeline.mem_restRefs_of main_arg2 (by decide) (by decide))).trans (W_arg m dats c main_arg2 (by decide) (by decide)),
    ((h c).2 main_arg3 (Pipeline.mem_restRefs_of main_arg3 (by decide) (by decide))).trans (W_arg m dats c main_arg3 (by decide) (by decide)),
    ((h c).2 main_arg4 (Pipeline.mem_restRefs_of main_arg4 (by decide) (by decide))).trans (W_arg m dats c main_arg4 (by decide) (by decide)),
    ((h c).2 main_arg5 (Pipeline.mem_restRefs_of main_arg5 (by decide) (by decide))).trans (W_arg m dats c main_arg5 (by decide) (by decide)),
    ((h c).2 main_arg6 (Pipeline.mem_restRefs_of main_arg6 (by decide) (by decide))).trans (W_arg m dats c main_arg6 (by decide) (by decide)),
    ((h c).1 3).trans (((dats 0 c).arrAt_in 3 rfl _).trans ((hA c 3).trans (V_arg m c main_arg7 (by decide)))),
    ((h c).2 main_arg8 (Pipeline.mem_restRefs_of main_arg8 (by decide) (by decide))).trans (W_arg m dats c main_arg8 (by decide) (by decide)),
    ((h c).2 main_arg9 (Pipeline.mem_restRefs_of main_arg9 (by decide) (by decide))).trans (W_arg m dats c main_arg9 (by decide) (by decide)),
    ((h c).2 main_arg10 (Pipeline.mem_restRefs_of main_arg10 (by decide) (by decide))).trans (W_arg m dats c main_arg10 (by decide) (by decide)),
    ((h c).2 main_arg11 (Pipeline.mem_restRefs_of main_arg11 (by decide) (by decide))).trans (W_arg m dats c main_arg11 (by decide) (by decide)),
    ((h c).2 main_arg12 (Pipeline.mem_restRefs_of main_arg12 (by decide) (by decide))).trans (W_arg m dats c main_arg12 (by decide) (by decide)),
    ((h c).1 9).trans (((dats 0 c).arrAt_in 9 rfl _).trans ((hA c 9).trans (V_arg m c main_arg13 (by decide)))),
    ((h c).2 main_arg14 (Pipeline.mem_restRefs_of main_arg14 (by decide) (by decide))).trans (W_arg m dats c main_arg14 (by decide) (by decide)),
    ((h c).2 main_arg15 (Pipeline.mem_restRefs_of main_arg15 (by decide) (by decide))).trans (W_arg m dats c main_arg15 (by decide) (by decide)),
    ((h c).2 main_arg16 (Pipeline.mem_restRefs_of main_arg16 (by decide) (by decide))).trans (W_arg m dats c main_arg16 (by decide) (by decide)),
    ((h c).2 main_arg17 (Pipeline.mem_restRefs_of main_arg17 (by decide) (by decide))).trans (W_arg m dats c main_arg17 (by decide) (by decide)),
    ((h c).2 main_arg18 (Pipeline.mem_restRefs_of main_arg18 (by decide) (by decide))).trans (W_arg m dats c main_arg18 (by decide) (by decide))⟩) h

/-! ## The body's branch -/

/-- The condition of the body's one branch: the tile is the first. -/
abbrev cond0_0 (i : grid0.Coords) : Prop := (Scalar.cmpi .ne (Scalar.extui (Scalar.cmpi .eq (BitVec.ofNat 32 (i 0).val) 0#32)) 0#32) = 1#1
/-- It holds at tile 0 only — decided over the grid. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs the body is called with -/

/-- One staging buffer of each output window, through which its contents are stated. -/
abbrev VO0_15 : View sig .tc .vmem S1x128 .f32 := (Memref.whole cc0_stg15_0 : Memref sig .tc .vmem S1x128 .f32).view
abbrev VO0_16 : View sig .tc .vmem S1024x1 .f32 := (Memref.whole cc0_stg16_0 : Memref sig .tc .vmem S1024x1 .f32).view
abbrev ms0_0 (t : Fin cfg0.N) : Memref sig .tc .vmem S1024x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x2 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x1 .f32 := win0_16.stage (cfg0.slots t 16)
abbrev hs0_16 (t : Fin cfg0.N) : (ms0_16 t).IsWhole := hstage0_16 ((cfg0.slots t 16).cast nbuf0_16)

end Cert.Kernel.Hand

end
-- ==== Proof.BitsRunA.lean ====
/-
  The kernel's body run once, symbolically, at the first tile: the branch is taken, the accumulator is filled with zeros, then the tile's two sums are added to it and the tile's phase differences are stored.
  The run holds each input window's staging buffer at its block and returns it unchanged; what the stores leave in
  the two output buffers is found by the run itself, as the list of stored pieces.
-/
import proofs.«114315_j65214783422667_2_alg».proof.Proof.BitsBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the accumulator's and the phase column's staging buffers, as pieces (last first),
    with the proof that the body runs to its continuation holding the inputs as they were and the two outputs with
    those pieces written. -/
noncomputable def kernelRun0_A (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) :
    Σ' (L15 : List (View.Piece (Elt F) S1x128 .f32)), { L16 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    iexists _; iexact H16

end Cert.Kernel.Hand

end
-- ==== Proof.BitsRunB.lean ====
/-
  The kernel's body run once, symbolically, at a later tile: the branch is not taken, the accumulator still holds what the tile before left, the tile's two sums are added to it and the tile's phase differences are stored.
  The run holds each input window's staging buffer at its block and returns it unchanged; what the stores leave in
  the two output buffers is found by the run itself, as the list of stored pieces.
-/
import proofs.«114315_j65214783422667_2_alg».proof.Proof.BitsRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the accumulator's and the phase column's staging buffers, as pieces (last first),
    with the proof that the body runs to its continuation holding the inputs as they were and the two outputs with
    those pieces written. -/
noncomputable def kernelRun0_B (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : ¬cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) (xo15 : Vec F S1x128 .f32) :
    Σ' (L15 : List (View.Piece (Elt F) S1x128 .f32)), { L16 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare xo15 ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    iexists _; iexact H16

end Cert.Kernel.Hand

end
-- ==== Proof.BitsFrame.lean ====
/-
  The frame of the fused kernel's host program, and its run with every array of the kernel named.

  After the body at tile `t` the accumulator's buffer and the phase column's buffer hold what the tile's case leaves:
  the first tile's case starts from a zero fill, every later tile's case from what the tile before left in the
  accumulator (its buffer is not written back between tiles: the write-back comes after tile 63 only).  With that
  as proof data the body's run at any tile is the case's run, the launch theorem for "host lines, region, host lines"
  applies, and the arguments end unchanged because no host line writes one.
-/
import proofs.«114315_j65214783422667_2_alg».proof.Proof.BitsRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for the accumulator tile its block, so they cover it. -/
theorem cover0_A_15 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1 S1x128.size (by sl_kernel_rfl) y

/-- What case A leaves in the accumulator's staging buffer: its pieces read back. -/
def out0_A_15 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) : Vec F S1x128 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1)

/-- Case A's pieces for the phase column tile its block, so they cover it. -/
theorem cover0_A_16 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) (y : S1024x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1 S1024x1.size (by sl_kernel_rfl) y

/-- What case A leaves in the phase column's staging buffer: its pieces read back. -/
def out0_A_16 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) : Vec F S1024x1 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1)

/-- Case B's pieces for the accumulator tile its block, so they cover it. -/
theorem cover0_B_15 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : ¬cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) (xo15 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo15).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo15).1 S1x128.size (by sl_kernel_rfl) y

/-- What case B leaves in the accumulator's staging buffer: its pieces read back. -/
def out0_B_15 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : ¬cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) (xo15 : Vec F S1x128 .f32) : Vec F S1x128 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo15).1)

/-- Case B's pieces for the phase column tile its block, so they cover it. -/
theorem cover0_B_16 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : ¬cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) (xo15 : Vec F S1x128 .f32) (y : S1024x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo15).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo15).2.1 S1024x1.size (by sl_kernel_rfl) y

/-- What case B leaves in the phase column's staging buffer: its pieces read back. -/
def out0_B_16 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : ¬cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) (xo15 : Vec F S1x128 .f32) : Vec F S1024x1 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo15).2.1)

/-! ## What the outputs hold after each tile -/

/-- The accumulation: what the two output buffers hold after the body at tile `n` — the first tile's case from
    nothing, a later tile's case over what tile `n - 1` left in the accumulator. -/
def outsAt0 (c : Dev nD) : (n : ℕ) → n < cfg0.N → Vec F S1x128 .f32 × Vec F S1024x1 .f32
  | 0, hn => (out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
              out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) % 64 = 0 then
      (out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
       out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
    else
      (out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).1,
       out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).1)

/-- At the first tile: the zero-filled case. -/
theorem outsAt0_A (c : Dev nD) (t : Fin cfg0.N) (h0 : t.val % 64 = 0) :
    outsAt0 m c t.val t.isLt = (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
      out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact (dif_pos h0).trans rfl

/-- At a later tile: the accumulating case, over what the tile before left. -/
theorem outsAt0_B (c : Dev nD) (t : Fin cfg0.N) (h0 : ¬t.val % 64 = 0) :
    outsAt0 m c t.val t.isLt = (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).1,
      out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The proof data -/

/-- The proof data of the kernel on core `c`: the arrays as the kernel finds them; after the body at tile `t` each
    input's buffer at its block and the two outputs' at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]
theorem after0_16 (c : Dev nD) (t : Fin cfg0.N) : (dats m 0 c).after 16 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-- At a later tile the accumulator's buffer holds what the body left at the tile before: it is not written back
    between (the write-back comes after the last tile only). -/
theorem before0_15_B (c : Dev nD) (t : Fin cfg0.N) (h0 : ¬t.val % 64 = 0) (d) :
    (dats m 0 c).before 15 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 15 rfl t (by omega) (Bool.eq_false_iff.mpr fun h => by have := (flush0_15 _).mp h; dsimp only at this; omega)
    (fun _ => rfl) (fun _ _ => rfl)]
  dsimp only [dats]

/-! ## The body obligation -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 4000000 in
/-- The body at any tile: the inputs' buffers hold their blocks; the tile is the first or a later one, and at a later
    one the accumulator holds what the tile before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  have hN : t.val < 64 := lt_of_lt_of_eq t.isLt (show cfg0.N = 64 from N_0)
  by_cases h0 : t.val % 64 = 0
  ·
    rw [after0_15, after0_16, outsAt0_A m c t h0]
    try dsimp only
    unfold out0_A_15 out0_A_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))
    unfold owns; iexists _; isplitr
    swap; · iexact H16
    ipureintro; exact View.read_writes_of_cover _ _ _ _ _ (cover0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))

  ·
    rw [after0_15, after0_16, outsAt0_B m c t h0]
    simp only [before0_15_B m c t h0]
    try dsimp only
    unfold out0_B_15 out0_B_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
    unfold owns; iexists _; isplitr
    swap; · iexact H16
    ipureintro; exact View.read_writes_of_cover _ _ _ _ _ (cover0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the host program terminates, and every final state has each array of the kernel at
    what the launch library computes from the proof data and every other buffer as the last stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and its nineteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Hand

end
-- ==== Proof.IdealBase.lean ====
/-
  The launch of the fused kernel inside its host program, and what the body's runs are stated over.

  The host program is three stretches: nineteen host operations that lay the arguments out for the kernel (two [65536,2]
  state arrays, the forcing column, the weights cast and the biases stood up as rows), the kernel over a grid of
  64 tiles of 1024 rows, and 115 host operations that turn the kernel's two results into the five losses.  The
  kernel's seventeen windows are fifteen inputs (three tiled along the rows, twelve whole weight blocks fetched
  once), the [1,128] accumulator, written back only after the last tile, and the [65536,1] column of phase
  differences, written back tile by tile.
  Every buffer the first stretch writes sits at positions 19..37 of the TensorCore's table and every buffer the last
  stretch writes at positions 40 and beyond, while the arguments are positions 0..18 and the kernel's arrays lie
  below 40: so neither stretch touches an argument, and the last one touches no array of the kernel.
-/
import proofs.«114315_j65214783422667_2_alg».proof.Proof.Gen.KernelIdeal.Launch
import proofs.«114315_j65214783422667_2_alg».proof.Proof.Gen.KernelIdeal.Skeleton
import proofs.«114315_j65214783422667_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the kernel -/

/-- Core `c`'s buffers when the kernel is entered: after the first stretch of host operations. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

set_option maxHeartbeats 4000000 in
theorem hostOps1_fresh : (hostOps1 : List (HloOp τ sig (Elt F))).Forall fun op => op.fresh = ∅ := by
  simp only [List.Forall]; repeat' constructor

/-- The first stretch writes only positions 19 and beyond. -/
theorem hostOps0_writes_ge : (hostOps0 : List (HloOp τ sig (Elt F))).Forall fun op =>
    ∀ b : Ref sig .tc, Proc.devRef (τ := τ) .tc b ∈ op.writes → 19 ≤ b.idx.val := by
  simp only [List.Forall, StableHlo.nullary_writes, StableHlo.unary_writes, StableHlo.binary_writes,
    StableHlo.reshape_writes, StableHlo.nary_writes, Finset.mem_singleton]
  repeat' apply And.intro
  all_goals (intro b e; obtain rfl := Proc.devRef_injective _ e; decide)

set_option maxHeartbeats 4000000 in
/-- The last stretch writes only positions 40 and beyond. -/
theorem hostOps1_writes_ge : (hostOps1 : List (HloOp τ sig (Elt F))).Forall fun op =>
    ∀ b : Ref sig .tc, Proc.devRef (τ := τ) .tc b ∈ op.writes → 40 ≤ b.idx.val := by
  simp only [List.Forall, StableHlo.nullary_writes, StableHlo.unary_writes, StableHlo.binary_writes,
    StableHlo.reshape_writes, StableHlo.nary_writes, Finset.mem_singleton]
  repeat' apply And.intro
  all_goals (intro b e; obtain rfl := Proc.devRef_injective _ e; decide)

/-- A buffer below position 19 is written by no operation of the first stretch. -/
theorem head_keeps (b : Ref sig .tc) (hb : b.idx.val < 19) :
    ∀ op ∈ (hostOps0 : List (HloOp τ sig (Elt F))), Proc.devRef (τ := τ) .tc b ∉ op.writes :=
  fun op hop hw => absurd ((List.forall_iff_forall_mem.mp hostOps0_writes_ge) op hop b hw) (Nat.not_le.mpr hb)

/-- A buffer below position 40 is written by no operation of the last stretch. -/
theorem tail_keeps (b : Ref sig .tc) (hb : b.idx.val < 40) :
    ∀ op ∈ (hostOps1 : List (HloOp τ sig (Elt F))), Proc.devRef (τ := τ) .tc b ∉ op.writes :=
  fun op hop hw => absurd ((List.forall_iff_forall_mem.mp hostOps1_writes_ge) op hop b hw) (Nat.not_le.mpr hb)

/-- The host program reduces to the kernel's region continued by the last stretch, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The last stretch touches the kernel's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes no array of the kernel: those all lie below position 40. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact tail_keeps _ ((by decide : ∀ w : Fin 17, (Pipeline.arrRef spec0 w).idx.val < 40) w) op hop

/-- An argument is as launched when the kernel is entered. -/
theorem V_arg (c : Dev nD) (b : Ref sig .tc) (hb : b.idx.val < 19) : V m c b = m ((c : Thread nD τ).loc b) := by
  show StableHlo.after (List.flatten [hostOps0]) (fun b => m (c, b)) (Proc.devRef .tc b) = _
  rw [List.flatten_cons, List.flatten_nil, List.append_nil, StableHlo.after_of_forall_not_mem _ _ (head_keeps b hb)]

/-- An argument that is no array of the kernel is as launched after the last stretch. -/
theorem W_arg (dats : (p : Fin _) → (c : Dev nD) → Dat τ (Elt F) Unit ℕ (UR sig nD τ) ℕ (cfgs p) c) (c : Dev nD)
    (b : Ref sig .tc) (hb : b.idx.val < 19) (hne : ∀ w, Pipeline.arrRef spec0 w ≠ b) :
    Pipeline.afterTail₀ cfgs dats 0 (V0 m) [hostOps1] c b = m ((c : Thread nD τ).loc b) := by
  unfold Pipeline.afterTail₀
  rw [List.flatten_cons, List.flatten_nil, List.append_nil,
    StableHlo.after_of_forall_not_mem (b := Proc.devRef .tc b) _ _ (tail_keeps b (Nat.lt_of_lt_of_le hb (by decide))),
    Pipeline.withArrays_of_ne _ c (V0 m c) _ b hne]
  exact V_arg m c b hb

/-! ## The windows' blocks -/

/-- Window `w`'s block at tile `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every tile, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every tile, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every tile, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every tile, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every tile, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every tile, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every tile, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every tile, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every tile, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every tile, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every tile, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every tile, fetched there or not. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every tile, fetched there or not. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current staging buffer holds its block at every tile, fetched there or not. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's current staging buffer holds its block at every tile, fetched there or not. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- From a run to the launch theorem's post the arguments end as launched: the two weight blocks the kernel stages
    whole are input arrays of it, every other argument bypasses the kernel and no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_arg0 (Pipeline.mem_restRefs_of main_arg0 (by decide) (by decide))).trans (W_arg m dats c main_arg0 (by decide) (by decide)),
    ((h c).2 main_arg1 (Pipeline.mem_restRefs_of main_arg1 (by decide) (by decide))).trans (W_arg m dats c main_arg1 (by decide) (by decide)),
    ((h c).2 main_arg2 (Pipeline.mem_restRefs_of main_arg2 (by decide) (by decide))).trans (W_arg m dats c main_arg2 (by decide) (by decide)),
    ((h c).2 main_arg3 (Pipeline.mem_restRefs_of main_arg3 (by decide) (by decide))).trans (W_arg m dats c main_arg3 (by decide) (by decide)),
    ((h c).2 main_arg4 (Pipeline.mem_restRefs_of main_arg4 (by decide) (by decide))).trans (W_arg m dats c main_arg4 (by decide) (by decide)),
    ((h c).2 main_arg5 (Pipeline.mem_restRefs_of main_arg5 (by decide) (by decide))).trans (W_arg m dats c main_arg5 (by decide) (by decide)),
    ((h c).2 main_arg6 (Pipeline.mem_restRefs_of main_arg6 (by decide) (by decide))).trans (W_arg m dats c main_arg6 (by decide) (by decide)),
    ((h c).1 3).trans (((dats 0 c).arrAt_in 3 rfl _).trans ((hA c 3).trans (V_arg m c main_arg7 (by decide)))),
    ((h c).2 main_arg8 (Pipeline.mem_restRefs_of main_arg8 (by decide) (by decide))).trans (W_arg m dats c main_arg8 (by decide) (by decide)),
    ((h c).2 main_arg9 (Pipeline.mem_restRefs_of main_arg9 (by decide) (by decide))).trans (W_arg m dats c main_arg9 (by decide) (by decide)),
    ((h c).2 main_arg10 (Pipeline.mem_restRefs_of main_arg10 (by decide) (by decide))).trans (W_arg m dats c main_arg10 (by decide) (by decide)),
    ((h c).2 main_arg11 (Pipeline.mem_restRefs_of main_arg11 (by decide) (by decide))).trans (W_arg m dats c main_arg11 (by decide) (by decide)),
    ((h c).2 main_arg12 (Pipeline.mem_restRefs_of main_arg12 (by decide) (by decide))).trans (W_arg m dats c main_arg12 (by decide) (by decide)),
    ((h c).1 9).trans (((dats 0 c).arrAt_in 9 rfl _).trans ((hA c 9).trans (V_arg m c main_arg13 (by decide)))),
    ((h c).2 main_arg14 (Pipeline.mem_restRefs_of main_arg14 (by decide) (by decide))).trans (W_arg m dats c main_arg14 (by decide) (by decide)),
    ((h c).2 main_arg15 (Pipeline.mem_restRefs_of main_arg15 (by decide) (by decide))).trans (W_arg m dats c main_arg15 (by decide) (by decide)),
    ((h c).2 main_arg16 (Pipeline.mem_restRefs_of main_arg16 (by decide) (by decide))).trans (W_arg m dats c main_arg16 (by decide) (by decide)),
    ((h c).2 main_arg17 (Pipeline.mem_restRefs_of main_arg17 (by decide) (by decide))).trans (W_arg m dats c main_arg17 (by decide) (by decide)),
    ((h c).2 main_arg18 (Pipeline.mem_restRefs_of main_arg18 (by decide) (by decide))).trans (W_arg m dats c main_arg18 (by decide) (by decide))⟩) h

/-! ## The body's branch -/

/-- The condition of the body's one branch: the tile is the first. -/
abbrev cond0_0 (i : grid0.Coords) : Prop := (Scalar.cmpi .ne (Scalar.extui (Scalar.cmpi .eq (BitVec.ofNat 32 (i 0).val) 0#32)) 0#32) = 1#1
/-- It holds at tile 0 only — decided over the grid. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs the body is called with -/

/-- One staging buffer of each output window, through which its contents are stated. -/
abbrev VO0_15 : View sig .tc .vmem S1x128 .f32 := (Memref.whole cc0_stg15_0 : Memref sig .tc .vmem S1x128 .f32).view
abbrev VO0_16 : View sig .tc .vmem S1024x1 .f32 := (Memref.whole cc0_stg16_0 : Memref sig .tc .vmem S1024x1 .f32).view
abbrev ms0_0 (t : Fin cfg0.N) : Memref sig .tc .vmem S1024x2 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x2 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x2 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x128 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x1 .f32 := win0_16.stage (cfg0.slots t 16)
abbrev hs0_16 (t : Fin cfg0.N) : (ms0_16 t).IsWhole := hstage0_16 ((cfg0.slots t 16).cast nbuf0_16)

end Cert.KernelIdeal.Hand

end
-- ==== Proof.IdealRunA.lean ====
/-
  The kernel's body run once, symbolically, at the first tile: the branch is taken, the accumulator is filled with zeros, then the tile's two sums are added to it and the tile's phase differences are stored.
  The run holds each input window's staging buffer at its block and returns it unchanged; what the stores leave in
  the two output buffers is found by the run itself, as the list of stored pieces.
-/
import proofs.«114315_j65214783422667_2_alg».proof.Proof.IdealBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the accumulator's and the phase column's staging buffers, as pieces (last first),
    with the proof that the body runs to its continuation holding the inputs as they were and the two outputs with
    those pieces written. -/
noncomputable def kernelRun0_A (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) :
    Σ' (L15 : List (View.Piece (Elt F) S1x128 .f32)), { L16 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    iexists _; iexact H16

end Cert.KernelIdeal.Hand

end
-- ==== Proof.IdealRunB.lean ====
/-
  The kernel's body run once, symbolically, at a later tile: the branch is not taken, the accumulator still holds what the tile before left, the tile's two sums are added to it and the tile's phase differences are stored.
  The run holds each input window's staging buffer at its block and returns it unchanged; what the stores leave in
  the two output buffers is found by the run itself, as the list of stored pieces.
-/
import proofs.«114315_j65214783422667_2_alg».proof.Proof.IdealRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the accumulator's and the phase column's staging buffers, as pieces (last first),
    with the proof that the body runs to its continuation holding the inputs as they were and the two outputs with
    those pieces written. -/
noncomputable def kernelRun0_B (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : ¬cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) (xo15 : Vec F S1x128 .f32) :
    Σ' (L15 : List (View.Piece (Elt F) S1x128 .f32)), { L16 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare xo15 ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    iexists _; iexact H16

end Cert.KernelIdeal.Hand

end
-- ==== Proof.IdealFrame.lean ====
/-
  The frame of the fused kernel's host program, and its run with every array of the kernel named.

  After the body at tile `t` the accumulator's buffer and the phase column's buffer hold what the tile's case leaves:
  the first tile's case starts from a zero fill, every later tile's case from what the tile before left in the
  accumulator (its buffer is not written back between tiles: the write-back comes after tile 63 only).  With that
  as proof data the body's run at any tile is the case's run, the launch theorem for "host lines, region, host lines"
  applies, and the arguments end unchanged because no host line writes one.
-/
import proofs.«114315_j65214783422667_2_alg».proof.Proof.IdealRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for the accumulator tile its block, so they cover it. -/
theorem cover0_A_15 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) (y : S1x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1 S1x128.size (by sl_kernel_rfl) y

/-- What case A leaves in the accumulator's staging buffer: its pieces read back. -/
def out0_A_15 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) : Vec F S1x128 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).1)

/-- Case A's pieces for the phase column tile its block, so they cover it. -/
theorem cover0_A_16 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) (y : S1024x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1 S1024x1.size (by sl_kernel_rfl) y

/-- What case A leaves in the phase column's staging buffer: its pieces read back. -/
def out0_A_16 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) : Vec F S1024x1 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14).2.1)

/-- Case B's pieces for the accumulator tile its block, so they cover it. -/
theorem cover0_B_15 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : ¬cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) (xo15 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo15).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo15).1 S1x128.size (by sl_kernel_rfl) y

/-- What case B leaves in the accumulator's staging buffer: its pieces read back. -/
def out0_B_15 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : ¬cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) (xo15 : Vec F S1x128 .f32) : Vec F S1x128 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo15).1)

/-- Case B's pieces for the phase column tile its block, so they cover it. -/
theorem cover0_B_16 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : ¬cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) (xo15 : Vec F S1x128 .f32) (y : S1024x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo15).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo15).2.1 S1024x1.size (by sl_kernel_rfl) y

/-- What case B leaves in the phase column's staging buffer: its pieces read back. -/
def out0_B_16 (c : Dev nD) (i : grid0.Coords) (arg1 : Memref sig .tc .vmem S1024x2 .f32) (harg1 : arg1.IsWhole) (arg2 : Memref sig .tc .vmem S1024x2 .f32) (harg2 : arg2.IsWhole) (arg3 : Memref sig .tc .vmem S1024x1 .f32) (harg3 : arg3.IsWhole) (arg4 : Memref sig .tc .vmem S2x512 .f32) (harg4 : arg4.IsWhole) (arg5 : Memref sig .tc .vmem S1x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S512x2 .bf16) (harg8 : arg8.IsWhole) (arg9 : Memref sig .tc .vmem S1x2 .f32) (harg9 : arg9.IsWhole) (arg10 : Memref sig .tc .vmem S2x512 .f32) (harg10 : arg10.IsWhole) (arg11 : Memref sig .tc .vmem S1x512 .f32) (harg11 : arg11.IsWhole) (arg12 : Memref sig .tc .vmem S512x512 .bf16) (harg12 : arg12.IsWhole) (arg13 : Memref sig .tc .vmem S1x512 .f32) (harg13 : arg13.IsWhole) (arg14 : Memref sig .tc .vmem S512x2 .bf16) (harg14 : arg14.IsWhole) (arg15 : Memref sig .tc .vmem S1x2 .f32) (harg15 : arg15.IsWhole) (arg16 : Memref sig .tc .vmem S1x128 .f32) (harg16 : arg16.IsWhole) (arg17 : Memref sig .tc .vmem S1024x1 .f32) (harg17 : arg17.IsWhole) (hc0 : ¬cond0_0 i)
    (x0 : Vec F S1024x2 .f32) (x1 : Vec F S1024x2 .f32) (x2 : Vec F S1024x1 .f32) (x3 : Vec F S2x512 .f32) (x4 : Vec F S1x512 .f32) (x5 : Vec F S512x512 .bf16) (x6 : Vec F S1x512 .f32) (x7 : Vec F S512x2 .bf16) (x8 : Vec F S1x2 .f32) (x9 : Vec F S2x512 .f32) (x10 : Vec F S1x512 .f32) (x11 : Vec F S512x512 .bf16) (x12 : Vec F S1x512 .f32) (x13 : Vec F S512x2 .bf16) (x14 : Vec F S1x2 .f32) (xo15 : Vec F S1x128 .f32) : Vec F S1024x1 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 x13 x14 xo15).2.1)

/-! ## What the outputs hold after each tile -/

/-- The accumulation: what the two output buffers hold after the body at tile `n` — the first tile's case from
    nothing, a later tile's case over what tile `n - 1` left in the accumulator. -/
def outsAt0 (c : Dev nD) : (n : ℕ) → n < cfg0.N → Vec F S1x128 .f32 × Vec F S1024x1 .f32
  | 0, hn => (out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
              out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) % 64 = 0 then
      (out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
       out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
    else
      (out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).1,
       out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).1)

/-- At the first tile: the zero-filled case. -/
theorem outsAt0_A (c : Dev nD) (t : Fin cfg0.N) (h0 : t.val % 64 = 0) :
    outsAt0 m c t.val t.isLt = (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
      out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact (dif_pos h0).trans rfl

/-- At a later tile: the accumulating case, over what the tile before left. -/
theorem outsAt0_B (c : Dev nD) (t : Fin cfg0.N) (h0 : ¬t.val % 64 = 0) :
    outsAt0 m c t.val t.isLt = (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).1,
      out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans rfl

/-! ## The proof data -/

/-- The proof data of the kernel on core `c`: the arrays as the kernel finds them; after the body at tile `t` each
    input's buffer at its block and the two outputs' at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨16, _⟩ => (outsAt0 m c t.val t.isLt).2
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]
theorem after0_16 (c : Dev nD) (t : Fin cfg0.N) : (dats m 0 c).after 16 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-- At a later tile the accumulator's buffer holds what the body left at the tile before: it is not written back
    between (the write-back comes after the last tile only). -/
theorem before0_15_B (c : Dev nD) (t : Fin cfg0.N) (h0 : ¬t.val % 64 = 0) (d) :
    (dats m 0 c).before 15 t d = (outsAt0 m c (t.val - 1) (Nat.lt_of_le_of_lt (Nat.sub_le _ _) t.isLt)).1 := by
  have hN : t.val < 64 := lt_of_lt_of_eq t.isLt (show cfg0.N = 64 from N_0)
  rw [Dat.before_out_kept _ 15 rfl t (by omega) (Bool.eq_false_iff.mpr fun h => by have := (flush0_15 _).mp h; dsimp only at this; omega)
    (fun _ => rfl) (fun _ _ => rfl)]
  dsimp only [dats]

/-! ## The body obligation -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 4000000 in
/-- The body at any tile: the inputs' buffers hold their blocks; the tile is the first or a later one, and at a later
    one the accumulator holds what the tile before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  have hN : t.val < 64 := lt_of_lt_of_eq t.isLt (show cfg0.N = 64 from N_0)
  by_cases h0 : t.val % 64 = 0
  ·
    rw [after0_15, after0_16, outsAt0_A m c t h0]
    try dsimp only
    unfold out0_A_15 out0_A_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))
    unfold owns; iexists _; isplitr
    swap; · iexact H16
    ipureintro; exact View.read_writes_of_cover _ _ _ _ _ (cover0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))

  ·
    rw [after0_15, after0_16, outsAt0_B m c t h0]
    simp only [before0_15_B m c t h0]
    try dsimp only
    unfold out0_B_15 out0_B_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    iintro ⟨H0, H1, H2, H3, H4, H5, H6, H7, H8, H9, H10, H11, H12, H13, H14, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]
    · unfold owns; iexists _; isplitr
      swap; · iexact H15
      ipureintro; exact View.read_writes_of_cover _ _ _ _ _ (cover0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
    unfold owns; iexists _; isplitr
    swap; · iexact H16
    ipureintro; exact View.read_writes_of_cover _ _ _ _ _ (cover0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)

/-- The library's body obligation, at every tile. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the host program terminates, and every final state has each array of the kernel at
    what the launch library computes from the proof data and every other buffer as the last stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and its nineteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Hand

end
-- ==== Proof.Spec.lean ====
/-
  The mathematics both programs compute, one row of the batch at a time, over the extended reals.

  A row of the batch is five numbers: a state (p0, q0), a second state (p1, q1), and a forcing term f (the external
  force times the time step). Two small perceptrons act on states: the encoder sends a state to latent coordinates
  (P, Q), the decoder sends latent coordinates back. Each perceptron is three dense layers
  2 → 512 → 512 → 2 with a hyperbolic tangent after the first two.  From one row the losses take:
    * the reconstruction term  (p0 − p̂0)² + (q0 − q̂0)²  with (p̂0, q̂0) the decoder at the encoder at (p0, q0);
    * the action term  (P1 − P0 − f)²;
    * the phase difference  Q1 − Q0.
  Everything here is a definition; nothing depends on a printed program.
-/
import Idealize.ShloMosaic.PureOps.Ideal
import Mathlib.Algebra.BigOperators.Fin

noncomputable section

namespace Cert.Spec

open Idealize.ShloMosaic

/-- One dense layer on one row: entry `j` of `x · w + b`. -/
def lin {K N : ℕ} (w : Fin K → Fin N → EReal) (b : Fin N → EReal) (x : Fin K → EReal) (j : Fin N) : EReal :=
  (∑ k : Fin K, x k * w k j) + b j

/-- The weights of one perceptron 2 → 512 → 512 → 2. -/
structure Net where
  w1 : Fin 2 → Fin 512 → EReal
  b1 : Fin 512 → EReal
  w2 : Fin 512 → Fin 512 → EReal
  b2 : Fin 512 → EReal
  w3 : Fin 512 → Fin 2 → EReal
  b3 : Fin 2 → EReal

/-- The first hidden layer at the state `(p, q)`. -/
def Net.h1 (n : Net) (p q : EReal) (j : Fin 512) : EReal := Ideal.tanh (lin n.w1 n.b1 ![p, q] j)

/-- The second hidden layer. -/
def Net.h2 (n : Net) (p q : EReal) (j : Fin 512) : EReal := Ideal.tanh (lin n.w2 n.b2 (n.h1 p q) j)

/-- The perceptron at the state `(p, q)`: its two outputs. -/
def Net.out (n : Net) (p q : EReal) (j : Fin 2) : EReal := lin n.w3 n.b3 (n.h2 p q) j

/-- The reconstruction term of one row. -/
def reconTerm (enc dec : Net) (p0 q0 : EReal) : EReal :=
  (p0 - dec.out (enc.out p0 q0 0) (enc.out p0 q0 1) 0) * (p0 - dec.out (enc.out p0 q0 0) (enc.out p0 q0 1) 0)
    + (q0 - dec.out (enc.out p0 q0 0) (enc.out p0 q0 1) 1) * (q0 - dec.out (enc.out p0 q0 0) (enc.out p0 q0 1) 1)

/-- The action term of one row. -/
def actionTerm (enc : Net) (p0 q0 p1 q1 f : EReal) : EReal :=
  (enc.out p1 q1 0 - enc.out p0 q0 0 - f) * (enc.out p1 q1 0 - enc.out p0 q0 0 - f)

/-- The phase difference of one row. -/
def phaseDiff (enc : Net) (p0 q0 p1 q1 : EReal) : EReal := enc.out p1 q1 1 - enc.out p0 q0 1

end Cert.Spec

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.KernelNet.lean ====
import proofs.«114315_j65214783422667_2_alg».proof.Proof.Gen.KernelIdeal.Skeleton
import proofs.«114315_j65214783422667_2_alg».proof.Proof.Spec
import proofs.«114315_j65214783422667_2_alg».proof.Proof.LibPlainDot
import proofs.«114315_j65214783422667_2_alg».proof.Proof.LibTileLayout
import Idealize.ShloMosaic.Lib.ValueIdx
import Idealize.ShloMosaic.Lib.ValueLayout
import Idealize.ShloMosaic.Lib.Pipeline.Value
import Idealize.ShloMosaic.PureOps.Ideal.Laws

/-!
# The perceptron on a tile of 1024 rows

The body of the kernel evaluates a perceptron 2 → 512 → 512 → 2 on 1024 rows at once. The first layer is written
without a matrix product: the column of first coordinates times the first weight row, plus the column of second
coordinates times the second weight row, plus the bias row, each spread over the `[1024, 512]` tile. The second and
third layers are matrix products into a zero accumulator with a bias row added; the narrowing of the operands to
sixteen bits is the identity over the extended reals. Row `r` of the result only sees row `r` of the two columns:
entry `(r, j)` is output `j` of the perceptron at the state `(a r, b r)`.
-/

noncomputable section

namespace Cert.KernelIdeal.Rows

open Idealize.ShloMosaic Idealize.ShloMosaic.ValueIdx Cert.KernelIdeal Cert.KernelIdeal.Gen
open scoped BigOperators

/-- The six weight blocks of one perceptron, read as its weights: biases are one-row matrices. -/
def netOf (w1 : Vec Ideal S2x512 .f32) (b1 : FVec Ideal S1x512 .f32) (w2 : FVec Ideal S512x512 .bf16)
    (b2 : FVec Ideal S1x512 .f32) (w3 : FVec Ideal S512x2 .bf16) (b3 : FVec Ideal S1x2 .f32) : Cert.Spec.Net where
  w1 := fun (k : Fin 2) (j : Fin 512) => w1 (ix2 k j)
  b1 := fun (j : Fin 512) => b1 (ix2 (0 : Fin 1) j)
  w2 := fun (k : Fin 512) (j : Fin 512) => w2 (ix2 k j)
  b2 := fun (j : Fin 512) => b2 (ix2 (0 : Fin 1) j)
  w3 := fun (k : Fin 512) (j : Fin 2) => w3 (ix2 k j)
  b3 := fun (j : Fin 2) => b3 (ix2 (0 : Fin 1) j)

/-! ## Rows of the first weight matrix, columns of a block of states -/

/-- The slice of row 0 of a `[2, 512]` matrix. -/
theorem row0_apply (w : Vec Ideal S2x512 .f32) (h : S2x512.Slices ![0, 0] S1x512) (j : Fin 512) :
    extractStridedSlice S1x512 ![0, 0] w h (ix2 (0 : Fin 1) j) = w (ix2 (0 : Fin 2) j) :=
  extractStridedSlice_apply _ w h _ _ fun ax =>
    match ax with
    | ⟨0, _⟩ => rfl
    | ⟨1, _⟩ => (Nat.zero_add _).symm

/-- The slice of row 1 of a `[2, 512]` matrix. -/
theorem row1_apply (w : Vec Ideal S2x512 .f32) (h : S2x512.Slices ![1, 0] S1x512) (j : Fin 512) :
    extractStridedSlice S1x512 ![1, 0] w h (ix2 (0 : Fin 1) j) = w (ix2 (1 : Fin 2) j) :=
  extractStridedSlice_apply _ w h _ _ fun ax =>
    match ax with
    | ⟨0, _⟩ => rfl
    | ⟨1, _⟩ => (Nat.zero_add _).symm

/-- Column 0 of a `[1024, 2]` block. -/
theorem col0_apply (x : FVec Ideal S1024x2 .f32) (h : S1024x2.Slices ![0, 0] S1024x1) (r : Fin 1024) :
    extractStridedSlice S1024x1 ![0, 0] x h (ix2 r (0 : Fin 1)) = x (ix2 r (0 : Fin 2)) :=
  extractStridedSlice_apply _ x h _ _ fun ax =>
    match ax with
    | ⟨0, _⟩ => (Nat.zero_add _).symm
    | ⟨1, _⟩ => rfl

/-- Column 1 of a `[1024, 2]` block. -/
theorem col1_apply (x : FVec Ideal S1024x2 .f32) (h : S1024x2.Slices ![0, 1] S1024x1) (r : Fin 1024) :
    extractStridedSlice S1024x1 ![0, 1] x h (ix2 r (0 : Fin 1)) = x (ix2 r (1 : Fin 2)) :=
  extractStridedSlice_apply _ x h _ _ fun ax =>
    match ax with
    | ⟨0, _⟩ => (Nat.zero_add _).symm
    | ⟨1, _⟩ => rfl

/-! ## The three layers -/

/-- The first hidden layer on the tile: at `(r, j)` the `tanh` of `a r · w0 j + b r · w1 j + bias j`. -/
theorem hidden1_apply (a b : FVec Ideal S1024x1 .f32) (w0 w1 bias : FVec Ideal S1x512 .f32)
    (h1 : S1024x1.Broadcasts S1024x512) (h2 : S1x512.Broadcasts S1024x512) (r : Fin 1024) (j : Fin 512) :
    tanh (addf (addf (mulf (broadcastTo S1024x512 a h1) (broadcastTo S1024x512 w0 h2))
        (mulf (broadcastTo S1024x512 b h1) (broadcastTo S1024x512 w1 h2))) (broadcastTo S1024x512 bias h2)) (ix2 r j)
      = Ideal.tanh (a (ix2 r (0 : Fin 1)) * w0 (ix2 (0 : Fin 1) j) + b (ix2 r (0 : Fin 1)) * w1 (ix2 (0 : Fin 1) j)
          + bias (ix2 (0 : Fin 1) j)) := by
  show Ideal.tanh (broadcastTo S1024x512 a h1 (ix2 r j) * broadcastTo S1024x512 w0 h2 (ix2 r j)
      + broadcastTo S1024x512 b h1 (ix2 r j) * broadcastTo S1024x512 w1 h2 (ix2 r j)
      + broadcastTo S1024x512 bias h2 (ix2 r j)) = _
  rw [Cert.TileLayout.broadcastTo_a1_ab_apply a h1 r j, Cert.TileLayout.broadcastTo_a1_ab_apply b h1 r j,
    broadcastTo_1b_ab_apply w0 h2 r j, broadcastTo_1b_ab_apply w1 h2 r j, broadcastTo_1b_ab_apply bias h2 r j]

/-- The second and third layers on the tile, from the first hidden layer `H`. -/
theorem tail_apply (H : FVec Ideal S1024x512 .f32) (w2 : FVec Ideal S512x512 .bf16) (b2 : FVec Ideal S1x512 .f32)
    (w3 : FVec Ideal S512x2 .bf16) (b3 : FVec Ideal S1x2 .f32) (hb : FTy.bits .bf16 < FTy.bits .f32)
    (h2 : S1x512.Broadcasts S1024x512) (h3 : S1x2.Broadcasts S1024x2) (r : Fin 1024) (j : Fin 2) :
    addf (matmul dot_S1024x512_S512x2_S1024x2_1_0_0_1_n_n none
        (truncf .bf16 (tanh (addf (matmul dot_S1024x512_S512x512_S1024x512_1_0_0_1_n_n none (truncf .bf16 H hb) w2
          (constant S1024x512 .f32 0x00000000#32)) (broadcastTo S1024x512 b2 h2))) hb) w3
        (constant S1024x2 .f32 0x00000000#32)) (broadcastTo S1024x2 b3 h3) (ix2 r j)
      = (∑ k : Fin 512, Ideal.tanh ((∑ m : Fin 512, H (ix2 r m) * w2 (ix2 m k)) + b2 (ix2 (0 : Fin 1) k)) * w3 (ix2 k j))
          + b3 (ix2 (0 : Fin 1) j) := by
  rw [addf_apply, broadcastTo_1b_ab_apply b3 h3 r j]
  refine congrArg (· + b3 (ix2 (0 : Fin 1) j)) ?_
  refine (Cert.LibPlainDot.matmul_zero_apply _ ⟨rfl, rfl, rfl, rfl, rfl, rfl⟩ none _ w3 r j).trans ?_
  refine Finset.sum_congr rfl fun k _ => congrArg (· * w3 (ix2 k j)) ?_
  show Ideal.tanh (addf _ (broadcastTo S1024x512 b2 h2) (ix2 r k)) = _
  rw [addf_apply, broadcastTo_1b_ab_apply b2 h2 r k]
  refine congrArg (fun s => Ideal.tanh (s + b2 (ix2 (0 : Fin 1) k))) ?_
  exact Cert.LibPlainDot.matmul_zero_apply _ ⟨rfl, rfl, rfl, rfl, rfl, rfl⟩ none _ w2 r k

/-- The whole perceptron on the tile. The two rows `w0`, `w1` of the first weight matrix `W` enter as one-row
    matrices; entry `(r, j)` is output `j` at the state `(a r, b r)`. -/
theorem net_apply (a b : FVec Ideal S1024x1 .f32) (w0 w1 : FVec Ideal S1x512 .f32) (W : Vec Ideal S2x512 .f32)
    (hw0 : ∀ j : Fin 512, w0 (ix2 (0 : Fin 1) j) = W (ix2 (0 : Fin 2) j))
    (hw1 : ∀ j : Fin 512, w1 (ix2 (0 : Fin 1) j) = W (ix2 (1 : Fin 2) j))
    (b1 : FVec Ideal S1x512 .f32) (w2 : FVec Ideal S512x512 .bf16) (b2 : FVec Ideal S1x512 .f32)
    (w3 : FVec Ideal S512x2 .bf16) (b3 : FVec Ideal S1x2 .f32) (hb : FTy.bits .bf16 < FTy.bits .f32)
    (h1 : S1024x1.Broadcasts S1024x512) (h2 : S1x512.Broadcasts S1024x512) (h3 : S1x2.Broadcasts S1024x2)
    (r : Fin 1024) (j : Fin 2) :
    addf (matmul dot_S1024x512_S512x2_S1024x2_1_0_0_1_n_n none
        (truncf .bf16 (tanh (addf (matmul dot_S1024x512_S512x512_S1024x512_1_0_0_1_n_n none
          (truncf .bf16 (tanh (addf (addf (mulf (broadcastTo S1024x512 a h1) (broadcastTo S1024x512 w0 h2))
            (mulf (broadcastTo S1024x512 b h1) (broadcastTo S1024x512 w1 h2))) (broadcastTo S1024x512 b1 h2))) hb) w2
          (constant S1024x512 .f32 0x00000000#32)) (broadcastTo S1024x512 b2 h2))) hb) w3
        (constant S1024x2 .f32 0x00000000#32)) (broadcastTo S1024x2 b3 h3) (ix2 r j)
      = (netOf W b1 w2 b2 w3 b3).out (a (ix2 r (0 : Fin 1))) (b (ix2 r (0 : Fin 1))) j := by
  refine (tail_apply _ w2 b2 w3 b3 hb h2 h3 r j).trans ?_
  unfold Cert.Spec.Net.out Cert.Spec.lin
  refine congrArg (· + b3 (ix2 (0 : Fin 1) j)) (Finset.sum_congr rfl fun k _ => congrArg (· * w3 (ix2 k j)) ?_)
  unfold Cert.Spec.Net.h2 Cert.Spec.lin
  refine congrArg (fun s => Ideal.tanh (s + b2 (ix2 (0 : Fin 1) k)))
    (Finset.sum_congr rfl fun m _ => congrArg (· * w2 (ix2 m k)) ?_)
  refine (hidden1_apply a b w0 w1 b1 h1 h2 r m).trans ?_
  unfold Cert.Spec.Net.h1 Cert.Spec.lin
  rw [Fin.sum_univ_two, hw0, hw1]
  rfl

/-! ## The encoder's payloads -/

variable (v4 v6 : FVec Ideal S1024x2 .f32) (v9 : Vec Ideal S2x512 .f32) (v11 : FVec Ideal S1x512 .f32)
  (v13 : FVec Ideal S512x512 .bf16) (v15 : FVec Ideal S1x512 .f32) (v17 : FVec Ideal S512x2 .bf16)
  (v19 : FVec Ideal S1x2 .f32)

/-- The perceptron on the block of first states. -/
theorem pay19_apply (r : Fin 1024) (j : Fin 2) :
    k0_pay19 (F := Ideal) v4 v9 v11 v13 v15 v17 v19 (ix2 r j)
      = (netOf v9 v11 v13 v15 v17 v19).out (v4 (ix2 r (0 : Fin 2))) (v4 (ix2 r (1 : Fin 2))) j := by
  unfold k0_pay19 k0_pay17 k0_pay18
  refine (net_apply _ _ _ _ v9 (row0_apply v9 _) (row1_apply v9 _) v11 v13 v15 v17 v19 _ _ _ _ r j).trans ?_
  rw [col0_apply, col1_apply]

/-- The perceptron on the block of second states. -/
theorem pay22_apply (r : Fin 1024) (j : Fin 2) :
    k0_pay22 (F := Ideal) v6 v9 v11 v13 v15 v17 v19 (ix2 r j)
      = (netOf v9 v11 v13 v15 v17 v19).out (v6 (ix2 r (0 : Fin 2))) (v6 (ix2 r (1 : Fin 2))) j := by
  unfold k0_pay22
  refine (net_apply _ _ _ _ v9 (row0_apply v9 _) (row1_apply v9 _) v11 v13 v15 v17 v19 _ _ _ _ r j).trans ?_
  rw [col0_apply, col1_apply]

/-- The first latent coordinate of the first states, as a column. -/
theorem pay20_apply (r : Fin 1024) :
    k0_pay20 (F := Ideal) v4 v9 v11 v13 v15 v17 v19 (ix2 r (0 : Fin 1))
      = (netOf v9 v11 v13 v15 v17 v19).out (v4 (ix2 r (0 : Fin 2))) (v4 (ix2 r (1 : Fin 2))) 0 := by
  unfold k0_pay20
  exact (col0_apply _ _ r).trans (pay19_apply v4 v9 v11 v13 v15 v17 v19 r 0)

/-- The second latent coordinate of the first states, as a column. -/
theorem pay21_apply (r : Fin 1024) :
    k0_pay21 (F := Ideal) v4 v9 v11 v13 v15 v17 v19 (ix2 r (0 : Fin 1))
      = (netOf v9 v11 v13 v15 v17 v19).out (v4 (ix2 r (0 : Fin 2))) (v4 (ix2 r (1 : Fin 2))) 1 := by
  unfold k0_pay21
  exact (col1_apply _ _ r).trans (pay19_apply v4 v9 v11 v13 v15 v17 v19 r 1)

/-- The first latent coordinate of the second states, as a column. -/
theorem pay23_apply (r : Fin 1024) :
    k0_pay23 (F := Ideal) v6 v9 v11 v13 v15 v17 v19 (ix2 r (0 : Fin 1))
      = (netOf v9 v11 v13 v15 v17 v19).out (v6 (ix2 r (0 : Fin 2))) (v6 (ix2 r (1 : Fin 2))) 0 := by
  unfold k0_pay23
  exact (col0_apply _ _ r).trans (pay22_apply v6 v9 v11 v13 v15 v17 v19 r 0)

/-- The second latent coordinate of the second states, as a column. -/
theorem pay24_apply (r : Fin 1024) :
    k0_pay24 (F := Ideal) v6 v9 v11 v13 v15 v17 v19 (ix2 r (0 : Fin 1))
      = (netOf v9 v11 v13 v15 v17 v19).out (v6 (ix2 r (0 : Fin 2))) (v6 (ix2 r (1 : Fin 2))) 1 := by
  unfold k0_pay24
  exact (col1_apply _ _ r).trans (pay22_apply v6 v9 v11 v13 v15 v17 v19 r 1)

end Cert.KernelIdeal.Rows

end
-- ==== Proof.LibRowLayout.lean ====
import Idealize.ShloMosaic.Lib.Pipeline.Value
import Idealize.ShloMosaic.Lib.ValueLayout
import Idealize.ShloMosaic.PureOps.Ideal.Laws
import proofs.«114315_j65214783422667_2_alg».proof.Proof.LibTileLayout

/-!
# Two-axis arrays handled row by row: slices of columns, pieces joined side by side, row sums as a column

A program that treats every row of an `[a, b]` array by itself cuts columns out of it, sums along a row, stands the sums up
as a column `[a, 1]`, and joins columns and blocks side by side again. Each of these steps only moves numbers (or adds up
one row), and here each is read at an index `(p, q)` written by its coordinates, for any extents:

* `slice_cols_apply`: the slice of columns `o … o + b' − 1` has at `(p, k)` the entry `(p, o + k)`;
* `concat_axis1_apply`: pieces joined along axis 1 have at `(p, q)` the entry `(p, r)` of the piece whose columns start
  at `pre` and hold `q = pre + r`;
* `sumCol_apply`: the sums along axis 1 (from a zero word, at the exact instance) stood up as a column have at `(p, 0)`
  the sum of row `p`;
* `column_apply`: a vector `[a]` stood up as a column `[a, 1]` by `broadcast_in_dim` has at `(p, 0)` the entry `p`.
-/

namespace Cert.RowLayout

open Idealize.ShloMosaic Idealize.ShloMosaic.ValueIdx
open scoped BigOperators

variable {α : Type}

/-- A slice of whole columns: at `(p, k)` it has the operand's entry `(p, o + k)`. -/
theorem slice_cols_apply {a b b' : ℕ} (o : ℕ) (x : (⟨2, ![a, b]⟩ : Shape).Idx → α)
    (h : (⟨2, ![a, b]⟩ : Shape).Slices ![0, o] ⟨2, ![a, b']⟩) (p : Fin a) (k : Fin b') (hk : o + k.val < b) :
    extractStridedSlice ⟨2, ![a, b']⟩ ![0, o] x h (ix2 p k) = x (ix2 p ⟨o + k.val, hk⟩) :=
  extractStridedSlice_apply _ x h _ _ fun ax =>
    match ax with
    | ⟨0, _⟩ => (Nat.zero_add _).symm
    | ⟨1, _⟩ => rfl

/-- Pieces joined along axis 1: the entry `(p, q)` is the entry `(p, r)` of piece `k`, when the pieces before it are `pre`
    columns wide and `q = pre + r`. -/
theorem concat_axis1_apply {a n b₁ : ℕ} (xs : List ((s : Shape) × (s.Idx → α)))
    (h : Shape.Concatenates (xs.map (·.1)) ⟨2, ![a, n]⟩ 1) (k : ℕ) (hk : k < xs.length)
    (x₁ : (⟨2, ![a, b₁]⟩ : Shape).Idx → α) (hxk : xs[k] = ⟨⟨2, ![a, b₁]⟩, x₁⟩) (pre : ℕ)
    (hpre : (((xs.take k).map (·.1)).map fun s =>
      if h : s.rank = (⟨2, ![a, n]⟩ : Shape).rank then s.size ((1 : Fin (⟨2, ![a, n]⟩ : Shape).rank).cast h.symm) else 0).sum = pre)
    (p : Fin a) (q : Fin n) (r : Fin b₁) (hq : pre + r.val = q.val) :
    concatenate ⟨2, ![a, n]⟩ 1 xs h (ix2 p q) = x₁ (ix2 p r) :=
  concatenate_apply_piece 1 xs h (ix2 p q) k hk _ x₁ hxk rfl pre hpre (ix2 p r)
    (fun b hb => match b with
      | ⟨0, _⟩ => rfl
      | ⟨1, _⟩ => absurd rfl hb) hq

/-- The sums along axis 1, started from a zero word, stood up as a column: at `(p, u)` the sum of row `p`. -/
theorem sumCol_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) (u : Fin 1) :
    shapeCast ⟨2, ![a, 1]⟩ (multiReduction .add [1] ⟨1, ![a]⟩ src acc h hφ hacc) hc (ix2 p u) = ∑ q : Fin b, src (ix2 p q) :=
  (Cert.TileLayout.shapeCast_a_a1_apply _ hc p u).trans (Cert.TileLayout.sum_axis1_apply src acc h hφ hacc p)

/-- A vector stood up as a column by `broadcast_in_dim` along axis 0: at `(p, u)` the vector's entry `p`. -/
theorem column_apply {a : ℕ} (ha : a ≠ 1) (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply _ h x _ _ fun ax =>
    match ax with
    | ⟨0, _⟩ => by
      show p.val = if a = 1 then 0 else p.val
      rw [if_neg ha]

end Cert.RowLayout
-- ==== Proof.KernelAcc.lean ====
import proofs.«114315_j65214783422667_2_alg».proof.Proof.KernelNet
import proofs.«114315_j65214783422667_2_alg».proof.Proof.LibRowLayout

/-!
# The accumulator's store, lane by lane

After the perceptrons, the body sums two quantities over the 1024 rows of the tile: the squared distance between the
first states and the decoder's image of their latent coordinates, and the square of the first latent coordinate's
increment minus the forcing term. Each sum is taken along axis 0 from a zero word, stood up as a `[1, 1]` block, and the
two blocks followed by 126 zeros are joined into one `[1, 128]` row, which is added to what the accumulator held. So
lane 0 gains the first sum, lane 1 the second, and every other lane gains zero.
-/

noncomputable section

namespace Cert.KernelIdeal.Rows

open Idealize.ShloMosaic Idealize.ShloMosaic.ValueIdx Cert.KernelIdeal Cert.KernelIdeal.Gen
open scoped BigOperators

/-! ## A column summed into one entry, and three pieces joined into a row of 128 lanes -/

/-- The sum of a column of 1024 entries along axis 0, from a zero word, stood up as a `[1, 1]` block. -/
theorem colSum_apply (f : FVec Ideal S1024x1 .f32) (h : S1024x1.Reduces [0] S1) (hφ : FKind.Formats .f32)
    (hacc : (0x00000000#32 : BitVec 32) = FKind.add.neutral .f32 hφ) (hc : S1.ShapeCasts S1x1) :
    shapeCast S1x1 (multiReduction .add [0] S1 f 0x00000000#32 h hφ hacc) hc (ix2 (0 : Fin 1) (0 : Fin 1))
      = ∑ r : Fin 1024, f (ix2 r (0 : Fin 1)) :=
  (Cert.TileLayout.shapeCast_a_a1_apply _ hc (0 : Fin 1) (0 : Fin 1)).trans
    (Cert.TileLayout.sum_axis0_apply f 0x00000000#32 h hφ hacc (0 : Fin 1))

variable (A B : FVec Ideal S1x1 .f32) (Z : FVec Ideal S1x126 .f32)
  (hcat : Shape.Concatenates ([(⟨S1x1, A⟩ : (s : Shape) × (s.Idx → Ideal .f32)), ⟨S1x1, B⟩, ⟨S1x126, Z⟩].map (·.1)) S1x128 1)

/-- Lane 0 of the joined row is the first block's entry. -/
theorem lane0_apply :
    concatenate S1x128 1 [⟨S1x1, A⟩, ⟨S1x1, B⟩, ⟨S1x126, Z⟩] hcat (ix2 (0 : Fin 1) (0 : Fin 128))
      = A (ix2 (0 : Fin 1) (0 : Fin 1)) :=
  Cert.RowLayout.concat_axis1_apply _ hcat 0 (by show (0 : ℕ) < 3; omega) A rfl 0 rfl (0 : Fin 1) (0 : Fin 128) (0 : Fin 1) rfl

/-- Lane 1 of the joined row is the second block's entry. -/
theorem lane1_apply :
    concatenate S1x128 1 [⟨S1x1, A⟩, ⟨S1x1, B⟩, ⟨S1x126, Z⟩] hcat (ix2 (0 : Fin 1) (1 : Fin 128))
      = B (ix2 (0 : Fin 1) (0 : Fin 1)) :=
  Cert.RowLayout.concat_axis1_apply _ hcat 1 (by show (1 : ℕ) < 3; omega) B rfl 1 rfl (0 : Fin 1) (1 : Fin 128) (0 : Fin 1) rfl

/-- Every later lane of the joined row is an entry of the third block. -/
theorem laneRest_apply (c : Fin 128) (hc : 2 ≤ c.val) :
    concatenate S1x128 1 [⟨S1x1, A⟩, ⟨S1x1, B⟩, ⟨S1x126, Z⟩] hcat (ix2 (0 : Fin 1) c)
      = Z (ix2 (0 : Fin 1) (⟨c.val - 2, by have := c.isLt; omega⟩ : Fin 126)) :=
  Cert.RowLayout.concat_axis1_apply _ hcat 2 (by show (2 : ℕ) < 3; omega) Z rfl 2 rfl (0 : Fin 1) c ⟨c.val - 2, by have := c.isLt; omega⟩
    (by show 2 + (c.val - 2) = c.val; omega)

/-! ## The accumulator's payload -/

variable (v8 : FVec Ideal S1024x1 .f32) (v20 : Vec Ideal S2x512 .f32) (v22 : FVec Ideal S1x512 .f32)
  (v24 : FVec Ideal S512x512 .bf16) (v26 : FVec Ideal S1x512 .f32) (v28 : FVec Ideal S512x2 .bf16)
  (v30 : FVec Ideal S1x2 .f32) (v31 v32 v56 v57 v79 : FVec Ideal S1024x1 .f32) (v81 : FVec Ideal S1x512 .f32)
  (v118 : Vec Ideal S1x128 .f32)

/-- Lane 0: the accumulator plus the tile's sum of squared reconstruction distances. The first weight row of the
    decoder enters as the argument `v81`. -/
theorem pay1_lane0 (hw0 : ∀ j : Fin 512, v81 (ix2 (0 : Fin 1) j) = v20 (ix2 (0 : Fin 2) j)) :
    k0_pay1 (F := Ideal) v8 v20 v22 v24 v26 v28 v30 v31 v32 v56 v57 v79 v81 v118 (ix2 (0 : Fin 1) (0 : Fin 128))
      = v118 (ix2 (0 : Fin 1) (0 : Fin 128)) + ∑ r : Fin 1024,
          ((v31 (ix2 r (0 : Fin 1)) - (netOf v20 v22 v24 v26 v28 v30).out (v56 (ix2 r (0 : Fin 1))) (v57 (ix2 r (0 : Fin 1))) 0)
              * (v31 (ix2 r (0 : Fin 1)) - (netOf v20 v22 v24 v26 v28 v30).out (v56 (ix2 r (0 : Fin 1))) (v57 (ix2 r (0 : Fin 1))) 0)
            + (v32 (ix2 r (0 : Fin 1)) - (netOf v20 v22 v24 v26 v28 v30).out (v56 (ix2 r (0 : Fin 1))) (v57 (ix2 r (0 : Fin 1))) 1)
              * (v32 (ix2 r (0 : Fin 1)) - (netOf v20 v22 v24 v26 v28 v30).out (v56 (ix2 r (0 : Fin 1))) (v57 (ix2 r (0 : Fin 1))) 1)) := by
  unfold k0_pay1
  refine (addf_apply _ _ _).trans ?_
  refine congrArg₂ (· + ·) (congrFun (shapeCast_self v118 _) _) ?_
  refine (lane0_apply _ _ _ _).trans ?_
  refine (colSum_apply _ _ _ _ _).trans ?_
  refine Finset.sum_congr rfl fun r _ => ?_
  exact congrArg₂ (fun d0 d1 : EReal => (v31 (ix2 r (0 : Fin 1)) - d0) * (v31 (ix2 r (0 : Fin 1)) - d0)
      + (v32 (ix2 r (0 : Fin 1)) - d1) * (v32 (ix2 r (0 : Fin 1)) - d1))
    ((col0_apply _ _ r).trans
      (net_apply v56 v57 v81 _ v20 hw0 (row1_apply v20 _) v22 v24 v26 v28 v30 _ _ _ _ r 0))
    ((col1_apply _ _ r).trans
      (net_apply v56 v57 v81 _ v20 hw0 (row1_apply v20 _) v22 v24 v26 v28 v30 _ _ _ _ r 1))

/-- Lane 1: the accumulator plus the tile's sum of squared action residuals. -/
theorem pay1_lane1 :
    k0_pay1 (F := Ideal) v8 v20 v22 v24 v26 v28 v30 v31 v32 v56 v57 v79 v81 v118 (ix2 (0 : Fin 1) (1 : Fin 128))
      = v118 (ix2 (0 : Fin 1) (1 : Fin 128)) + ∑ r : Fin 1024,
          (v79 (ix2 r (0 : Fin 1)) - v56 (ix2 r (0 : Fin 1)) - v8 (ix2 r (0 : Fin 1)))
            * (v79 (ix2 r (0 : Fin 1)) - v56 (ix2 r (0 : Fin 1)) - v8 (ix2 r (0 : Fin 1))) := by
  unfold k0_pay1
  refine (addf_apply _ _ _).trans ?_
  refine congrArg₂ (· + ·) (congrFun (shapeCast_self v118 _) _) ?_
  refine (lane1_apply _ _ _ _).trans ?_
  refine (colSum_apply _ _ _ _ _).trans ?_
  exact Finset.sum_congr rfl fun r _ => rfl

/-- Every other lane: the accumulator unchanged. -/
theorem pay1_laneRest (c : Fin 128) (hc : 2 ≤ c.val) :
    k0_pay1 (F := Ideal) v8 v20 v22 v24 v26 v28 v30 v31 v32 v56 v57 v79 v81 v118 (ix2 (0 : Fin 1) c)
      = v118 (ix2 (0 : Fin 1) c) := by
  unfold k0_pay1
  refine (addf_apply _ _ _).trans ?_
  refine (congrArg₂ (· + ·) (congrFun (shapeCast_self v118 _) _) ?_).trans (add_zero _)
  refine (laneRest_apply _ _ _ _ c hc).trans ?_
  exact Ideal.ofBits_zero_f32

/-! ## The phase store and the zero fill -/

/-- The stored phase difference: the second block's second latent coordinate minus the first block's. -/
theorem pay2_apply (v57 v80 : FVec Ideal S1024x1 .f32) (r : Fin 1024) :
    k0_pay2 (F := Ideal) v57 v80 (ix2 r (0 : Fin 1)) = v80 (ix2 r (0 : Fin 1)) - v57 (ix2 r (0 : Fin 1)) := rfl

/-- The fill of the first tile: zero on every lane. -/
theorem pay3_apply (c : Fin 128) : k0_pay3 (F := Ideal) (ix2 (0 : Fin 1) c) = 0 := by
  unfold k0_pay3
  exact Ideal.ofBits_zero_f32

end Cert.KernelIdeal.Rows

end
-- ==== Proof.KernelStores.lean ====
import proofs.«114315_j65214783422667_2_alg».proof.Proof.KernelAcc

/-!
# The two stores of one tile, from the loaded blocks

One run of the body loads a block of first states `x0` (rows `(p0, q0)`), a block of second states `x1`, a column of
forcing terms `ft`, the six weight blocks of the encoder and of the decoder, and what the accumulator held. It stores a
new accumulator row and a column of phase differences. Here both stored values are written as functions of the loaded
blocks and read at an index: lane 0 of the accumulator gains the tile's sum of reconstruction terms, lane 1 the tile's
sum of action terms, the other lanes nothing; row `r` of the column is the phase difference of row `r`. The re-shapes of
a loaded block to its own shape are the identity.
-/

noncomputable section

namespace Cert.KernelIdeal.Rows

open Idealize.ShloMosaic Idealize.ShloMosaic.ValueIdx Cert.KernelIdeal Cert.KernelIdeal.Gen
open scoped BigOperators

/-! ## Re-shapes to the same shape, and the slices the body binds once -/

theorem pay4_eq (v : Vec Ideal S1024x2 .f32) : k0_pay4 (F := Ideal) v = v := shapeCast_self v _
theorem pay5_eq (v : Vec Ideal S1024x2 .f32) : k0_pay5 (F := Ideal) v = v := shapeCast_self v _
theorem pay6_eq (v : Vec Ideal S1024x1 .f32) : k0_pay6 (F := Ideal) v = v := shapeCast_self v _
theorem pay7_eq (v : Vec Ideal S1x512 .f32) : k0_pay7 (F := Ideal) v = v := shapeCast_self v _
theorem pay8_eq (v : Vec Ideal S512x512 .bf16) : k0_pay8 (F := Ideal) v = v := shapeCast_self v _
theorem pay9_eq (v : Vec Ideal S1x512 .f32) : k0_pay9 (F := Ideal) v = v := shapeCast_self v _
theorem pay10_eq (v : Vec Ideal S512x2 .bf16) : k0_pay10 (F := Ideal) v = v := shapeCast_self v _
theorem pay11_eq (v : Vec Ideal S1x2 .f32) : k0_pay11 (F := Ideal) v = v := shapeCast_self v _
theorem pay12_eq (v : Vec Ideal S1x512 .f32) : k0_pay12 (F := Ideal) v = v := shapeCast_self v _
theorem pay13_eq (v : Vec Ideal S512x512 .bf16) : k0_pay13 (F := Ideal) v = v := shapeCast_self v _
theorem pay14_eq (v : Vec Ideal S1x512 .f32) : k0_pay14 (F := Ideal) v = v := shapeCast_self v _
theorem pay15_eq (v : Vec Ideal S512x2 .bf16) : k0_pay15 (F := Ideal) v = v := shapeCast_self v _
theorem pay16_eq (v : Vec Ideal S1x2 .f32) : k0_pay16 (F := Ideal) v = v := shapeCast_self v _

/-- The column of first coordinates of a block of states. -/
theorem pay17_apply (v4 : FVec Ideal S1024x2 .f32) (r : Fin 1024) :
    k0_pay17 (F := Ideal) v4 (ix2 r (0 : Fin 1)) = v4 (ix2 r (0 : Fin 2)) := by
  unfold k0_pay17
  exact col0_apply v4 _ r

/-- The column of second coordinates of a block of states. -/
theorem pay18_apply (v4 : FVec Ideal S1024x2 .f32) (r : Fin 1024) :
    k0_pay18 (F := Ideal) v4 (ix2 r (0 : Fin 1)) = v4 (ix2 r (1 : Fin 2)) := by
  unfold k0_pay18
  exact col1_apply v4 _ r

/-- The first row of the decoder's first weight matrix. -/
theorem pay25_apply (v20 : Vec Ideal S2x512 .f32) (j : Fin 512) :
    k0_pay25 (F := Ideal) v20 (ix2 (0 : Fin 1) j) = v20 (ix2 (0 : Fin 2) j) := by
  unfold k0_pay25
  exact row0_apply v20 _ j

/-! ## The stored values as functions of the loaded blocks -/

variable (x0 x1 : Vec Ideal S1024x2 .f32) (ft : Vec Ideal S1024x1 .f32)
  (v9 : Vec Ideal S2x512 .f32) (v10 : Vec Ideal S1x512 .f32) (v12 : Vec Ideal S512x512 .bf16)
  (v14 : Vec Ideal S1x512 .f32) (v16 : Vec Ideal S512x2 .bf16) (v18 : Vec Ideal S1x2 .f32)
  (v20 : Vec Ideal S2x512 .f32) (v21 : Vec Ideal S1x512 .f32) (v23 : Vec Ideal S512x512 .bf16)
  (v25 : Vec Ideal S1x512 .f32) (v27 : Vec Ideal S512x2 .bf16) (v29 : Vec Ideal S1x2 .f32)
  (acc : Vec Ideal S1x128 .f32)

/-- The row stored into the accumulator. -/
def accStore : FVec Ideal S1x128 .f32 :=
  k0_pay1 (F := Ideal) (k0_pay6 ft) v20 (k0_pay12 v21) (k0_pay13 v23) (k0_pay14 v25) (k0_pay15 v27) (k0_pay16 v29)
    (k0_pay17 (k0_pay4 x0)) (k0_pay18 (k0_pay4 x0))
    (k0_pay20 (k0_pay4 x0) v9 (k0_pay7 v10) (k0_pay8 v12) (k0_pay9 v14) (k0_pay10 v16) (k0_pay11 v18))
    (k0_pay21 (k0_pay4 x0) v9 (k0_pay7 v10) (k0_pay8 v12) (k0_pay9 v14) (k0_pay10 v16) (k0_pay11 v18))
    (k0_pay23 (k0_pay5 x1) v9 (k0_pay7 v10) (k0_pay8 v12) (k0_pay9 v14) (k0_pay10 v16) (k0_pay11 v18))
    (k0_pay25 v20) acc

/-- The column stored as the phase differences. -/
def dqStore : FVec Ideal S1024x1 .f32 :=
  k0_pay2 (F := Ideal) (k0_pay21 (k0_pay4 x0) v9 (k0_pay7 v10) (k0_pay8 v12) (k0_pay9 v14) (k0_pay10 v16) (k0_pay11 v18))
    (k0_pay24 (k0_pay5 x1) v9 (k0_pay7 v10) (k0_pay8 v12) (k0_pay9 v14) (k0_pay10 v16) (k0_pay11 v18))

/-- Lane 0 gains the tile's sum of reconstruction terms. -/
theorem accStore_recon :
    accStore x0 x1 ft v9 v10 v12 v14 v16 v18 v20 v21 v23 v25 v27 v29 acc (ix2 (0 : Fin 1) (0 : Fin 128))
      = acc (ix2 (0 : Fin 1) (0 : Fin 128)) + ∑ r : Fin 1024,
          Cert.Spec.reconTerm (netOf v9 v10 v12 v14 v16 v18) (netOf v20 v21 v23 v25 v27 v29)
            (x0 (ix2 r (0 : Fin 2))) (x0 (ix2 r (1 : Fin 2))) := by
  unfold accStore
  simp only [pay4_eq, pay5_eq, pay6_eq, pay7_eq, pay8_eq, pay9_eq, pay10_eq, pay11_eq, pay12_eq, pay13_eq, pay14_eq,
    pay15_eq, pay16_eq]
  refine (pay1_lane0 ft v20 v21 v23 v25 v27 v29 _ _ _ _ _ _ acc (pay25_apply v20)).trans ?_
  refine congrArg (acc (ix2 (0 : Fin 1) (0 : Fin 128)) + ·) (Finset.sum_congr rfl fun r _ => ?_)
  rw [pay17_apply, pay18_apply, pay20_apply, pay21_apply]
  rfl

/-- Lane 1 gains the tile's sum of action terms. -/
theorem accStore_action :
    accStore x0 x1 ft v9 v10 v12 v14 v16 v18 v20 v21 v23 v25 v27 v29 acc (ix2 (0 : Fin 1) (1 : Fin 128))
      = acc (ix2 (0 : Fin 1) (1 : Fin 128)) + ∑ r : Fin 1024,
          Cert.Spec.actionTerm (netOf v9 v10 v12 v14 v16 v18) (x0 (ix2 r (0 : Fin 2))) (x0 (ix2 r (1 : Fin 2)))
            (x1 (ix2 r (0 : Fin 2))) (x1 (ix2 r (1 : Fin 2))) (ft (ix2 r (0 : Fin 1))) := by
  unfold accStore
  simp only [pay4_eq, pay5_eq, pay6_eq, pay7_eq, pay8_eq, pay9_eq, pay10_eq, pay11_eq, pay12_eq, pay13_eq, pay14_eq,
    pay15_eq, pay16_eq]
  refine (pay1_lane1 ft v20 v21 v23 v25 v27 v29 _ _ _ _ _ _ acc).trans ?_
  refine congrArg (acc (ix2 (0 : Fin 1) (1 : Fin 128)) + ·) (Finset.sum_congr rfl fun r _ => ?_)
  rw [pay23_apply, pay20_apply]
  rfl

/-- The other lanes keep what the accumulator held. -/
theorem accStore_rest (c : Fin 128) (hc : 2 ≤ c.val) :
    accStore x0 x1 ft v9 v10 v12 v14 v16 v18 v20 v21 v23 v25 v27 v29 acc (ix2 (0 : Fin 1) c)
      = acc (ix2 (0 : Fin 1) c) := by
  unfold accStore
  exact pay1_laneRest _ _ _ _ _ _ _ _ _ _ _ _ _ acc c hc

/-- Row `r` of the stored column is the phase difference of row `r`. -/
theorem dqStore_apply (r : Fin 1024) :
    dqStore x0 x1 v9 v10 v12 v14 v16 v18 (ix2 r (0 : Fin 1))
      = Cert.Spec.phaseDiff (netOf v9 v10 v12 v14 v16 v18) (x0 (ix2 r (0 : Fin 2))) (x0 (ix2 r (1 : Fin 2)))
          (x1 (ix2 r (0 : Fin 2))) (x1 (ix2 r (1 : Fin 2))) := by
  unfold dqStore
  simp only [pay4_eq, pay5_eq, pay7_eq, pay8_eq, pay9_eq, pay10_eq, pay11_eq]
  refine (pay2_apply _ _ r).trans ?_
  rw [pay24_apply, pay21_apply]
  rfl

end Cert.KernelIdeal.Rows

end
-- ==== Proof.IdealPieces.lean ====
/-
  What each case of the body leaves in the two output buffers, read back as values.

  The body's stores are whole-block stores, so what a buffer holds afterwards is the last store's value; the loads the
  value was computed from read whole buffers, so they are the buffers' contents.  At a later tile the accumulator's
  value is therefore the tile's accumulate step applied to what the buffer held; at the first tile it is the same step
  applied to the zero fill the branch stored first; and the phase column's value is the tile's phase step.
-/
import proofs.«114315_j65214783422667_2_alg».proof.Proof.IdealFrame
import proofs.«114315_j65214783422667_2_alg».proof.Proof.KernelStores
import Idealize.ShloMosaic.Lib.Pipeline.Value
import Idealize.ShloMosaic.Lib.Tactic

set_option maxRecDepth 16384

noncomputable section

namespace Cert.KernelIdeal.HandValue

open Cert.KernelIdeal Cert.KernelIdeal.Gen Cert.KernelIdeal.Hand Cert.KernelIdeal.Rows
open Idealize.ShloMosaic Idealize.ShloMosaic.TcCoe Idealize.ShloMosaic.Tactic Idealize.SL.Sem
open Idealize.ShloMosaic.Pipeline (Dat)

theorem hz : (![0, 0] : Fin 2 → Nat) = fun _ => 0 := funext fun a => by fin_cases a <;> rfl

set_option maxHeartbeats 4000000 in
/-- A later tile leaves in the accumulator the accumulate step of its blocks over what the buffer held. -/
theorem out_B_15 (c : Dev nD) (i : grid0.Coords) (a1 : Memref sig .tc .vmem S1024x2 .f32) (h1 : a1.IsWhole) (a2 : Memref sig .tc .vmem S1024x2 .f32) (h2 : a2.IsWhole) (a3 : Memref sig .tc .vmem S1024x1 .f32) (h3 : a3.IsWhole) (a4 : Memref sig .tc .vmem S2x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S512x2 .bf16) (h8 : a8.IsWhole) (a9 : Memref sig .tc .vmem S1x2 .f32) (h9 : a9.IsWhole) (a10 : Memref sig .tc .vmem S2x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S512x2 .bf16) (h14 : a14.IsWhole) (a15 : Memref sig .tc .vmem S1x2 .f32) (h15 : a15.IsWhole) (a16 : Memref sig .tc .vmem S1x128 .f32) (h16 : a16.IsWhole) (a17 : Memref sig .tc .vmem S1024x1 .f32) (h17 : a17.IsWhole) (hc : ¬cond0_0 i)
    (x0 : Vec Ideal S1024x2 .f32) (x1 : Vec Ideal S1024x2 .f32) (x2 : Vec Ideal S1024x1 .f32) (x3 : Vec Ideal S2x512 .f32) (x4 : Vec Ideal S1x512 .f32) (x5 : Vec Ideal S512x512 .bf16) (x6 : Vec Ideal S1x512 .f32) (x7 : Vec Ideal S512x2 .bf16) (x8 : Vec Ideal S1x2 .f32) (x9 : Vec Ideal S2x512 .f32) (x10 : Vec Ideal S1x512 .f32) (x11 : Vec Ideal S512x512 .bf16) (x12 : Vec Ideal S1x512 .f32) (x13 : Vec Ideal S512x2 .bf16) (x14 : Vec Ideal S1x2 .f32) (xo : Vec Ideal S1x128 .f32) :
    out0_B_15 (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14 xo = accStore x0 x1 x2 x3 x4 x5 x6 x7 x8 x9 x10 x11 x12 x13 x14 xo := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14 xo)]
  unfold kernelRun0_B
  dsimp only
  sl_unfold_words
  rw [View.canon_unit_zero hz]
  unfold accStore
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x2) hz, View.ld_unit_zero (S := S1024x1) hz, View.ld_unit_zero (S := S2x512) hz, View.ld_unit_zero (S := S1x512) hz, View.ld_unit_zero (S := S512x512) hz, View.ld_unit_zero (S := S512x2) hz, View.ld_unit_zero (S := S1x2) hz, View.ld_unit_zero (S := S1x128) hz]

set_option maxHeartbeats 4000000 in
/-- A later tile leaves in the phase column its phase step. -/
theorem out_B_16 (c : Dev nD) (i : grid0.Coords) (a1 : Memref sig .tc .vmem S1024x2 .f32) (h1 : a1.IsWhole) (a2 : Memref sig .tc .vmem S1024x2 .f32) (h2 : a2.IsWhole) (a3 : Memref sig .tc .vmem S1024x1 .f32) (h3 : a3.IsWhole) (a4 : Memref sig .tc .vmem S2x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S512x2 .bf16) (h8 : a8.IsWhole) (a9 : Memref sig .tc .vmem S1x2 .f32) (h9 : a9.IsWhole) (a10 : Memref sig .tc .vmem S2x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S512x2 .bf16) (h14 : a14.IsWhole) (a15 : Memref sig .tc .vmem S1x2 .f32) (h15 : a15.IsWhole) (a16 : Memref sig .tc .vmem S1x128 .f32) (h16 : a16.IsWhole) (a17 : Memref sig .tc .vmem S1024x1 .f32) (h17 : a17.IsWhole) (hc : ¬cond0_0 i)
    (x0 : Vec Ideal S1024x2 .f32) (x1 : Vec Ideal S1024x2 .f32) (x2 : Vec Ideal S1024x1 .f32) (x3 : Vec Ideal S2x512 .f32) (x4 : Vec Ideal S1x512 .f32) (x5 : Vec Ideal S512x512 .bf16) (x6 : Vec Ideal S1x512 .f32) (x7 : Vec Ideal S512x2 .bf16) (x8 : Vec Ideal S1x2 .f32) (x9 : Vec Ideal S2x512 .f32) (x10 : Vec Ideal S1x512 .f32) (x11 : Vec Ideal S512x512 .bf16) (x12 : Vec Ideal S1x512 .f32) (x13 : Vec Ideal S512x2 .bf16) (x14 : Vec Ideal S1x2 .f32) (xo : Vec Ideal S1x128 .f32) :
    out0_B_16 (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14 xo = dqStore x0 x1 x3 x4 x5 x6 x7 x8 := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14 xo)]
  unfold kernelRun0_B
  dsimp only
  sl_unfold_words
  rw [View.canon_unit_zero hz]
  unfold dqStore
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x2) hz, View.ld_unit_zero (S := S1024x1) hz, View.ld_unit_zero (S := S2x512) hz, View.ld_unit_zero (S := S1x512) hz, View.ld_unit_zero (S := S512x512) hz, View.ld_unit_zero (S := S512x2) hz, View.ld_unit_zero (S := S1x2) hz, View.ld_unit_zero (S := S1x128) hz]

set_option maxHeartbeats 4000000 in
/-- The first tile leaves in the accumulator the accumulate step of its blocks over the zero fill. -/
theorem out_A_15 (c : Dev nD) (i : grid0.Coords) (a1 : Memref sig .tc .vmem S1024x2 .f32) (h1 : a1.IsWhole) (a2 : Memref sig .tc .vmem S1024x2 .f32) (h2 : a2.IsWhole) (a3 : Memref sig .tc .vmem S1024x1 .f32) (h3 : a3.IsWhole) (a4 : Memref sig .tc .vmem S2x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S512x2 .bf16) (h8 : a8.IsWhole) (a9 : Memref sig .tc .vmem S1x2 .f32) (h9 : a9.IsWhole) (a10 : Memref sig .tc .vmem S2x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S512x2 .bf16) (h14 : a14.IsWhole) (a15 : Memref sig .tc .vmem S1x2 .f32) (h15 : a15.IsWhole) (a16 : Memref sig .tc .vmem S1x128 .f32) (h16 : a16.IsWhole) (a17 : Memref sig .tc .vmem S1024x1 .f32) (h17 : a17.IsWhole) (hc : cond0_0 i)
    (x0 : Vec Ideal S1024x2 .f32) (x1 : Vec Ideal S1024x2 .f32) (x2 : Vec Ideal S1024x1 .f32) (x3 : Vec Ideal S2x512 .f32) (x4 : Vec Ideal S1x512 .f32) (x5 : Vec Ideal S512x512 .bf16) (x6 : Vec Ideal S1x512 .f32) (x7 : Vec Ideal S512x2 .bf16) (x8 : Vec Ideal S1x2 .f32) (x9 : Vec Ideal S2x512 .f32) (x10 : Vec Ideal S1x512 .f32) (x11 : Vec Ideal S512x512 .bf16) (x12 : Vec Ideal S1x512 .f32) (x13 : Vec Ideal S512x2 .bf16) (x14 : Vec Ideal S1x2 .f32) :
    out0_A_15 (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14 = accStore x0 x1 x2 x3 x4 x5 x6 x7 x8 x9 x10 x11 x12 x13 x14 (k0_pay3 (F := Ideal)) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14)]
  unfold kernelRun0_A
  dsimp only
  sl_unfold_words
  rw [View.canon_cons_unit_zero (S := S1x128) hz, View.readCov_unit_zero (S := S1x128) _ hz]
  unfold accStore
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x2) hz, View.ld_unit_zero (S := S1024x1) hz, View.ld_unit_zero (S := S2x512) hz, View.ld_unit_zero (S := S1x512) hz, View.ld_unit_zero (S := S512x512) hz, View.ld_unit_zero (S := S512x2) hz, View.ld_unit_zero (S := S1x2) hz, View.ld_unit_zero (S := S1x128) hz]

set_option maxHeartbeats 4000000 in
/-- The first tile leaves in the phase column its phase step. -/
theorem out_A_16 (c : Dev nD) (i : grid0.Coords) (a1 : Memref sig .tc .vmem S1024x2 .f32) (h1 : a1.IsWhole) (a2 : Memref sig .tc .vmem S1024x2 .f32) (h2 : a2.IsWhole) (a3 : Memref sig .tc .vmem S1024x1 .f32) (h3 : a3.IsWhole) (a4 : Memref sig .tc .vmem S2x512 .f32) (h4 : a4.IsWhole) (a5 : Memref sig .tc .vmem S1x512 .f32) (h5 : a5.IsWhole) (a6 : Memref sig .tc .vmem S512x512 .bf16) (h6 : a6.IsWhole) (a7 : Memref sig .tc .vmem S1x512 .f32) (h7 : a7.IsWhole) (a8 : Memref sig .tc .vmem S512x2 .bf16) (h8 : a8.IsWhole) (a9 : Memref sig .tc .vmem S1x2 .f32) (h9 : a9.IsWhole) (a10 : Memref sig .tc .vmem S2x512 .f32) (h10 : a10.IsWhole) (a11 : Memref sig .tc .vmem S1x512 .f32) (h11 : a11.IsWhole) (a12 : Memref sig .tc .vmem S512x512 .bf16) (h12 : a12.IsWhole) (a13 : Memref sig .tc .vmem S1x512 .f32) (h13 : a13.IsWhole) (a14 : Memref sig .tc .vmem S512x2 .bf16) (h14 : a14.IsWhole) (a15 : Memref sig .tc .vmem S1x2 .f32) (h15 : a15.IsWhole) (a16 : Memref sig .tc .vmem S1x128 .f32) (h16 : a16.IsWhole) (a17 : Memref sig .tc .vmem S1024x1 .f32) (h17 : a17.IsWhole) (hc : cond0_0 i)
    (x0 : Vec Ideal S1024x2 .f32) (x1 : Vec Ideal S1024x2 .f32) (x2 : Vec Ideal S1024x1 .f32) (x3 : Vec Ideal S2x512 .f32) (x4 : Vec Ideal S1x512 .f32) (x5 : Vec Ideal S512x512 .bf16) (x6 : Vec Ideal S1x512 .f32) (x7 : Vec Ideal S512x2 .bf16) (x8 : Vec Ideal S1x2 .f32) (x9 : Vec Ideal S2x512 .f32) (x10 : Vec Ideal S1x512 .f32) (x11 : Vec Ideal S512x512 .bf16) (x12 : Vec Ideal S1x512 .f32) (x13 : Vec Ideal S512x2 .bf16) (x14 : Vec Ideal S1x2 .f32) :
    out0_A_16 (F := Ideal) c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14 = dqStore x0 x1 x3 x4 x5 x6 x7 x8 := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 hc x0 x1 x2 x3 x4 x5 x6 x7 x8 x9 x10 x11 x12 x13 x14)]
  unfold kernelRun0_A
  dsimp only
  sl_unfold_words
  rw [View.canon_unit_zero hz]
  unfold dqStore
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, View.ld_unit_zero (S := S1024x2) hz, View.ld_unit_zero (S := S1024x1) hz, View.ld_unit_zero (S := S2x512) hz, View.ld_unit_zero (S := S1x512) hz, View.ld_unit_zero (S := S512x512) hz, View.ld_unit_zero (S := S512x2) hz, View.ld_unit_zero (S := S1x2) hz, View.ld_unit_zero (S := S1x128) hz]

end Cert.KernelIdeal.HandValue

end
-- ==== Proof.IdealAccum.lean ====
/-
  The two results of the kernel as arrays.

  The accumulator after tile `n` is the accumulate step of tile `n`'s blocks over the accumulator after tile `n - 1`,
  starting from the zero fill: a fold over the tiles in order, proved by induction on the tile.  Its one write-back, after
  the last tile, writes the whole [1,128] array, so the array ends at the fold's last value.  The phase column's
  buffer after tile `t` is the tile's phase step, written back tile by tile.
-/
import proofs.«114315_j65214783422667_2_alg».proof.Proof.IdealPieces

set_option maxRecDepth 16384

noncomputable section

namespace Cert.KernelIdeal.HandValue

open Cert.KernelIdeal Cert.KernelIdeal.Gen Cert.KernelIdeal.Hand Cert.KernelIdeal.Rows
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The accumulator after tile `n`: the accumulate steps of tiles `0 … n` in order, from the zero fill. -/
def accAt (c : Dev nD) : (n : ℕ) → n < cfg0.N → Vec Ideal S1x128 .f32
  | 0, h => accStore (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩) (iblk m c 11 ⟨0, h⟩) (iblk m c 12 ⟨0, h⟩) (iblk m c 13 ⟨0, h⟩) (iblk m c 14 ⟨0, h⟩) (k0_pay3 (F := Ideal))
  | n + 1, h => accStore (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (iblk m c 12 ⟨n + 1, h⟩) (iblk m c 13 ⟨n + 1, h⟩) (iblk m c 14 ⟨n + 1, h⟩) (accAt c n (Nat.lt_of_succ_lt h))

set_option maxHeartbeats 4000000 in
/-- What the accumulator's buffer holds after tile `n` is that fold — by induction on the tile. -/
theorem outsAt_15 (c : Dev nD) : ∀ (n : ℕ) (h : n < cfg0.N), (outsAt0 m c n h).1 = accAt m c n h
  | 0, h => (congrArg Prod.fst (outsAt0_A m c ⟨0, h⟩ (Nat.zero_mod _))).trans
      (out_A_15 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) (ms0_12 ⟨0, h⟩) (hs0_12 ⟨0, h⟩) (ms0_13 ⟨0, h⟩) (hs0_13 ⟨0, h⟩) (ms0_14 ⟨0, h⟩) (hs0_14 ⟨0, h⟩) (ms0_15 ⟨0, h⟩) (hs0_15 ⟨0, h⟩) (ms0_16 ⟨0, h⟩) (hs0_16 ⟨0, h⟩) ((hcond0_0 ⟨0, h⟩).mpr (Nat.zero_mod _)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩) (iblk m c 11 ⟨0, h⟩) (iblk m c 12 ⟨0, h⟩) (iblk m c 13 ⟨0, h⟩) (iblk m c 14 ⟨0, h⟩))
  | n + 1, h => by
    have hN : cfg0.N = 64 := N_0
    have hB : ¬(⟨n + 1, h⟩ : Fin cfg0.N).val % 64 = 0 := by dsimp only; omega
    refine (congrArg Prod.fst (outsAt0_B m c ⟨n + 1, h⟩ hB)).trans
      ((out_B_15 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (ms0_14 ⟨n + 1, h⟩) (hs0_14 ⟨n + 1, h⟩) (ms0_15 ⟨n + 1, h⟩) (hs0_15 ⟨n + 1, h⟩) (ms0_16 ⟨n + 1, h⟩) (hs0_16 ⟨n + 1, h⟩) (fun hh => hB ((hcond0_0 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (iblk m c 12 ⟨n + 1, h⟩) (iblk m c 13 ⟨n + 1, h⟩) (iblk m c 14 ⟨n + 1, h⟩) _).trans ?_)
    show accStore (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (iblk m c 12 ⟨n + 1, h⟩) (iblk m c 13 ⟨n + 1, h⟩) (iblk m c 14 ⟨n + 1, h⟩) (outsAt0 m c n _).1 = accStore (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (iblk m c 12 ⟨n + 1, h⟩) (iblk m c 13 ⟨n + 1, h⟩) (iblk m c 14 ⟨n + 1, h⟩) (accAt m c n _)
    rw [outsAt_15 c n]

set_option maxHeartbeats 4000000 in
/-- What the phase column's buffer holds after tile `t`: the tile's phase step. -/
theorem outsAt_16 (c : Dev nD) (t : Fin cfg0.N) :
    (outsAt0 m c t.val t.isLt).2 = dqStore (iblk m c 0 t) (iblk m c 1 t) (iblk m c 3 t) (iblk m c 4 t) (iblk m c 5 t) (iblk m c 6 t) (iblk m c 7 t) (iblk m c 8 t) := by
  by_cases h0 : t.val % 64 = 0
  · exact (congrArg Prod.snd (outsAt0_A m c t h0)).trans
      (out_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))
  · exact (congrArg Prod.snd (outsAt0_B m c t h0)).trans
      (out_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun hh => h0 ((hcond0_0 t).mp hh)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).1)

/-- The last tile. -/
abbrev tLast : Fin cfg0.N := ⟨63, by rw [show cfg0.N = 64 from N_0]; decide⟩

/-- The accumulator array after the run: the fold's last value. -/
abbrev accFinal (c : Dev nD) : Buf (Elt Ideal) ((c : Thread nD τ).loc main_v19_0) := accAt m c 63 tLast.isLt

/-- The one write-back, after tile 63, writes it: block (0, 0) of the [1,128] array is the array. -/
theorem flushed15_eq (c : Dev nD) (t : Fin cfg0.N) (hf : (cfg0.win 15).flush t = true) :
    (dats m 0 c).flushed 15 t = ((cfg0.win 15).blk t).view.read (Elt Ideal) (accFinal m c) := by
  have hN : cfg0.N = 64 := N_0
  have h63 : t.val = 63 := by have := (flush0_15 t).mp hf; have := t.isLt; omega
  obtain rfl : t = tLast := Fin.ext h63
  show (cfg0.win 15).cut (grid0.coords tLast) ((dats m 0 c).after 15 tLast) = _
  rw [after0_15, outsAt_15]
  have hz' : (fun a => win0_15.index tLast a * main_v19_0.ty.shape.size a) = fun _ => 0 := funext fun a => by fin_cases a <;> decide
  exact (Memref.read_access_unit_zero (Elt Ideal) main_v19_0 hz' (fun a => by rw [congrFun hz' a]; simp) (accFinal m c)).symm

/-- So the accumulator array ends holding the fold's last value. -/
theorem final15 (c : Dev nD) : (dats m 0 c).arrAt 15 cfg0.N = accFinal m c :=
  (dats m 0 c).arrAt_eq_of_cover 15 (accFinal m c) (flushed15_eq m c) fun i =>
    ⟨tLast, (flush0_15 tLast).mpr rfl, by
      show i ∈ ((View.whole main_v19_0).slice (win0_15.rect tLast)).set
      rw [View.set_slice_whole, Rect.mem_set_unit]
      intro a
      have h0 : (i 0 : Nat) < 1 := (i 0).isLt
      have h1 : (i 1 : Nat) < 128 := (i 1).isLt
      match a with
      | ⟨0, _⟩ => show win0_15.index tLast 0 * win0_15.size 0 ≤ (i 0 : Nat) ∧ (i 0 : Nat) < win0_15.index tLast 0 * win0_15.size 0 + win0_15.xsize (grid0.coords tLast) 0
                  rw [show win0_15.index tLast 0 * win0_15.size 0 = 0 from by decide +kernel, show win0_15.xsize (grid0.coords tLast) 0 = 1 from by decide +kernel]; omega
      | ⟨1, _⟩ => show win0_15.index tLast 1 * win0_15.size 1 ≤ (i 1 : Nat) ∧ (i 1 : Nat) < win0_15.index tLast 1 * win0_15.size 1 + win0_15.xsize (grid0.coords tLast) 1
                  rw [show win0_15.index tLast 1 * win0_15.size 1 = 0 from by decide +kernel, show win0_15.xsize (grid0.coords tLast) 1 = 128 from by decide +kernel]; omega⟩

end Cert.KernelIdeal.HandValue

end
-- ==== Proof.LibColumn.lean ====
import Idealize.ShloMosaic.Lib.ValueLayout

/-!
# A trailing unit axis

A vector of length `a` laid out as one column `[a, 1]`, and that column repeated along the second axis to `[a, b]`:
read at an index, the column holds the vector's entry of the same row, and the repeated column holds, at `(p, c)`,
the column's entry of row `p` whatever `c` is. Together they say a row-wise scale factor kept as a column reaches
every entry of its row.
-/

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRows.lean ====
import Idealize.ShloMosaic.Lib.ValueIdx
import Idealize.ShloMosaic.Lib.ValueLayout
import Idealize.ShloMosaic.Lib.Pipeline.Value
import Idealize.ShloMosaic.PureOps.Ideal.Laws
import proofs.«114315_j65214783422667_2_alg».proof.Proof.LibPlainDot
import proofs.«114315_j65214783422667_2_alg».proof.Proof.LibColumn

/-!
# Row-wise layers

Every dense stage of the network acts on each row of an `[N, C]` array by itself: a row times a weight matrix, a
bias row added, the row scaled to unit length (divided by the larger of its Euclidean norm and a floor), a
`tanh` of every entry. `mapRows f A` applies a function `f` of one row to every row of `A`. A stage computed on a
tile of rows is therefore the same stage computed on the whole array and read on the tile: the value at row `n`
only sees row `n` of the operand.

The lemmas below read the vector unit's spelling of each stage (a matrix product into a zero accumulator, a
lane sum, a column broadcast) at an index `(p, q)`, over any number of rows.
-/

noncomputable section

namespace Cert.Rows

open Idealize.ShloMosaic Idealize.ShloMosaic.ValueIdx
open scoped BigOperators

abbrev S2 (a b : ℕ) : Shape := ⟨2, ![a, b]⟩
abbrev S1 (a : ℕ) : Shape := ⟨1, ![a]⟩

/-- Apply a function of one row to every row. -/
def mapRows {N Ci C : ℕ} (f : (Fin Ci → EReal) → Fin C → EReal) (A : (S2 N Ci).Idx → EReal) : (S2 N C).Idx → EReal :=
  fun i => f (fun k => A (ix2 (i 0) k)) (i 1)

theorem mapRows_ix2 {N Ci C : ℕ} (f : (Fin Ci → EReal) → Fin C → EReal) (A : (S2 N Ci).Idx → EReal) (n : Fin N) (q : Fin C) :
    mapRows f A (ix2 n q) = f (fun k => A (ix2 n k)) q := rfl

/-- A row times a weight matrix. -/
def lin {Ci C : ℕ} (w : (S2 Ci C).Idx → EReal) (r : Fin Ci → EReal) : Fin C → EReal :=
  fun q => ∑ k : Fin Ci, r k * w (ix2 k q)

/-- A bias row (kept as a one-row matrix) added to a row. -/
def addRow {C : ℕ} (b : (S2 1 C).Idx → EReal) (r : Fin C → EReal) : Fin C → EReal :=
  fun q => r q + b (ix2 (0 : Fin 1) q)

/-- The floor under a row's norm: the single-precision number nearest 1e-12, read exactly. -/
def floorNorm : EReal := Ideal.ofBits .f32 0x2B8CBCCC#32

/-- A row divided by the larger of its Euclidean norm and the floor. -/
def unit {C : ℕ} (r : Fin C → EReal) : Fin C → EReal :=
  fun q => Ideal.div (r q) (max (Ideal.sqrt (∑ k : Fin C, r k * r k)) floorNorm)

/-- `tanh` of every entry of a row. -/
def th {C : ℕ} (r : Fin C → EReal) : Fin C → EReal := fun q => Ideal.tanh (r q)

/-- A tile of rows `o, o+1, …` of `A` goes to the same rows of `mapRows f A`. -/
theorem mapRows_tile {N R Ci C : ℕ} (f : (Fin Ci → EReal) → Fin C → EReal) (A : (S2 N Ci).Idx → EReal)
    (X : (S2 R Ci).Idx → EReal) (o : ℕ) (ho : ∀ p : Fin R, o + p.val < N)
    (hX : ∀ (p : Fin R) (k : Fin Ci), X (ix2 p k) = A (ix2 ⟨o + p.val, ho p⟩ k)) (p : Fin R) (q : Fin C) :
    mapRows f X (ix2 p q) = mapRows f A (ix2 ⟨o + p.val, ho p⟩ q) := by
  rw [mapRows_ix2, mapRows_ix2]
  exact congrArg (fun r => f r q) (funext fun k => hX p k)

/-! ## The vector unit's spellings at an index -/

section Unit

variable {N C : ℕ}

/-- The matrix product of a tile of rows with a weight matrix, into a zero accumulator. -/
theorem matmul_rows {K : ℕ} (d : DotDims (S2 N K) (S2 K C) (S2 N C)) (hd : Cert.LibPlainDot.Plain d)
    (x : FVec Ideal (S2 N K) .f32) (w : FVec Ideal (S2 K C) .f32) :
    matmul d none x w (constant (S2 N C) .f32 0x00000000#32) = mapRows (lin w) x := by
  funext i
  obtain ⟨p, q, rfl⟩ : ∃ (p : Fin N) (q : Fin C), i = ix2 p q := ⟨i 0, i 1, eq_ix2 i⟩
  exact Cert.LibPlainDot.matmul_zero_apply d hd none x w p q

/-- A tile plus a bias row repeated down the tile. -/
theorem addBias_rows (x : FVec Ideal (S2 N C) .f32) (b : FVec Ideal (S2 1 C) .f32)
    (h2 : (S2 1 C).ShapeCasts (S2 1 C)) (h3 : (S2 1 C).Broadcasts (S2 N C)) :
    addf x (broadcastTo (S2 N C) (shapeCast (S2 1 C) b h2) h3) = mapRows (addRow b) x := by
  funext i
  obtain ⟨p, q, rfl⟩ : ∃ (p : Fin N) (q : Fin C), i = ix2 p q := ⟨i 0, i 1, eq_ix2 i⟩
  rw [shapeCast_self, mapRows_ix2]
  show x (ix2 p q) + broadcastTo (S2 N C) b h3 (ix2 p q) = _
  rw [broadcastTo_1b_ab_apply]
  rfl

/-- A tile whose every row is divided by the larger of its norm and the floor: the squares summed along the
    lanes, the sums kept as a column, the column's square root floored and repeated across the row. -/
theorem unit_rows (y : FVec Ideal (S2 N C) .f32) (hr : (S2 N C).Reduces [1] (S1 N)) (hφ : FKind.Formats .f32)
    (hacc : (0x00000000#32 : BitVec 32) = FKind.add.neutral .f32 hφ)
    (hc : (S1 N).ShapeCasts (S2 N 1)) (hb : (S2 N 1).Broadcasts (S2 N C)) :
    divf y (broadcastTo (S2 N C) (maximumf (sqrt (shapeCast (S2 N 1) (multiReduction .add [1] (S1 N) (mulf y y) 0x00000000#32 hr hφ hacc) hc))
      (broadcast (S2 N 1) (Scalar.ofBits .f32 0x2B8CBCCC#32))) hb) = mapRows unit y := by
  funext i
  obtain ⟨p, q, rfl⟩ : ∃ (p : Fin N) (q : Fin C), i = ix2 p q := ⟨i 0, i 1, eq_ix2 i⟩
  rw [mapRows_ix2]
  show Ideal.div (y (ix2 p q)) (broadcastTo (S2 N C) _ hb (ix2 p q)) = _
  rw [Cert.LibColumn.broadcastTo_a1_ab_apply]
  show Ideal.div (y (ix2 p q)) (max (Ideal.sqrt (shapeCast (S2 N 1) _ hc (ix2 p (0 : Fin 1)))) floorNorm) = _
  rw [Cert.LibColumn.shapeCast_a_a1_apply]
  refine congrArg (fun s => Ideal.div (y (ix2 p q)) (max (Ideal.sqrt s) floorNorm)) ?_
  refine (Ideal.multiReduction_add_single (mulf y y) 0x00000000#32 hr hφ hacc (ix1 p)).trans ?_
  refine Finset.sum_congr rfl fun k _ => ?_
  have e : hr.lift (ix1 p) k = ix2 p k := funext fun a => Fin.ext (by
    match a with
    | ⟨0, _⟩ => rfl
    | ⟨1, _⟩ => rfl)
  rw [e]
  rfl

/-- `tanh` of a tile. -/
theorem tanh_rows (y : FVec Ideal (S2 N C) .f32) : tanh y = mapRows (C := C) th y := by
  funext i
  obtain ⟨p, q, rfl⟩ : ∃ (p : Fin N) (q : Fin C), i = ix2 p q := ⟨i 0, i 1, eq_ix2 i⟩
  rfl

/-- One row-wise stage after another is one row-wise stage. -/
theorem mapRows_comp {Ci Cm : ℕ} (g : (Fin Cm → EReal) → Fin C → EReal) (f : (Fin Ci → EReal) → Fin Cm → EReal)
    (A : (S2 N Ci).Idx → EReal) : mapRows g (mapRows f A) = mapRows (fun r => g (f r)) A := rfl

/-! ## The seven tile bodies, as written by the compiler -/

/-- A linear tile whose operand passes through an identity re-shape first. -/
theorem body_lin {K : ℕ} (d : DotDims (S2 N K) (S2 K C) (S2 N C)) (hd : Cert.LibPlainDot.Plain d)
    (x : FVec Ideal (S2 N K) .f32) (w : FVec Ideal (S2 K C) .f32) (h1 : (S2 N K).ShapeCasts (S2 N K)) :
    matmul d none (shapeCast (S2 N K) x h1) w (constant (S2 N C) .f32 0x00000000#32) = mapRows (lin w) x := by
  rw [shapeCast_self]; exact matmul_rows d hd x w

/-- Bias, then `tanh`. -/
theorem body_bias_tanh (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C)) :
    tanh (addf (shapeCast (S2 N C) x h1) (broadcastTo (S2 N C) (shapeCast (S2 1 C) b h2) h3))
      = mapRows (fun r => th (addRow b r)) x := by
  rw [shapeCast_self x, addBias_rows, tanh_rows]; rfl

/-- Bias, then unit length. -/
theorem body_bias_unit (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    divf (addf (shapeCast (S2 N C) x h1) (broadcastTo (S2 N C) (shapeCast (S2 1 C) b h2) h3))
      (broadcastTo (S2 N C) (maximumf (sqrt (shapeCast (S2 N 1) (multiReduction .add [1] (S1 N)
        (mulf (addf (shapeCast (S2 N C) x h1) (broadcastTo (S2 N C) (shapeCast (S2 1 C) b h2) h3))
          (addf (shapeCast (S2 N C) x h1) (broadcastTo (S2 N C) (shapeCast (S2 1 C) b h2) h3))) 0x00000000#32 hr hφ hacc) hc))
        (broadcast (S2 N 1) (Scalar.ofBits .f32 0x2B8CBCCC#32))) hb)
      = mapRows (fun r => unit (addRow b r)) x := by
  rw [shapeCast_self x, addBias_rows, unit_rows]; rfl

/-- Bias, then unit length, then `tanh`. -/
theorem body_bias_unit_tanh (x : FVec Ideal (S2 N C) .f32) (b : FVec Ideal (S2 1 C) .f32) (h1 : (S2 N C).ShapeCasts (S2 N C))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    tanh (divf (addf (shapeCast (S2 N C) x h1) (broadcastTo (S2 N C) (shapeCast (S2 1 C) b h2) h3))
      (broadcastTo (S2 N C) (maximumf (sqrt (shapeCast (S2 N 1) (multiReduction .add [1] (S1 N)
        (mulf (addf (shapeCast (S2 N C) x h1) (broadcastTo (S2 N C) (shapeCast (S2 1 C) b h2) h3))
          (addf (shapeCast (S2 N C) x h1) (broadcastTo (S2 N C) (shapeCast (S2 1 C) b h2) h3))) 0x00000000#32 hr hφ hacc) hc))
        (broadcast (S2 N 1) (Scalar.ofBits .f32 0x2B8CBCCC#32))) hb))
      = mapRows (fun r => th (unit (addRow b r))) x := by
  rw [body_bias_unit x b h1 h2 h3 hr hφ hacc hc hb, tanh_rows]; rfl

/-- A linear tile, bias, then unit length. -/
theorem body_lin_bias_unit {K : ℕ} (d : DotDims (S2 N K) (S2 K C) (S2 N C)) (hd : Cert.LibPlainDot.Plain d)
    (x : FVec Ideal (S2 N K) .f32) (w : FVec Ideal (S2 K C) .f32) (b : FVec Ideal (S2 1 C) .f32) (h1 : (S2 N K).ShapeCasts (S2 N K))
    (h2 : (S2 1 C).ShapeCasts (S2 1 C)) (h3 : (S2 1 C).Broadcasts (S2 N C))
    (hr : (S2 N C).Reduces [1] (S1 N)) (hφ : FKind.Formats .f32) (hacc : (0x00000000#32 : BitVec 32) = FKind.add.neutral .f32 hφ)
    (hc : (S1 N).ShapeCasts (S2 N 1)) (hb : (S2 N 1).Broadcasts (S2 N C)) :
    divf (addf (matmul d none (shapeCast (S2 N K) x h1) w (constant (S2 N C) .f32 0x00000000#32)) (broadcastTo (S2 N C) (shapeCast (S2 1 C) b h2) h3))
      (broadcastTo (S2 N C) (maximumf (sqrt (shapeCast (S2 N 1) (multiReduction .add [1] (S1 N)
        (mulf (addf (matmul d none (shapeCast (S2 N K) x h1) w (constant (S2 N C) .f32 0x00000000#32)) (broadcastTo (S2 N C) (shapeCast (S2 1 C) b h2) h3))
          (addf (matmul d none (shapeCast (S2 N K) x h1) w (constant (S2 N C) .f32 0x00000000#32)) (broadcastTo (S2 N C) (shapeCast (S2 1 C) b h2) h3))) 0x00000000#32 hr hφ hacc) hc))
        (broadcast (S2 N 1) (Scalar.ofBits .f32 0x2B8CBCCC#32))) hb)
      = mapRows (fun r => unit (addRow b (lin w r))) x := by
  rw [body_lin d hd x w h1, addBias_rows, unit_rows]; rfl

end Unit

end Cert.Rows

end
-- ==== Proof.LibHostRows.lean ====
import proofs.«114315_j65214783422667_2_alg».proof.Proof.LibRows

/-!
# The host's spellings of the row-wise stages

The same stages as in `LibRows`, as a host program writes them on a whole `[N, C]` array: a `dot_general` with
the weights, a bias vector broadcast to one row and then down the rows, a host sum of squares along axis 1 kept as a
column, its square root floored by a broadcast scalar and broadcast back across the row, a host `tanh`. Each is
`mapRows` of the corresponding function of one row, whatever `N` is — so the host's whole-array stage and a
tiled stage agree row by row.
-/

noncomputable section

namespace Cert.Rows

open Idealize.ShloMosaic Idealize.ShloMosaic.ValueIdx
open scoped BigOperators

abbrev S0 : Shape := ⟨0, ![]⟩

variable {N C : ℕ}

/-- The host's product of the whole array with a weight matrix. -/
theorem host_lin {K : ℕ} (d : DotDims (S2 N K) (S2 K C) (S2 N C)) (hd : Cert.LibPlainDot.Plain d)
    (x : FVec Ideal (S2 N K) .f32) (w : FVec Ideal (S2 K C) .f32) :
    Host.dotGeneral d none x w = mapRows (lin w) x := by
  funext i
  obtain ⟨p, q, rfl⟩ : ∃ (p : Fin N) (q : Fin C), i = ix2 p q := ⟨i 0, i 1, eq_ix2 i⟩
  simp only [Host.dotGeneral]
  exact Cert.LibPlainDot.dotGeneral_apply d hd none _ x w p q

/-- The host adds a bias VECTOR, broadcast to one row and then down the rows: the same as adding the vector kept
    as a one-row matrix. -/
theorem host_bias (A : FVec Ideal (S2 N C) .f32) (b : FVec Ideal (S1 C) .f32)
    (h1 : (S1 C).BroadcastsInDim (S2 1 C) ![1]) (h2 : (S2 1 C).BroadcastsInDim (S2 N C) ![0, 1])
    (hc : (S1 C).ShapeCasts (S2 1 C)) :
    addf A (broadcastInDim (S2 N C) ![0, 1] h2 (broadcastInDim (S2 1 C) ![1] h1 b))
      = mapRows (addRow (shapeCast (S2 1 C) b hc)) A := by
  funext i
  obtain ⟨p, q, rfl⟩ : ∃ (p : Fin N) (q : Fin C), i = ix2 p q := ⟨i 0, i 1, eq_ix2 i⟩
  rw [mapRows_ix2]
  show A (ix2 p q) + broadcastInDim (S2 N C) ![0, 1] h2 (broadcastInDim (S2 1 C) ![1] h1 b) (ix2 p q)
    = A (ix2 p q) + shapeCast (S2 1 C) b hc (ix2 (0 : Fin 1) q)
  have hq : q.val = if C = 1 then 0 else q.val := by
    split
    · have := q.isLt; omega
    · rfl
  rw [shapeCast_a_1a_apply,
    broadcastInDim_apply ![0, 1] h2 _ (ix2 p q) (ix2 (0 : Fin 1) q) (fun a => by
      match a with
      | ⟨0, _⟩ => rfl
      | ⟨1, _⟩ => exact hq),
    broadcastInDim_apply ![1] h1 b (ix2 (0 : Fin 1) q) (ix1 q) (fun a => by
      match a with
      | ⟨0, _⟩ => exact hq)]

/-- The host divides every row by the larger of its norm and the floor. -/
theorem host_unit (Y : FVec Ideal (S2 N C) .f32) (hred : (S2 N C).ReducesTo [1] (S1 N)) (hr : (S2 N C).Reduces [1] (S1 N))
    (hu : 0 < S0.numel) (hb0 : (S1 N).BroadcastsInDim (S2 N 1) ![0]) (hbe : S0.BroadcastsInDim (S2 N 1) ![])
    (hb1 : (S2 N 1).BroadcastsInDim (S2 N C) ![0, 1]) :
    Host.divf Y (broadcastInDim (S2 N C) ![0, 1] hb1 (maximumf
      (Host.sqrt (broadcastInDim (S2 N 1) ![0] hb0 (Host.reduceAdd (mulf Y Y) (constant S0 .f32 0x00000000#32) hred hu)))
      (broadcastInDim (S2 N 1) ![] hbe (constant S0 .f32 0x2B8CBCCC#32)))) = mapRows unit Y := by
  funext i
  obtain ⟨p, q, rfl⟩ : ∃ (p : Fin N) (q : Fin C), i = ix2 p q := ⟨i 0, i 1, eq_ix2 i⟩
  rw [mapRows_ix2]
  have hp : p.val = if N = 1 then 0 else p.val := by
    split
    · have := p.isLt; omega
    · rfl
  show Ideal.div (Y (ix2 p q)) (broadcastInDim (s := S2 N 1) (S2 N C) ![0, 1] hb1 _ (ix2 p q)) = _
  rw [broadcastInDim_apply ![0, 1] hb1 _ (ix2 p q) (ix2 p (0 : Fin 1)) (fun a => by
      match a with
      | ⟨0, _⟩ => exact hp
      | ⟨1, _⟩ => rfl)]
  show Ideal.div (Y (ix2 p q)) (max (Ideal.sqrt (broadcastInDim (s := S1 N) (S2 N 1) ![0] hb0 _ (ix2 p (0 : Fin 1))))
    (broadcastInDim (s := S0) (S2 N 1) ![] hbe (constant (F := Ideal) S0 .f32 0x2B8CBCCC#32) (ix2 p (0 : Fin 1)))) = _
  rw [broadcastInDim_apply ![0] hb0 _ (ix2 p (0 : Fin 1)) (ix1 p) (fun a => by
      match a with
      | ⟨0, _⟩ => exact hp),
    broadcastInDim_apply ![] hbe _ (ix2 p (0 : Fin 1)) ix0 (fun a => a.elim0)]
  refine congrArg (fun s => Ideal.div (Y (ix2 p q)) (max (Ideal.sqrt s) floorNorm)) ?_
  show Ideal.hostReduceAdd hred (mulf Y Y) (Ideal.ofBits .f32 0x00000000#32) (ix1 p) = _
  rw [Ideal.hostReduceAdd_single hred hr, Ideal.ofBits_zero_f32, zero_add]
  refine Finset.sum_congr rfl fun k _ => ?_
  have e : hr.lift (ix1 p) k = ix2 p k := funext fun a => Fin.ext (by
    match a with
    | ⟨0, _⟩ => rfl
    | ⟨1, _⟩ => rfl)
  rw [e]
  rfl

/-- The host's `tanh` of the whole array. -/
theorem host_tanh (Y : FVec Ideal (S2 N C) .f32) : Host.tanh Y = mapRows (C := C) th Y := by
  funext i
  obtain ⟨p, q, rfl⟩ : ∃ (p : Fin N) (q : Fin C), i = ix2 p q := ⟨i 0, i 1, eq_ix2 i⟩
  rfl

/-- Three row-wise stages in a row are one. -/
theorem mapRows_comp3 {Ci Ca Cb : ℕ} (h : (Fin Cb → EReal) → Fin C → EReal) (g : (Fin Ca → EReal) → Fin Cb → EReal)
    (f : (Fin Ci → EReal) → Fin Ca → EReal) (A : (S2 N Ci).Idx → EReal) :
    mapRows h (mapRows g (mapRows f A)) = mapRows (fun r => h (g (f r))) A := rfl

end Cert.Rows

end
-- ==== Proof.LibLayoutRead.lean ====
import Idealize.ShloMosaic.Lib.ValueIdx
import Idealize.ShloMosaic.Lib.Pipeline.Value
import Idealize.ShloMosaic.PureOps.Ideal.Laws

/-!
# Small re-layings read at an index, and the word of 1.0

A scalar splat to any shape reads the scalar everywhere; a vector `[a]` stood up as a column `[a, 1]` reads the vector's
entry of the row; a column `[a, 1]` repeated along `b` columns reads the column's entry of the row; a vector `[b]` stood
up as a one-row matrix `[1, b]`, by a broadcast or by a shape cast, reads the vector's entry of the column. The extents
are arbitrary. The 32-bit pattern `0x3F800000` denotes the real number 1.
-/

namespace Cert.LibLayoutRead

open Idealize.ShloMosaic Idealize.ShloMosaic.ValueIdx

/-- A scalar broadcast to any shape reads the scalar at every index. -/
theorem splat_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector stood up as a column reads, in row `i`, the vector's entry `i`. -/
theorem column_apply {α : Type} {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun d => match d with
    | ⟨0, _⟩ => by
      show i.val = if a = 1 then 0 else i.val
      split
      · next h1 => have := i.isLt; omega
      · rfl)

/-- A column repeated along the columns reads, at `(i, c)`, the column's entry of row `i`. -/
theorem alongCols_apply {α : Type} {a b : ℕ} (h : (⟨2, ![a, 1]⟩ : Shape).BroadcastsInDim ⟨2, ![a, b]⟩ ![0, 1])
    (x : (⟨2, ![a, 1]⟩ : Shape).Idx → α) (i : Fin a) (c : Fin b) :
    broadcastInDim ⟨2, ![a, b]⟩ ![0, 1] h x (ix2 i c) = x (ix2 i (0 : Fin 1)) :=
  broadcastInDim_apply _ h x (ix2 i c) (ix2 i (0 : Fin 1)) (fun d => match d with
    | ⟨0, _⟩ => by
      show i.val = if a = 1 then 0 else i.val
      split
      · next h1 => have := i.isLt; omega
      · rfl
    | ⟨1, _⟩ => by
      show (0 : ℕ) = if (1 : ℕ) = 1 then 0 else c.val
      rw [if_pos rfl])

/-- A vector stood up as a one-row matrix by a broadcast reads, in column `k`, the vector's entry `k`. -/
theorem row_apply {α : Type} {b : ℕ} (h : (⟨1, ![b]⟩ : Shape).BroadcastsInDim ⟨2, ![1, b]⟩ ![1])
    (x : (⟨1, ![b]⟩ : Shape).Idx → α) (u : Fin 1) (k : Fin b) :
    broadcastInDim ⟨2, ![1, b]⟩ ![1] h x (ix2 u k) = x (ix1 k) :=
  broadcastInDim_apply _ h x (ix2 u k) (ix1 k) (fun d => match d with
    | ⟨0, _⟩ => by
      show k.val = if b = 1 then 0 else k.val
      split
      · next h1 => have := k.isLt; omega
      · rfl)

/-- A vector re-laid as a one-row matrix by a shape cast reads, in column `k`, the vector's entry `k`. -/
theorem castRow_apply {α : Type} {b : ℕ} (h : (⟨1, ![b]⟩ : Shape).ShapeCasts ⟨2, ![1, b]⟩)
    (x : (⟨1, ![b]⟩ : Shape).Idx → α) (u : Fin 1) (k : Fin b) :
    shapeCast ⟨2, ![1, b]⟩ x h (ix2 u k) = x (ix1 k) :=
  shapeCast_apply x h (ix2 u k) (ix1 k) (by
    rewrite [Shape.rowMajor_val_one, Shape.rowMajor_val_two]
    show k.val = u.val * b + k.val
    have hu : u.val = 0 := by have := u.isLt; omega
    rw [hu, Nat.zero_mul, Nat.zero_add])

/-- The pattern `0x3F800000` is the real number 1. -/
theorem one_word : Ideal.ofBits .f32 0x3F800000#32 = 1 := by
  simp [Ideal.ofBits, Ideal.ieee, -EReal.coe_mul]; norm_num

end Cert.LibLayoutRead
-- ==== Proof.LibTrailUnit.lean ====
import Idealize.ShloMosaic.Lib.ValueLayout

/-!
# Dropping a trailing unit axis

An `[a, 1]` array cast to `[a]` reads, at `i`, the operand at `(i, 0)`: both have row-major position `i`.
-/

noncomputable section

namespace Cert.LibTrailUnit

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibTrailUnit

end
-- ==== Proof.RefNet.lean ====
/-
  A perceptron evaluated on a whole batch by host operations, read one row at a time.

  The host evaluates the three dense layers on the whole `[N, 2]` array of states: a product with the weights, a
  bias vector stood up as one row and repeated down the rows, a hyperbolic tangent. Every one of these stages acts on
  each row by itself, so entry `(i, j)` of the result is output `j` of the perceptron at the state in row `i`. The batch
  itself is two vectors stood up as columns and joined side by side, and an output column is cut out of the result and
  laid flat again; both only move numbers.
-/
import proofs.«114315_j65214783422667_2_alg».proof.Proof.LibHostRows
import proofs.«114315_j65214783422667_2_alg».proof.Proof.LibLayoutRead
import proofs.«114315_j65214783422667_2_alg».proof.Proof.LibRowLayout
import proofs.«114315_j65214783422667_2_alg».proof.Proof.LibTrailUnit
import proofs.«114315_j65214783422667_2_alg».proof.Proof.Spec

noncomputable section

namespace Cert.RefNet

open Idealize.ShloMosaic Idealize.ShloMosaic.ValueIdx
open scoped BigOperators

/-- The perceptron whose weights are six arrays: `[2,512]`, `[512]`, `[512,512]`, `[512]`, `[512,2]`, `[2]`. -/
def netOf (w1 : (⟨2, ![2, 512]⟩ : Shape).Idx → EReal) (b1 : (⟨1, ![512]⟩ : Shape).Idx → EReal)
    (w2 : (⟨2, ![512, 512]⟩ : Shape).Idx → EReal) (b2 : (⟨1, ![512]⟩ : Shape).Idx → EReal)
    (w3 : (⟨2, ![512, 2]⟩ : Shape).Idx → EReal) (b3 : (⟨1, ![2]⟩ : Shape).Idx → EReal) : Cert.Spec.Net where
  w1 := fun k j => w1 (ix2 k j)
  b1 := fun j => b1 (ix1 j)
  w2 := fun k j => w2 (ix2 k j)
  b2 := fun j => b2 (ix1 j)
  w3 := fun k j => w3 (ix2 k j)
  b3 := fun j => b3 (ix1 j)

/-- A row of two entries is the pair of its entries. -/
theorem row_pair {N : ℕ} (x : (⟨2, ![N, 2]⟩ : Shape).Idx → EReal) (i : Fin N) :
    (fun k : Fin 2 => x (ix2 i k)) = ![x (ix2 i 0), x (ix2 i 1)] :=
  funext fun k => by
    match k with
    | ⟨0, _⟩ => rfl
    | ⟨1, _⟩ => rfl

/-- The host's three dense layers on the whole `[N, 2]` array: entry `(i, j)` is output `j` of the perceptron at
    the state in row `i`. -/
theorem host_mlp_apply {N : ℕ}
    (d1 : DotDims (⟨2, ![N, 2]⟩ : Shape) ⟨2, ![2, 512]⟩ ⟨2, ![N, 512]⟩) (hd1 : Cert.LibPlainDot.Plain d1)
    (d2 : DotDims (⟨2, ![N, 512]⟩ : Shape) ⟨2, ![512, 512]⟩ ⟨2, ![N, 512]⟩) (hd2 : Cert.LibPlainDot.Plain d2)
    (d3 : DotDims (⟨2, ![N, 512]⟩ : Shape) ⟨2, ![512, 2]⟩ ⟨2, ![N, 2]⟩) (hd3 : Cert.LibPlainDot.Plain d3)
    (hr : (⟨1, ![512]⟩ : Shape).BroadcastsInDim ⟨2, ![1, 512]⟩ ![1])
    (hR : (⟨2, ![1, 512]⟩ : Shape).BroadcastsInDim ⟨2, ![N, 512]⟩ ![0, 1])
    (hr' : (⟨1, ![2]⟩ : Shape).BroadcastsInDim ⟨2, ![1, 2]⟩ ![1])
    (hR' : (⟨2, ![1, 2]⟩ : Shape).BroadcastsInDim ⟨2, ![N, 2]⟩ ![0, 1])
    (x : FVec Ideal ⟨2, ![N, 2]⟩ .f32)
    (w1 : FVec Ideal ⟨2, ![2, 512]⟩ .f32) (b1 : FVec Ideal ⟨1, ![512]⟩ .f32)
    (w2 : FVec Ideal ⟨2, ![512, 512]⟩ .f32) (b2 : FVec Ideal ⟨1, ![512]⟩ .f32)
    (w3 : FVec Ideal ⟨2, ![512, 2]⟩ .f32) (b3 : FVec Ideal ⟨1, ![2]⟩ .f32) (i : Fin N) (j : Fin 2) :
    addf (Host.dotGeneral d3 none
        (Host.tanh (addf (Host.dotGeneral d2 none
          (Host.tanh (addf (Host.dotGeneral d1 none x w1)
            (broadcastInDim ⟨2, ![N, 512]⟩ ![0, 1] hR (broadcastInDim ⟨2, ![1, 512]⟩ ![1] hr b1)))) w2)
          (broadcastInDim ⟨2, ![N, 512]⟩ ![0, 1] hR (broadcastInDim ⟨2, ![1, 512]⟩ ![1] hr b2)))) w3)
        (broadcastInDim ⟨2, ![N, 2]⟩ ![0, 1] hR' (broadcastInDim ⟨2, ![1, 2]⟩ ![1] hr' b3)) (ix2 i j)
      = (netOf w1 b1 w2 b2 w3 b3).out (x (ix2 i 0)) (x (ix2 i 1)) j := by
  have hc : (⟨1, ![512]⟩ : Shape).ShapeCasts ⟨2, ![1, 512]⟩ := by decide
  have hc' : (⟨1, ![2]⟩ : Shape).ShapeCasts ⟨2, ![1, 2]⟩ := by decide
  rw [Cert.Rows.host_lin d1 hd1, Cert.Rows.host_bias _ b1 hr hR hc, Cert.Rows.host_tanh,
    Cert.Rows.host_lin d2 hd2, Cert.Rows.host_bias _ b2 hr hR hc, Cert.Rows.host_tanh,
    Cert.Rows.host_lin d3 hd3, Cert.Rows.host_bias _ b3 hr' hR' hc']
  show Cert.Rows.addRow _ (Cert.Rows.lin w3 (Cert.Rows.th (Cert.Rows.addRow _ (Cert.Rows.lin w2
    (Cert.Rows.th (Cert.Rows.addRow _ (Cert.Rows.lin w1 (fun k => x (ix2 i k))))))))) j = _
  rw [row_pair x i]
  simp only [Cert.Rows.addRow, Cert.Rows.lin, Cert.Rows.th, Cert.LibLayoutRead.castRow_apply]
  rfl

/-- Two vectors stood up as columns and joined side by side: row `i` is the pair of their entries `i`. -/
theorem pair_cols_apply {N : ℕ} (hN : N ≠ 1)
    (hb : (⟨1, ![N]⟩ : Shape).BroadcastsInDim ⟨2, ![N, 1]⟩ ![0])
    (hcat : Shape.Concatenates [(⟨2, ![N, 1]⟩ : Shape), ⟨2, ![N, 1]⟩] ⟨2, ![N, 2]⟩ 1)
    (a b : (⟨1, ![N]⟩ : Shape).Idx → EReal) (i : Fin N) :
    concatenate ⟨2, ![N, 2]⟩ 1 [⟨⟨2, ![N, 1]⟩, broadcastInDim ⟨2, ![N, 1]⟩ ![0] hb a⟩,
        ⟨⟨2, ![N, 1]⟩, broadcastInDim ⟨2, ![N, 1]⟩ ![0] hb b⟩] hcat (ix2 i 0) = a (ix1 i)
    ∧ concatenate ⟨2, ![N, 2]⟩ 1 [⟨⟨2, ![N, 1]⟩, broadcastInDim ⟨2, ![N, 1]⟩ ![0] hb a⟩,
        ⟨⟨2, ![N, 1]⟩, broadcastInDim ⟨2, ![N, 1]⟩ ![0] hb b⟩] hcat (ix2 i 1) = b (ix1 i) := by
  constructor
  · refine (Cert.RowLayout.concat_axis1_apply (b₁ := 1)
      [⟨⟨2, ![N, 1]⟩, broadcastInDim ⟨2, ![N, 1]⟩ ![0] hb a⟩, ⟨⟨2, ![N, 1]⟩, broadcastInDim ⟨2, ![N, 1]⟩ ![0] hb b⟩]
      hcat 0 (Nat.zero_lt_succ _) _ rfl 0 rfl i 0 (0 : Fin 1) rfl).trans ?_
    exact Cert.RowLayout.column_apply hN a hb i 0
  · refine (Cert.RowLayout.concat_axis1_apply (b₁ := 1)
      [⟨⟨2, ![N, 1]⟩, broadcastInDim ⟨2, ![N, 1]⟩ ![0] hb a⟩, ⟨⟨2, ![N, 1]⟩, broadcastInDim ⟨2, ![N, 1]⟩ ![0] hb b⟩]
      hcat 1 (Nat.lt_succ_self _) _ rfl 1 rfl i 1 (0 : Fin 1) rfl).trans ?_
    exact Cert.RowLayout.column_apply hN b hb i 0

/-- Column 0 of an `[N, 2]` array cut out and laid flat: entry `i` is the array's entry `(i, 0)`. -/
theorem flat_col0_apply {N : ℕ} (y : (⟨2, ![N, 2]⟩ : Shape).Idx → EReal)
    (hs : (⟨2, ![N, 2]⟩ : Shape).Slices ![0, 0] ⟨2, ![N, 1]⟩)
    (hc : (⟨2, ![N, 1]⟩ : Shape).ShapeCasts ⟨1, ![N]⟩) (i : Fin N) :
    shapeCast ⟨1, ![N]⟩ (extractStridedSlice ⟨2, ![N, 1]⟩ ![0, 0] y hs) hc (ix1 i) = y (ix2 i 0) := by
  rw [Cert.LibTrailUnit.shapeCast_a1_a_apply,
    Cert.RowLayout.slice_cols_apply 0 y hs i (0 : Fin 1) (by decide)]
  rfl

/-- Column 1 likewise: entry `i` is the array's entry `(i, 1)`. -/
theorem flat_col1_apply {N : ℕ} (y : (⟨2, ![N, 2]⟩ : Shape).Idx → EReal)
    (hs : (⟨2, ![N, 2]⟩ : Shape).Slices ![0, 1] ⟨2, ![N, 1]⟩)
    (hc : (⟨2, ![N, 1]⟩ : Shape).ShapeCasts ⟨1, ![N]⟩) (i : Fin N) :
    shapeCast ⟨1, ![N]⟩ (extractStridedSlice ⟨2, ![N, 1]⟩ ![0, 1] y hs) hc (ix1 i) = y (ix2 i 1) := by
  rw [Cert.LibTrailUnit.shapeCast_a1_a_apply,
    Cert.RowLayout.slice_cols_apply 1 y hs i (0 : Fin 1) (by decide)]
  rfl

end Cert.RefNet

end
-- ==== Proof.IdealBlocks.lean ====
import proofs.«114315_j65214783422667_2_alg».proof.Proof.IdealBase
import proofs.«114315_j65214783422667_2_alg».proof.Proof.KernelNet
import proofs.«114315_j65214783422667_2_alg».proof.Proof.RefNet
import proofs.«114315_j65214783422667_2_alg».proof.Proof.LibColumn
import proofs.«114315_j65214783422667_2_alg».proof.Proof.LibLayoutRead
import Idealize.ShloMosaic.Lib.StableHlo.Run
import Idealize.ShloMosaic.Lib.Pipeline.Value

/-!
# The windows' blocks as functions of the arguments

Before the kernel runs, the host lays its arguments out: the two coordinates of the first states are stood up as
columns and joined into a `[65536, 2]` array, likewise the second states; the forcing column is the external force
times the time step, stood up as a column; the weight matrices of the second and third layers are narrowed to sixteen
bits (nothing, over the extended reals); each bias vector is re-laid as a one-row matrix. The kernel then reads these
arrays through its windows: the three batch arrays 1024 rows at a time, the twelve weight blocks whole.

So the block of window 0 at tile `t` has in row `r` the first state of row `1024 t + r` of the batch; window 1 the second
state; window 2 the force times the step. The weight blocks, read as a perceptron, are the perceptron of the weight
arguments themselves.
-/

set_option maxRecDepth 16384

noncomputable section

namespace Cert.KernelIdeal.Blocks

open Cert.KernelIdeal Cert.KernelIdeal.Gen Cert.KernelIdeal.Hand Cert.KernelIdeal.Rows
open Idealize.ShloMosaic Idealize.ShloMosaic.ValueIdx Idealize.ShloMosaic.TcCoe Idealize.SL.Sem
open Idealize.ShloMosaic.StableHlo
open scoped BigOperators

variable (m : (ℓ : Loc nD τ sig) → Buf (Elt Ideal) ℓ) (c : Dev nD) (t : Fin cfg0.N)

/-- Row `r` of tile `t` in the whole batch. -/
def rowOf (t : Fin cfg0.N) (r : Fin 1024) : Fin 65536 :=
  ⟨1024 * t.val + r.val, by have := t.isLt; have : cfg0.N = 64 := N_0; omega⟩

/-- The external force of row `i` of the batch, as an extended real. -/
abbrev force (i : Fin 65536) : EReal := m ((c : Thread nD τ).loc main_arg4) (ix1 i)

/-- The time step, as an extended real. -/
abbrev step : EReal := m ((c : Thread nD τ).loc main_arg6) ix0

/-- Two perceptrons with the same six weight functions are the same perceptron. -/
theorem net_ext {n n' : Cert.Spec.Net} (h1 : n.w1 = n'.w1) (h2 : n.b1 = n'.b1) (h3 : n.w2 = n'.w2) (h4 : n.b2 = n'.b2)
    (h5 : n.w3 = n'.w3) (h6 : n.b3 = n'.b3) : n = n' := by
  obtain ⟨a1, a2, a3, a4, a5, a6⟩ := n
  obtain ⟨c1, c2, c3, c4, c5, c6⟩ := n'
  dsimp only at h1 h2 h3 h4 h5 h6
  subst h1 h2 h3 h4 h5 h6
  rfl

/-! ## What the laid-out arrays hold when the kernel is entered -/

/-- The array of first states: row `i` is the pair of the first two arguments' entries `i`. -/
theorem V_v2_apply (i : Fin 65536) :
    (V m c main_v2 : S65536x2.Idx → EReal) (ix2 i (0 : Fin 2)) = m ((c : Thread nD τ).loc main_arg0) (ix1 i)
    ∧ (V m c main_v2 : S65536x2.Idx → EReal) (ix2 i (1 : Fin 2)) = m ((c : Thread nD τ).loc main_arg1) (ix1 i) := by
  dsimp only [V, V0]
  simp only [hostOps0, List.flatten_cons, List.flatten_nil, List.append_nil]
  after_results
  exact Cert.RefNet.pair_cols_apply (by decide) _ _ _ _ i

/-- The array of second states: row `i` is the pair of the third and fourth arguments' entries `i`. -/
theorem V_v5_apply (i : Fin 65536) :
    (V m c main_v5 : S65536x2.Idx → EReal) (ix2 i (0 : Fin 2)) = m ((c : Thread nD τ).loc main_arg2) (ix1 i)
    ∧ (V m c main_v5 : S65536x2.Idx → EReal) (ix2 i (1 : Fin 2)) = m ((c : Thread nD τ).loc main_arg3) (ix1 i) := by
  dsimp only [V, V0]
  simp only [hostOps0, List.flatten_cons, List.flatten_nil, List.append_nil]
  after_results
  exact Cert.RefNet.pair_cols_apply (by decide) _ _ _ _ i

/-- The forcing column: row `i` is the external force at `i` times the time step. -/
theorem V_v8_apply (i : Fin 65536) :
    (V m c main_v8 : S65536x1.Idx → EReal) (ix2 i (0 : Fin 1))
      = force m c i * step m c := by
  dsimp only [V, V0]
  simp only [hostOps0, List.flatten_cons, List.flatten_nil, List.append_nil]
  after_results
  refine (Cert.LibColumn.shapeCast_a_a1_apply (a := 65536) _ _ i (0 : Fin 1)).trans ?_
  refine (mulf_apply _ _ _).trans ?_
  rw [Cert.LibLayoutRead.splat_apply]

/-- A narrowed weight matrix holds the argument's entries. -/
theorem V_v9_apply (k j : Fin 512) :
    (V m c main_v9 : S512x512.Idx → EReal) (ix2 k j) = m ((c : Thread nD τ).loc main_arg9) (ix2 k j) := by
  dsimp only [V, V0]
  simp only [hostOps0, List.flatten_cons, List.flatten_nil, List.append_nil]
  after_results
  rfl

theorem V_v10_apply (k : Fin 512) (j : Fin 2) :
    (V m c main_v10 : S512x2.Idx → EReal) (ix2 k j) = m ((c : Thread nD τ).loc main_arg11) (ix2 k j) := by
  dsimp only [V, V0]
  simp only [hostOps0, List.flatten_cons, List.flatten_nil, List.append_nil]
  after_results
  rfl

theorem V_v11_apply (k j : Fin 512) :
    (V m c main_v11 : S512x512.Idx → EReal) (ix2 k j) = m ((c : Thread nD τ).loc main_arg15) (ix2 k j) := by
  dsimp only [V, V0]
  simp only [hostOps0, List.flatten_cons, List.flatten_nil, List.append_nil]
  after_results
  rfl

theorem V_v12_apply (k : Fin 512) (j : Fin 2) :
    (V m c main_v12 : S512x2.Idx → EReal) (ix2 k j) = m ((c : Thread nD τ).loc main_arg17) (ix2 k j) := by
  dsimp only [V, V0]
  simp only [hostOps0, List.flatten_cons, List.flatten_nil, List.append_nil]
  after_results
  rfl

/-- A bias vector re-laid as one row holds, in column `j`, the vector's entry `j`. -/
theorem V_v13_apply (j : Fin 512) :
    (V m c main_v13 : S1x512.Idx → EReal) (ix2 (0 : Fin 1) j) = m ((c : Thread nD τ).loc main_arg8) (ix1 j) := by
  dsimp only [V, V0]
  simp only [hostOps0, List.flatten_cons, List.flatten_nil, List.append_nil]
  after_results
  exact Cert.LibLayoutRead.castRow_apply (b := 512) _ _ (0 : Fin 1) j

theorem V_v14_apply (j : Fin 512) :
    (V m c main_v14 : S1x512.Idx → EReal) (ix2 (0 : Fin 1) j) = m ((c : Thread nD τ).loc main_arg10) (ix1 j) := by
  dsimp only [V, V0]
  simp only [hostOps0, List.flatten_cons, List.flatten_nil, List.append_nil]
  after_results
  exact Cert.LibLayoutRead.castRow_apply (b := 512) _ _ (0 : Fin 1) j

theorem V_v15_apply (j : Fin 2) :
    (V m c main_v15 : S1x2.Idx → EReal) (ix2 (0 : Fin 1) j) = m ((c : Thread nD τ).loc main_arg12) (ix1 j) := by
  dsimp only [V, V0]
  simp only [hostOps0, List.flatten_cons, List.flatten_nil, List.append_nil]
  after_results
  exact Cert.LibLayoutRead.castRow_apply (b := 2) _ _ (0 : Fin 1) j

theorem V_v16_apply (j : Fin 512) :
    (V m c main_v16 : S1x512.Idx → EReal) (ix2 (0 : Fin 1) j) = m ((c : Thread nD τ).loc main_arg14) (ix1 j) := by
  dsimp only [V, V0]
  simp only [hostOps0, List.flatten_cons, List.flatten_nil, List.append_nil]
  after_results
  exact Cert.LibLayoutRead.castRow_apply (b := 512) _ _ (0 : Fin 1) j

theorem V_v17_apply (j : Fin 512) :
    (V m c main_v17 : S1x512.Idx → EReal) (ix2 (0 : Fin 1) j) = m ((c : Thread nD τ).loc main_arg16) (ix1 j) := by
  dsimp only [V, V0]
  simp only [hostOps0, List.flatten_cons, List.flatten_nil, List.append_nil]
  after_results
  exact Cert.LibLayoutRead.castRow_apply (b := 512) _ _ (0 : Fin 1) j

theorem V_v18_apply (j : Fin 2) :
    (V m c main_v18 : S1x2.Idx → EReal) (ix2 (0 : Fin 1) j) = m ((c : Thread nD τ).loc main_arg18) (ix1 j) := by
  dsimp only [V, V0]
  simp only [hostOps0, List.flatten_cons, List.flatten_nil, List.append_nil]
  after_results
  exact Cert.LibLayoutRead.castRow_apply (b := 2) _ _ (0 : Fin 1) j

/-! ## The three batch windows: 1024 rows at a time -/

/-- Window 0 at tile `t` reads the array of first states at rows `1024 t + r`. -/
theorem blk0_idx (r : Fin 1024) (q : Fin 2) :
    iblk m c 0 t (ix2 r q) = (V m c main_v2 : S65536x2.Idx → EReal) (ix2 (rowOf t r) q) := by
  have hi : win0_0.index t 0 = t.val ∧ win0_0.index t 1 = 0 :=
    (by decide +kernel : ∀ t : Fin grid0.N, win0_0.index t 0 = t.val ∧ win0_0.index t 1 = 0) t
  unfold iblk
  rw [View.read_apply]
  show (V m c main_v2 : S65536x2.Idx → EReal) _ = _
  congr 1
  funext a
  apply Fin.ext
  match a with
  | ⟨0, _⟩ => show win0_0.index t 0 * 1024 + 1 * r.val = 1024 * t.val + r.val; rw [hi.1]; omega
  | ⟨1, _⟩ => show win0_0.index t 1 * 2 + 1 * q.val = q.val; rw [hi.2]; omega

/-- Window 1 at tile `t` reads the array of second states at rows `1024 t + r`. -/
theorem blk1_idx (r : Fin 1024) (q : Fin 2) :
    iblk m c 1 t (ix2 r q) = (V m c main_v5 : S65536x2.Idx → EReal) (ix2 (rowOf t r) q) := by
  have hi : win0_1.index t 0 = t.val ∧ win0_1.index t 1 = 0 :=
    (by decide +kernel : ∀ t : Fin grid0.N, win0_1.index t 0 = t.val ∧ win0_1.index t 1 = 0) t
  unfold iblk
  rw [View.read_apply]
  show (V m c main_v5 : S65536x2.Idx → EReal) _ = _
  congr 1
  funext a
  apply Fin.ext
  match a with
  | ⟨0, _⟩ => show win0_1.index t 0 * 1024 + 1 * r.val = 1024 * t.val + r.val; rw [hi.1]; omega
  | ⟨1, _⟩ => show win0_1.index t 1 * 2 + 1 * q.val = q.val; rw [hi.2]; omega

/-- Window 2 at tile `t` reads the forcing column at rows `1024 t + r`. -/
theorem blk2_idx (r : Fin 1024) (u : Fin 1) :
    iblk m c 2 t (ix2 r u) = (V m c main_v8 : S65536x1.Idx → EReal) (ix2 (rowOf t r) u) := by
  have hi : win0_2.index t 0 = t.val ∧ win0_2.index t 1 = 0 :=
    (by decide +kernel : ∀ t : Fin grid0.N, win0_2.index t 0 = t.val ∧ win0_2.index t 1 = 0) t
  unfold iblk
  rw [View.read_apply]
  show (V m c main_v8 : S65536x1.Idx → EReal) _ = _
  congr 1
  funext a
  apply Fin.ext
  match a with
  | ⟨0, _⟩ => show win0_2.index t 0 * 1024 + 1 * r.val = 1024 * t.val + r.val; rw [hi.1]; omega
  | ⟨1, _⟩ => show win0_2.index t 1 * 1 + 1 * u.val = u.val; rw [hi.2]; omega

/-- The block of first states: row `r` is the first state of row `1024 t + r` of the batch. -/
theorem blk0 (r : Fin 1024) :
    iblk m c 0 t (ix2 r (0 : Fin 2)) = m ((c : Thread nD τ).loc main_arg0) (ix1 (rowOf t r))
    ∧ iblk m c 0 t (ix2 r (1 : Fin 2)) = m ((c : Thread nD τ).loc main_arg1) (ix1 (rowOf t r)) :=
  ⟨(blk0_idx m c t r 0).trans (V_v2_apply m c (rowOf t r)).1, (blk0_idx m c t r 1).trans (V_v2_apply m c (rowOf t r)).2⟩

/-- The block of second states: row `r` is the second state of row `1024 t + r` of the batch. -/
theorem blk1 (r : Fin 1024) :
    iblk m c 1 t (ix2 r (0 : Fin 2)) = m ((c : Thread nD τ).loc main_arg2) (ix1 (rowOf t r))
    ∧ iblk m c 1 t (ix2 r (1 : Fin 2)) = m ((c : Thread nD τ).loc main_arg3) (ix1 (rowOf t r)) :=
  ⟨(blk1_idx m c t r 0).trans (V_v5_apply m c (rowOf t r)).1, (blk1_idx m c t r 1).trans (V_v5_apply m c (rowOf t r)).2⟩

/-- The block of forcing terms: row `r` is the external force at row `1024 t + r` times the time step. -/
theorem blk2 (r : Fin 1024) :
    iblk m c 2 t (ix2 r (0 : Fin 1))
      = force m c (rowOf t r) * step m c :=
  (blk2_idx m c t r 0).trans (V_v8_apply m c (rowOf t r))

/-! ## The twelve weight windows: whole blocks -/

/-- The encoder's first weight matrix. -/
theorem wblk3 (k : Fin 2) (j : Fin 512) :
    iblk m c 3 t (ix2 k j) = m ((c : Thread nD τ).loc main_arg7) (ix2 k j) := by
  have hi : win0_3.index t 0 = 0 ∧ win0_3.index t 1 = 0 :=
    (by decide +kernel : ∀ t : Fin grid0.N, win0_3.index t 0 = 0 ∧ win0_3.index t 1 = 0) t
  unfold iblk
  rw [View.read_apply]
  show (V m c main_arg7 : S2x512.Idx → EReal) _ = _
  rw [V_arg m c main_arg7 (by decide)]
  congr 1
  funext a
  apply Fin.ext
  match a with
  | ⟨0, _⟩ => show win0_3.index t 0 * 2 + 1 * k.val = k.val; rw [hi.1]; omega
  | ⟨1, _⟩ => show win0_3.index t 1 * 512 + 1 * j.val = j.val; rw [hi.2]; omega

/-- The encoder's first bias. -/
theorem wblk4 (j : Fin 512) :
    iblk m c 4 t (ix2 (0 : Fin 1) j) = m ((c : Thread nD τ).loc main_arg8) (ix1 j) := by
  have hi : win0_4.index t 0 = 0 ∧ win0_4.index t 1 = 0 :=
    (by decide +kernel : ∀ t : Fin grid0.N, win0_4.index t 0 = 0 ∧ win0_4.index t 1 = 0) t
  refine Eq.trans ?_ (V_v13_apply m c j)
  unfold iblk
  rw [View.read_apply]
  show (V m c main_v13 : S1x512.Idx → EReal) _ = _
  congr 1
  funext a
  apply Fin.ext
  match a with
  | ⟨0, _⟩ => show win0_4.index t 0 * 1 + 1 * (0 : Fin 1).val = (0 : Fin 1).val; rw [hi.1]; omega
  | ⟨1, _⟩ => show win0_4.index t 1 * 512 + 1 * j.val = j.val; rw [hi.2]; omega

/-- The encoder's second weight matrix. -/
theorem wblk5 (k j : Fin 512) :
    iblk m c 5 t (ix2 k j) = m ((c : Thread nD τ).loc main_arg9) (ix2 k j) := by
  have hi : win0_5.index t 0 = 0 ∧ win0_5.index t 1 = 0 :=
    (by decide +kernel : ∀ t : Fin grid0.N, win0_5.index t 0 = 0 ∧ win0_5.index t 1 = 0) t
  refine Eq.trans ?_ (V_v9_apply m c k j)
  unfold iblk
  rw [View.read_apply]
  show (V m c main_v9 : S512x512.Idx → EReal) _ = _
  congr 1
  funext a
  apply Fin.ext
  match a with
  | ⟨0, _⟩ => show win0_5.index t 0 * 512 + 1 * k.val = k.val; rw [hi.1]; omega
  | ⟨1, _⟩ => show win0_5.index t 1 * 512 + 1 * j.val = j.val; rw [hi.2]; omega

/-- The encoder's second bias. -/
theorem wblk6 (j : Fin 512) :
    iblk m c 6 t (ix2 (0 : Fin 1) j) = m ((c : Thread nD τ).loc main_arg10) (ix1 j) := by
  have hi : win0_6.index t 0 = 0 ∧ win0_6.index t 1 = 0 :=
    (by decide +kernel : ∀ t : Fin grid0.N, win0_6.index t 0 = 0 ∧ win0_6.index t 1 = 0) t
  refine Eq.trans ?_ (V_v14_apply m c j)
  unfold iblk
  rw [View.read_apply]
  show (V m c main_v14 : S1x512.Idx → EReal) _ = _
  congr 1
  funext a
  apply Fin.ext
  match a with
  | ⟨0, _⟩ => show win0_6.index t 0 * 1 + 1 * (0 : Fin 1).val = (0 : Fin 1).val; rw [hi.1]; omega
  | ⟨1, _⟩ => show win0_6.index t 1 * 512 + 1 * j.val = j.val; rw [hi.2]; omega

/-- The encoder's third weight matrix. -/
theorem wblk7 (k : Fin 512) (j : Fin 2) :
    iblk m c 7 t (ix2 k j) = m ((c : Thread nD τ).loc main_arg11) (ix2 k j) := by
  have hi : win0_7.index t 0 = 0 ∧ win0_7.index t 1 = 0 :=
    (by decide +kernel : ∀ t : Fin grid0.N, win0_7.index t 0 = 0 ∧ win0_7.index t 1 = 0) t
  refine Eq.trans ?_ (V_v10_apply m c k j)
  unfold iblk
  rw [View.read_apply]
  show (V m c main_v10 : S512x2.Idx → EReal) _ = _
  congr 1
  funext a
  apply Fin.ext
  match a with
  | ⟨0, _⟩ => show win0_7.index t 0 * 512 + 1 * k.val = k.val; rw [hi.1]; omega
  | ⟨1, _⟩ => show win0_7.index t 1 * 2 + 1 * j.val = j.val; rw [hi.2]; omega

/-- The encoder's third bias. -/
theorem wblk8 (j : Fin 2) :
    iblk m c 8 t (ix2 (0 : Fin 1) j) = m ((c : Thread nD τ).loc main_arg12) (ix1 j) := by
  have hi : win0_8.index t 0 = 0 ∧ win0_8.index t 1 = 0 :=
    (by decide +kernel : ∀ t : Fin grid0.N, win0_8.index t 0 = 0 ∧ win0_8.index t 1 = 0) t
  refine Eq.trans ?_ (V_v15_apply m c j)
  unfold iblk
  rw [View.read_apply]
  show (V m c main_v15 : S1x2.Idx → EReal) _ = _
  congr 1
  funext a
  apply Fin.ext
  match a with
  | ⟨0, _⟩ => show win0_8.index t 0 * 1 + 1 * (0 : Fin 1).val = (0 : Fin 1).val; rw [hi.1]; omega
  | ⟨1, _⟩ => show win0_8.index t 1 * 2 + 1 * j.val = j.val; rw [hi.2]; omega

/-- The decoder's first weight matrix. -/
theorem wblk9 (k : Fin 2) (j : Fin 512) :
    iblk m c 9 t (ix2 k j) = m ((c : Thread nD τ).loc main_arg13) (ix2 k j) := by
  have hi : win0_9.index t 0 = 0 ∧ win0_9.index t 1 = 0 :=
    (by decide +kernel : ∀ t : Fin grid0.N, win0_9.index t 0 = 0 ∧ win0_9.index t 1 = 0) t
  unfold iblk
  rw [View.read_apply]
  show (V m c main_arg13 : S2x512.Idx → EReal) _ = _
  rw [V_arg m c main_arg13 (by decide)]
  congr 1
  funext a
  apply Fin.ext
  match a with
  | ⟨0, _⟩ => show win0_9.index t 0 * 2 + 1 * k.val = k.val; rw [hi.1]; omega
  | ⟨1, _⟩ => show win0_9.index t 1 * 512 + 1 * j.val = j.val; rw [hi.2]; omega

/-- The decoder's first bias. -/
theorem wblk10 (j : Fin 512) :
    iblk m c 10 t (ix2 (0 : Fin 1) j) = m ((c : Thread nD τ).loc main_arg14) (ix1 j) := by
  have hi : win0_10.index t 0 = 0 ∧ win0_10.index t 1 = 0 :=
    (by decide +kernel : ∀ t : Fin grid0.N, win0_10.index t 0 = 0 ∧ win0_10.index t 1 = 0) t
  refine Eq.trans ?_ (V_v16_apply m c j)
  unfold iblk
  rw [View.read_apply]
  show (V m c main_v16 : S1x512.Idx → EReal) _ = _
  congr 1
  funext a
  apply Fin.ext
  match a with
  | ⟨0, _⟩ => show win0_10.index t 0 * 1 + 1 * (0 : Fin 1).val = (0 : Fin 1).val; rw [hi.1]; omega
  | ⟨1, _⟩ => show win0_10.index t 1 * 512 + 1 * j.val = j.val; rw [hi.2]; omega

/-- The decoder's second weight matrix. -/
theorem wblk11 (k j : Fin 512) :
    iblk m c 11 t (ix2 k j) = m ((c : Thread nD τ).loc main_arg15) (ix2 k j) := by
  have hi : win0_11.index t 0 = 0 ∧ win0_11.index t 1 = 0 :=
    (by decide +kernel : ∀ t : Fin grid0.N, win0_11.index t 0 = 0 ∧ win0_11.index t 1 = 0) t
  refine Eq.trans ?_ (V_v11_apply m c k j)
  unfold iblk
  rw [View.read_apply]
  show (V m c main_v11 : S512x512.Idx → EReal) _ = _
  congr 1
  funext a
  apply Fin.ext
  match a with
  | ⟨0, _⟩ => show win0_11.index t 0 * 512 + 1 * k.val = k.val; rw [hi.1]; omega
  | ⟨1, _⟩ => show win0_11.index t 1 * 512 + 1 * j.val = j.val; rw [hi.2]; omega

/-- The decoder's second bias. -/
theorem wblk12 (j : Fin 512) :
    iblk m c 12 t (ix2 (0 : Fin 1) j) = m ((c : Thread nD τ).loc main_arg16) (ix1 j) := by
  have hi : win0_12.index t 0 = 0 ∧ win0_12.index t 1 = 0 :=
    (by decide +kernel : ∀ t : Fin grid0.N, win0_12.index t 0 = 0 ∧ win0_12.index t 1 = 0) t
  refine Eq.trans ?_ (V_v17_apply m c j)
  unfold iblk
  rw [View.read_apply]
  show (V m c main_v17 : S1x512.Idx → EReal) _ = _
  congr 1
  funext a
  apply Fin.ext
  match a with
  | ⟨0, _⟩ => show win0_12.index t 0 * 1 + 1 * (0 : Fin 1).val = (0 : Fin 1).val; rw [hi.1]; omega
  | ⟨1, _⟩ => show win0_12.index t 1 * 512 + 1 * j.val = j.val; rw [hi.2]; omega

/-- The decoder's third weight matrix. -/
theorem wblk13 (k : Fin 512) (j : Fin 2) :
    iblk m c 13 t (ix2 k j) = m ((c : Thread nD τ).loc main_arg17) (ix2 k j) := by
  have hi : win0_13.index t 0 = 0 ∧ win0_13.index t 1 = 0 :=
    (by decide +kernel : ∀ t : Fin grid0.N, win0_13.index t 0 = 0 ∧ win0_13.index t 1 = 0) t
  refine Eq.trans ?_ (V_v12_apply m c k j)
  unfold iblk
  rw [View.read_apply]
  show (V m c main_v12 : S512x2.Idx → EReal) _ = _
  congr 1
  funext a
  apply Fin.ext
  match a with
  | ⟨0, _⟩ => show win0_13.index t 0 * 512 + 1 * k.val = k.val; rw [hi.1]; omega
  | ⟨1, _⟩ => show win0_13.index t 1 * 2 + 1 * j.val = j.val; rw [hi.2]; omega

/-- The decoder's third bias. -/
theorem wblk14 (j : Fin 2) :
    iblk m c 14 t (ix2 (0 : Fin 1) j) = m ((c : Thread nD τ).loc main_arg18) (ix1 j) := by
  have hi : win0_14.index t 0 = 0 ∧ win0_14.index t 1 = 0 :=
    (by decide +kernel : ∀ t : Fin grid0.N, win0_14.index t 0 = 0 ∧ win0_14.index t 1 = 0) t
  refine Eq.trans ?_ (V_v18_apply m c j)
  unfold iblk
  rw [View.read_apply]
  show (V m c main_v18 : S1x2.Idx → EReal) _ = _
  congr 1
  funext a
  apply Fin.ext
  match a with
  | ⟨0, _⟩ => show win0_14.index t 0 * 1 + 1 * (0 : Fin 1).val = (0 : Fin 1).val; rw [hi.1]; omega
  | ⟨1, _⟩ => show win0_14.index t 1 * 2 + 1 * j.val = j.val; rw [hi.2]; omega

/-! ## The weight blocks as perceptrons -/

/-- The encoder's six blocks are the perceptron of the encoder's weight arguments. -/
theorem enc_eq :
    Cert.KernelIdeal.Rows.netOf (iblk m c 3 t) (iblk m c 4 t) (iblk m c 5 t) (iblk m c 6 t) (iblk m c 7 t) (iblk m c 8 t)
      = Cert.RefNet.netOf (m ((c : Thread nD τ).loc main_arg7)) (m ((c : Thread nD τ).loc main_arg8))
          (m ((c : Thread nD τ).loc main_arg9)) (m ((c : Thread nD τ).loc main_arg10))
          (m ((c : Thread nD τ).loc main_arg11)) (m ((c : Thread nD τ).loc main_arg12)) :=
  net_ext (funext fun k => funext fun j => wblk3 m c t k j) (funext fun j => wblk4 m c t j)
    (funext fun k => funext fun j => wblk5 m c t k j) (funext fun j => wblk6 m c t j)
    (funext fun k => funext fun j => wblk7 m c t k j) (funext fun j => wblk8 m c t j)

/-- The decoder's six blocks are the perceptron of the decoder's weight arguments. -/
theorem dec_eq :
    Cert.KernelIdeal.Rows.netOf (iblk m c 9 t) (iblk m c 10 t) (iblk m c 11 t) (iblk m c 12 t) (iblk m c 13 t) (iblk m c 14 t)
      = Cert.RefNet.netOf (m ((c : Thread nD τ).loc main_arg13)) (m ((c : Thread nD τ).loc main_arg14))
          (m ((c : Thread nD τ).loc main_arg15)) (m ((c : Thread nD τ).loc main_arg16))
          (m ((c : Thread nD τ).loc main_arg17)) (m ((c : Thread nD τ).loc main_arg18)) :=
  net_ext (funext fun k => funext fun j => wblk9 m c t k j) (funext fun j => wblk10 m c t j)
    (funext fun k => funext fun j => wblk11 m c t k j) (funext fun j => wblk12 m c t j)
    (funext fun k => funext fun j => wblk13 m c t k j) (funext fun j => wblk14 m c t j)

end Cert.KernelIdeal.Blocks

end
-- ==== Proof.IdealLanes.lean ====
/-
  The accumulator's two lanes as sums over all 65536 rows, and the phase column as an array.

  Tile `t` holds rows `1024·t … 1024·t + 1023`.  Each accumulate step adds to lane 0 the tile's sum of reconstruction
  terms and to lane 1 its sum of action terms, so after the last tile lane 0 is `(((0 + s₀) + s₁) + …) + s₆₃` of the
  tile sums; over the extended reals, where addition is commutative and associative and `0 + x = x`, that is the sum
  over the tiles, and the sum over tiles of the sums over a tile's rows is the sum over all rows (each row number is
  `1024·t + r` for exactly one pair).  The phase column's block at tile `t` is the rows' phase differences, and the
  tiles' blocks cover the column.
-/
import proofs.«114315_j65214783422667_2_alg».proof.Proof.IdealAccum
import proofs.«114315_j65214783422667_2_alg».proof.Proof.IdealBlocks
import proofs.«114315_j65214783422667_2_alg».proof.Proof.RefNet
import Mathlib.Algebra.BigOperators.Fin
import Mathlib.Logic.Equiv.Fin.Basic

set_option maxRecDepth 16384

noncomputable section

namespace Cert.KernelIdeal.HandValue

open Cert.KernelIdeal Cert.KernelIdeal.Gen Cert.KernelIdeal.Hand Cert.KernelIdeal.Rows Cert.KernelIdeal.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## A fold over the tiles is a sum -/

/-- `(((0 + f 0) + f 1) + …) + f n`. -/
def foldTo (f : Fin cfg0.N → EReal) : (n : ℕ) → n < cfg0.N → EReal
  | 0, h => 0 + f ⟨0, h⟩
  | n + 1, h => foldTo f n (Nat.lt_of_succ_lt h) + f ⟨n + 1, h⟩

theorem foldTo_eq_sum (f : Fin cfg0.N → EReal) : ∀ (n : ℕ) (h : n < cfg0.N),
    foldTo f n h = ∑ k : Fin (n + 1), f ⟨k.val, lt_of_lt_of_le k.isLt (Nat.succ_le_of_lt h)⟩
  | 0, h => by rw [Fin.sum_univ_castSucc, Fin.sum_univ_zero]; rfl
  | n + 1, h => by rw [foldTo, Fin.sum_univ_castSucc, foldTo_eq_sum f n]; rfl

/-- Row `1024·t + r` runs over all rows once as `(t, r)` runs over tiles and rows of a tile. -/
theorem sum_tiles (g : Fin 65536 → EReal) : ∑ t : Fin cfg0.N, ∑ r : Fin 1024, g (rowOf t r) = ∑ i : Fin 65536, g i := by
  have e : ∑ i : Fin (64 * 1024), g i = ∑ x : Fin 64 × Fin 1024, g (finProdFinEquiv x) :=
    (Equiv.sum_comp finProdFinEquiv (fun i : Fin (64 * 1024) => g i)).symm
  rw [show (∑ i : Fin 65536, g i) = ∑ i : Fin (64 * 1024), g i from rfl, e, Fintype.sum_prod_type]
  show ∑ t : Fin 64, ∑ r : Fin 1024, g (rowOf t r) = _
  refine Finset.sum_congr rfl fun t _ => Finset.sum_congr rfl fun r _ => congrArg g (Fin.ext ?_)
  show 1024 * t.val + r.val = (finProdFinEquiv (t, r) : ℕ)
  rw [finProdFinEquiv_apply_val]; dsimp only; omega

/-! ## The rows' terms, from the argument arrays -/

/-- The encoder and the decoder, from the weight arguments. -/
abbrev ENC (c : Dev nD) : Cert.Spec.Net := Cert.RefNet.netOf (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
abbrev DEC (c : Dev nD) : Cert.Spec.Net := Cert.RefNet.netOf (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

def reconRow (c : Dev nD) (i : Fin 65536) : EReal :=
  Cert.Spec.reconTerm (ENC m c) (DEC m c) ((m ((c : Thread nD τ).loc main_arg0)) (ix1 i)) ((m ((c : Thread nD τ).loc main_arg1)) (ix1 i))
def actionRow (c : Dev nD) (i : Fin 65536) : EReal :=
  Cert.Spec.actionTerm (ENC m c) ((m ((c : Thread nD τ).loc main_arg0)) (ix1 i)) ((m ((c : Thread nD τ).loc main_arg1)) (ix1 i)) ((m ((c : Thread nD τ).loc main_arg2)) (ix1 i)) ((m ((c : Thread nD τ).loc main_arg3)) (ix1 i)) (force m c i * step m c)
def phaseRow (c : Dev nD) (i : Fin 65536) : EReal :=
  Cert.Spec.phaseDiff (ENC m c) ((m ((c : Thread nD τ).loc main_arg0)) (ix1 i)) ((m ((c : Thread nD τ).loc main_arg1)) (ix1 i)) ((m ((c : Thread nD τ).loc main_arg2)) (ix1 i)) ((m ((c : Thread nD τ).loc main_arg3)) (ix1 i))

/-! ## The accumulate step on a tile -/

theorem step_recon (c : Dev nD) (t : Fin cfg0.N) (acc : Vec Ideal S1x128 .f32) :
    accStore (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) acc (ix2 (0 : Fin 1) (0 : Fin 128))
      = acc (ix2 (0 : Fin 1) (0 : Fin 128)) + ∑ r : Fin 1024, reconRow m c (rowOf t r) := by
  rw [accStore_recon, enc_eq m c t, dec_eq m c t]
  refine congrArg _ (Finset.sum_congr rfl fun r _ => ?_)
  rw [(blk0 m c t r).1, (blk0 m c t r).2]
  rfl

theorem step_action (c : Dev nD) (t : Fin cfg0.N) (acc : Vec Ideal S1x128 .f32) :
    accStore (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) acc (ix2 (0 : Fin 1) (1 : Fin 128))
      = acc (ix2 (0 : Fin 1) (1 : Fin 128)) + ∑ r : Fin 1024, actionRow m c (rowOf t r) := by
  rw [accStore_action, enc_eq m c t]
  refine congrArg _ (Finset.sum_congr rfl fun r _ => ?_)
  rw [(blk0 m c t r).1, (blk0 m c t r).2, (blk1 m c t r).1, (blk1 m c t r).2, blk2 m c t r]
  rfl

/-- A lane of the accumulator after tile `n` is the fold of the tiles' contributions to it. -/
theorem acc_lane (c : Dev nD) (lane : Fin 128) (f : Fin cfg0.N → EReal)
    (hstep : ∀ (t : Fin cfg0.N) (acc : Vec Ideal S1x128 .f32),
      accStore (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) acc (ix2 (0 : Fin 1) lane) = acc (ix2 (0 : Fin 1) lane) + f t) :
    ∀ (n : ℕ) (h : n < cfg0.N), accAt m c n h (ix2 (0 : Fin 1) lane) = foldTo f n h
  | 0, h => by
    show accStore (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩) (iblk m c 11 ⟨0, h⟩) (iblk m c 12 ⟨0, h⟩) (iblk m c 13 ⟨0, h⟩) (iblk m c 14 ⟨0, h⟩) (k0_pay3 (F := Ideal)) (ix2 (0 : Fin 1) lane) = _
    rw [hstep, pay3_apply]; rfl
  | n + 1, h => by
    show accStore (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (iblk m c 12 ⟨n + 1, h⟩) (iblk m c 13 ⟨n + 1, h⟩) (iblk m c 14 ⟨n + 1, h⟩) (accAt m c n _) (ix2 (0 : Fin 1) lane) = _
    rw [hstep, acc_lane c lane f hstep n]; rfl

/-- Lane 0 of the accumulator array: the sum of the reconstruction terms of all rows. -/
theorem accFinal_recon (c : Dev nD) : accFinal m c (ix2 (0 : Fin 1) (0 : Fin 128)) = ∑ i : Fin 65536, reconRow m c i := by
  show accAt m c 63 _ (ix2 (0 : Fin 1) (0 : Fin 128)) = _
  rw [acc_lane m c 0 (fun t => ∑ r : Fin 1024, reconRow m c (rowOf t r)) (step_recon m c), foldTo_eq_sum, ← sum_tiles]
  rfl

/-- Lane 1: the sum of the action terms of all rows. -/
theorem accFinal_action (c : Dev nD) : accFinal m c (ix2 (0 : Fin 1) (1 : Fin 128)) = ∑ i : Fin 65536, actionRow m c i := by
  show accAt m c 63 _ (ix2 (0 : Fin 1) (1 : Fin 128)) = _
  rw [acc_lane m c 1 (fun t => ∑ r : Fin 1024, actionRow m c (rowOf t r)) (step_action m c), foldTo_eq_sum, ← sum_tiles]
  rfl

/-! ## The phase column -/

/-- The phase column after the run: row `i` holds the row's phase difference. -/
def dqFinal (c : Dev nD) : Buf (Elt Ideal) ((c : Thread nD τ).loc main_v19_1) :=
  fun i => phaseRow m c ⟨(i 0).val, (i 0).isLt⟩

theorem idx16 : ∀ t : Fin cfg0.N, win0_16.index t (0 : Fin 2) = t.val ∧ win0_16.index t (1 : Fin 2) = 0 :=
  (by decide +kernel : ∀ t : Fin grid0.N, win0_16.index t (0 : Fin 2) = t.val ∧ win0_16.index t (1 : Fin 2) = 0)

/-- What tile `t` writes back is its block of the phase column. -/
theorem flushed16_eq (c : Dev nD) (t : Fin cfg0.N) :
    (dats m 0 c).flushed 16 t = ((cfg0.win 16).blk t).view.read (Elt Ideal) (dqFinal m c) := by
  show (cfg0.win 16).cut (grid0.coords t) ((dats m 0 c).after 16 t) = _
  rw [after0_16, outsAt_16]
  funext j
  rw [View.read_apply]
  have ej : (j : S1024x1.Idx) = ix2 (j 0) (0 : Fin 1) := by
    funext a
    match a with
    | ⟨0, _⟩ => rfl
    | ⟨1, _⟩ =>
      apply Fin.ext
      have h1 : (j 1).val < 1 := (j 1).isLt
      show (j 1).val = 0
      omega
  refine (congrArg (dqStore (iblk m c 0 t) (iblk m c 1 t) (iblk m c 3 t) (iblk m c 4 t) (iblk m c 5 t) (iblk m c 6 t) (iblk m c 7 t) (iblk m c 8 t)) ej).trans ((dqStore_apply _ _ _ _ _ _ _ _ (j 0)).trans ?_)
  rw [enc_eq m c t, (blk0 m c t (j 0)).1, (blk0 m c t (j 0)).2, (blk1 m c t (j 0)).1, (blk1 m c t (j 0)).2]
  show phaseRow m c (rowOf t (j 0)) = phaseRow m c ⟨((((cfg0.win 16).blk t).view.emb j) 0).val, _⟩
  refine congrArg (phaseRow m c) (Fin.ext ?_)
  show 1024 * t.val + (j 0).val = win0_16.index t (0 : Fin 2) * 1024 + 1 * (j 0).val
  rw [(idx16 t).1]; omega

theorem mem_blk16 (t : Fin cfg0.N) (i : S65536x1.Idx) :
    i ∈ ((cfg0.win 16).blk t).view.set ↔ ∀ a : Fin 2, win0_16.index t a * S1024x1.size a ≤ (i a).val ∧ (i a).val < win0_16.index t a * S1024x1.size a + S1024x1.size a := by
  show i ∈ ((View.whole main_v19_1).slice (win0_16.rect t)).set ↔ _
  rw [View.set_slice_whole, Rect.mem_set_unit]
  exact Iff.rfl

/-- So the phase column ends holding every row's phase difference: row `i` is in tile `i / 1024`'s block. -/
theorem final16 (c : Dev nD) : (dats m 0 c).arrAt 16 cfg0.N = dqFinal m c :=
  (dats m 0 c).arrAt_eq_of_cover 16 (dqFinal m c) (fun t _ => flushed16_eq m c t) fun i => by
    have hN : cfg0.N = 64 := N_0
    have hi0 : (i 0).val < 65536 := (i 0).isLt
    have hi1 : (i 1).val < 1 := (i 1).isLt
    refine ⟨⟨(i 0).val / 1024, by omega⟩, flush0_16 _, ?_⟩
    rw [mem_blk16]
    obtain ⟨e0, e1⟩ := idx16 ⟨(i 0).val / 1024, by omega⟩
    intro a
    match a with
    | ⟨0, _⟩ =>
      show win0_16.index _ (0 : Fin 2) * 1024 ≤ (i 0).val ∧ (i 0).val < win0_16.index _ (0 : Fin 2) * 1024 + 1024
      rw [e0]; dsimp only; omega
    | ⟨1, _⟩ =>
      show win0_16.index _ (1 : Fin 2) * 1 ≤ (i 1).val ∧ (i 1).val < win0_16.index _ (1 : Fin 2) * 1 + 1
      rw [e1]; omega

end Cert.KernelIdeal.HandValue

end
-- ==== Proof.RefTail.lean ====
/-
  The reference's last two results: the symplectic term and the weighted total.

  The symplectic term only looks at the first 32 rows of the batch: it moves each of those states by a small step up
  and down in either coordinate (128 probe states), runs the encoder on them, takes central differences of the two
  outputs, forms the bracket of the four difference quotients, and averages the squared distance of its absolute
  value from one. Here that computation is kept as the host operations that carry it out, as one function of the
  eight arrays it reads; nothing about it is opened. The total is the sum of the four results, each times its weight.
-/
import proofs.«114315_j65214783422667_2_alg».proof.Proof.Gen.ReferenceIdeal.Run
import Idealize.ShloMosaic.PureOps.Ideal

noncomputable section

namespace Cert.ReferenceIdeal.RefValue

open Cert.ReferenceIdeal Cert.ReferenceIdeal.Gen Idealize.ShloMosaic Idealize.SL.Sem Idealize.ShloMosaic.StableHlo

/-! ## The symplectic term, as host operations -/

/-- A rank-0 word repeated along 32 entries. -/
def splat32 (w : BitVec 32) : FVec Ideal S32 .f32 :=
  broadcastInDim S32 ![] bcast_S_S32 (constant (F := Ideal) S_ .f32 w)

/-- The first 32 entries of a batch vector. -/
def first32 (a : FVec Ideal S65536 .f32) : FVec Ideal S32 .f32 :=
  extractStridedSlice S32 ![0] a slices_S65536_S32_0

/-- First coordinates of the 128 probe states: moved up, moved down, and twice unmoved. -/
def probeP (a0 : FVec Ideal S65536 .f32) : FVec Ideal S128 .f32 :=
  concatenate S128 0 [⟨S32, addf (first32 a0) (splat32 0x38D1B717#32)⟩, ⟨S32, subf (first32 a0) (splat32 0x38D1B717#32)⟩,
    ⟨S32, first32 a0⟩, ⟨S32, first32 a0⟩] concatenates_S32_S32_S32_S32_S128_d0

/-- Second coordinates of the 128 probe states: twice unmoved, moved up, moved down. -/
def probeQ (a1 : FVec Ideal S65536 .f32) : FVec Ideal S128 .f32 :=
  concatenate S128 0 [⟨S32, first32 a1⟩, ⟨S32, first32 a1⟩,
    ⟨S32, addf (first32 a1) (splat32 0x38D1B717#32)⟩, ⟨S32, subf (first32 a1) (splat32 0x38D1B717#32)⟩] concatenates_S32_S32_S32_S32_S128_d0

/-- The probe states as a `[128, 2]` array. -/
def probeStates (a0 a1 : FVec Ideal S65536 .f32) : FVec Ideal S128x2 .f32 :=
  concatenate S128x2 1 [⟨S128x1, broadcastInDim S128x1 ![0] bcast_S128_S128x1_0 (probeP a0)⟩,
    ⟨S128x1, broadcastInDim S128x1 ![0] bcast_S128_S128x1_0 (probeQ a1)⟩] concatenates_S128x1_S128x1_S128x2_d1

/-- The three dense layers on the 128 probe states, as the host writes them. -/
def mlpHost128 (x : FVec Ideal S128x2 .f32) (w1 : FVec Ideal S2x512 .f32) (b1 : FVec Ideal S512 .f32)
    (w2 : FVec Ideal S512x512 .f32) (b2 : FVec Ideal S512 .f32) (w3 : FVec Ideal S512x2 .f32) (b3 : FVec Ideal S2 .f32) :
    FVec Ideal S128x2 .f32 :=
  addf (Host.dotGeneral dot_S128x512_S512x2_S128x2_1_0_0_1_n_n none
      (Host.tanh (addf (Host.dotGeneral dot_S128x512_S512x512_S128x512_1_0_0_1_n_n none
        (Host.tanh (addf (Host.dotGeneral dot_S128x2_S2x512_S128x512_1_0_0_1_n_n none x w1)
          (broadcastInDim S128x512 ![0, 1] bcast_S1x512_S128x512_0_1 (broadcastInDim S1x512 ![1] bcast_S512_S1x512_1 b1)))) w2)
        (broadcastInDim S128x512 ![0, 1] bcast_S1x512_S128x512_0_1 (broadcastInDim S1x512 ![1] bcast_S512_S1x512_1 b2)))) w3)
    (broadcastInDim S128x2 ![0, 1] bcast_S1x2_S128x2_0_1 (broadcastInDim S1x2 ![1] bcast_S2_S1x2_1 b3))

/-- Output column 0 of the probe states, as four rows of 32. -/
def probeOut0 (y : FVec Ideal S128x2 .f32) : FVec Ideal S4x32 .f32 :=
  shapeCast _ (shapeCast _ (extractStridedSlice S128x1 ![0, 0] y slices_S128x2_S128x1_0_0) shapeCasts_S128x1_S128) shapeCasts_S128_S4x32

/-- Output column 1 of the probe states, as four rows of 32. -/
def probeOut1 (y : FVec Ideal S128x2 .f32) : FVec Ideal S4x32 .f32 :=
  shapeCast _ (shapeCast _ (extractStridedSlice S128x1 ![0, 1] y slices_S128x2_S128x1_0_1) shapeCasts_S128x1_S128) shapeCasts_S128_S4x32

def row0 (Y : FVec Ideal S4x32 .f32) : FVec Ideal S32 .f32 :=
  shapeCast _ (extractStridedSlice S1x32 ![0, 0] Y slices_S4x32_S1x32_0_0) shapeCasts_S1x32_S32
def row1 (Y : FVec Ideal S4x32 .f32) : FVec Ideal S32 .f32 :=
  shapeCast _ (extractStridedSlice S1x32 ![1, 0] Y slices_S4x32_S1x32_1_0) shapeCasts_S1x32_S32
def row2 (Y : FVec Ideal S4x32 .f32) : FVec Ideal S32 .f32 :=
  shapeCast _ (extractStridedSlice S1x32 ![2, 0] Y slices_S4x32_S1x32_2_0) shapeCasts_S1x32_S32
def row3 (Y : FVec Ideal S4x32 .f32) : FVec Ideal S32 .f32 :=
  shapeCast _ (extractStridedSlice S1x32 ![3, 0] Y slices_S4x32_S1x32_3_0) shapeCasts_S1x32_S32

/-- The distance from one of the absolute value of the bracket of the four difference quotients, per probed row. -/
def bracketDev (P Q : FVec Ideal S4x32 .f32) : FVec Ideal S32 .f32 :=
  subf (Host.absf (subf
      (mulf (mulf (subf (row2 P) (row3 P)) (splat32 0x459C4000#32)) (mulf (subf (row0 Q) (row1 Q)) (splat32 0x459C4000#32)))
      (mulf (mulf (subf (row0 P) (row1 P)) (splat32 0x459C4000#32)) (mulf (subf (row2 Q) (row3 Q)) (splat32 0x459C4000#32)))))
    (splat32 0x3F800000#32)

/-- The mean over the 32 probed rows of the squared distance. -/
def meanSq32 (d : FVec Ideal S32 .f32) : FVec Ideal S_ .f32 :=
  Host.divf (Host.reduceAdd (mulf d d) (constant (F := Ideal) S_ .f32 0x00000000#32) reducesTo_S32_S_d0 h_S_)
    (constant (F := Ideal) S_ .f32 0x42000000#32)

/-- The symplectic term from the encoder's outputs on the probe states. -/
def sympOfOut (y : FVec Ideal S128x2 .f32) : FVec Ideal S_ .f32 :=
  meanSq32 (bracketDev (probeOut0 y) (probeOut1 y))

/-- The symplectic term, as a function of the two state vectors and the encoder's six weight arrays. -/
def sympOf (a0 a1 : FVec Ideal S65536 .f32) (w1 : FVec Ideal S2x512 .f32) (b1 : FVec Ideal S512 .f32)
    (w2 : FVec Ideal S512x512 .f32) (b2 : FVec Ideal S512 .f32) (w3 : FVec Ideal S512x2 .f32) (b3 : FVec Ideal S2 .f32) :
    FVec Ideal S_ .f32 :=
  sympOfOut (mlpHost128 (probeStates a0 a1) w1 b1 w2 b2 w3 b3)

/-! ## The weighted total -/

/-- The four results, each times its weight (the words of 1, 10, 5 and 0.1), added up from the left. -/
def totalOf (r a e s : FVec Ideal S_ .f32) : FVec Ideal S_ .f32 :=
  addf (addf (addf (mulf (constant (F := Ideal) S_ .f32 0x3F800000#32) r) (mulf (constant (F := Ideal) S_ .f32 0x41200000#32) a))
    (mulf (constant (F := Ideal) S_ .f32 0x40A00000#32) e)) (mulf (constant (F := Ideal) S_ .f32 0x3DCCCCCD#32) s)

/-! ## The run's terms are these -/

set_option maxRecDepth 8192 in
/-- The term the run leaves for the symplectic result is `sympOf` of the arguments. -/
theorem symp_eq (V0 : Valuation τ sig (Elt Ideal)) :
    Host.divf (Host.reduceAdd (mulf (Value.res_main_v154 V0) (Value.res_main_v154 V0)) (constant S_ .f32 0x00000000#32) reducesTo_S32_S_d0 h_S_)
        (constant S_ .f32 0x42000000#32)
      = sympOf (V0 (Proc.devRef .tc main_arg0)) (V0 (Proc.devRef .tc main_arg1)) (V0 (Proc.devRef .tc main_arg7))
          (V0 (Proc.devRef .tc main_arg8)) (V0 (Proc.devRef .tc main_arg9)) (V0 (Proc.devRef .tc main_arg10))
          (V0 (Proc.devRef .tc main_arg11)) (V0 (Proc.devRef .tc main_arg12)) := rfl

end Cert.ReferenceIdeal.RefValue

end
-- ==== Proof.RefMeans.lean ====
/-
  The reference's three batch means, as sums over the rows of the batch.

  The reference evaluates the encoder on the whole batch at the first and at the second state, the decoder at the
  encoder's output at the first state, forms one number per row (the reconstruction term, the action term, one minus
  the cosine of the phase difference less the drift), adds the 65536 numbers up from zero and divides by 65536. Row by
  row the whole-batch perceptron is the perceptron of the specification, so each mean is the sum of the specification's
  term over the rows, divided by the word of 65536.
-/
import proofs.«114315_j65214783422667_2_alg».proof.Proof.Gen.ReferenceIdeal.Run
import proofs.«114315_j65214783422667_2_alg».proof.Proof.RefNet
import Idealize.ShloMosaic.Lib.IdealHost

noncomputable section

namespace Cert.ReferenceIdeal.RefValue

open Cert.ReferenceIdeal Cert.ReferenceIdeal.Gen Idealize.ShloMosaic Idealize.ShloMosaic.ValueIdx Idealize.SL.Sem
  Idealize.ShloMosaic.StableHlo
open scoped BigOperators

/-! ## The operations of one perceptron evaluation on the whole batch -/

/-- Two vectors of the batch stood up as columns and joined into the `[65536, 2]` array of states. -/
def pairCols (a b : FVec Ideal S65536 .f32) : FVec Ideal S65536x2 .f32 :=
  concatenate S65536x2 1 [⟨S65536x1, broadcastInDim S65536x1 ![0] bcast_S65536_S65536x1_0 a⟩,
    ⟨S65536x1, broadcastInDim S65536x1 ![0] bcast_S65536_S65536x1_0 b⟩] concatenates_S65536x1_S65536x1_S65536x2_d1

/-- The three dense layers on the whole batch, as the host writes them. -/
def mlpHost (x : FVec Ideal S65536x2 .f32) (w1 : FVec Ideal S2x512 .f32) (b1 : FVec Ideal S512 .f32)
    (w2 : FVec Ideal S512x512 .f32) (b2 : FVec Ideal S512 .f32) (w3 : FVec Ideal S512x2 .f32) (b3 : FVec Ideal S2 .f32) :
    FVec Ideal S65536x2 .f32 :=
  addf (Host.dotGeneral dot_S65536x512_S512x2_S65536x2_1_0_0_1_n_n none
      (Host.tanh (addf (Host.dotGeneral dot_S65536x512_S512x512_S65536x512_1_0_0_1_n_n none
        (Host.tanh (addf (Host.dotGeneral dot_S65536x2_S2x512_S65536x512_1_0_0_1_n_n none x w1)
          (broadcastInDim S65536x512 ![0, 1] bcast_S1x512_S65536x512_0_1 (broadcastInDim S1x512 ![1] bcast_S512_S1x512_1 b1)))) w2)
        (broadcastInDim S65536x512 ![0, 1] bcast_S1x512_S65536x512_0_1 (broadcastInDim S1x512 ![1] bcast_S512_S1x512_1 b2)))) w3)
    (broadcastInDim S65536x2 ![0, 1] bcast_S1x2_S65536x2_0_1 (broadcastInDim S1x2 ![1] bcast_S2_S1x2_1 b3))

/-- Output column 0 of the batch laid flat. -/
def col0 (y : FVec Ideal S65536x2 .f32) : FVec Ideal S65536 .f32 :=
  shapeCast _ (extractStridedSlice S65536x1 ![0, 0] y slices_S65536x2_S65536x1_0_0) shapeCasts_S65536x1_S65536

/-- Output column 1 of the batch laid flat. -/
def col1 (y : FVec Ideal S65536x2 .f32) : FVec Ideal S65536 .f32 :=
  shapeCast _ (extractStridedSlice S65536x1 ![0, 1] y slices_S65536x2_S65536x1_0_1) shapeCasts_S65536x1_S65536

theorem pairCols_apply (a b : FVec Ideal S65536 .f32) (i : Fin 65536) :
    pairCols a b (ix2 i 0) = a (ix1 i) ∧ pairCols a b (ix2 i 1) = b (ix1 i) :=
  Cert.RefNet.pair_cols_apply (by decide) bcast_S65536_S65536x1_0 concatenates_S65536x1_S65536x1_S65536x2_d1 a b i

theorem col0_apply (y : FVec Ideal S65536x2 .f32) (i : Fin 65536) : col0 y (ix1 i) = y (ix2 i 0) :=
  Cert.RefNet.flat_col0_apply y slices_S65536x2_S65536x1_0_0 shapeCasts_S65536x1_S65536 i

theorem col1_apply (y : FVec Ideal S65536x2 .f32) (i : Fin 65536) : col1 y (ix1 i) = y (ix2 i 1) :=
  Cert.RefNet.flat_col1_apply y slices_S65536x2_S65536x1_0_1 shapeCasts_S65536x1_S65536 i

/-- Row `i` of the whole-batch perceptron is the specification's perceptron at the state in row `i`. -/
theorem mlpHost_apply (x : FVec Ideal S65536x2 .f32) (w1 : FVec Ideal S2x512 .f32) (b1 : FVec Ideal S512 .f32)
    (w2 : FVec Ideal S512x512 .f32) (b2 : FVec Ideal S512 .f32) (w3 : FVec Ideal S512x2 .f32) (b3 : FVec Ideal S2 .f32)
    (i : Fin 65536) (j : Fin 2) :
    mlpHost x w1 b1 w2 b2 w3 b3 (ix2 i j) = (Cert.RefNet.netOf w1 b1 w2 b2 w3 b3).out (x (ix2 i 0)) (x (ix2 i 1)) j :=
  Cert.RefNet.host_mlp_apply _ ⟨rfl, rfl, rfl, rfl, rfl, rfl⟩ _ ⟨rfl, rfl, rfl, rfl, rfl, rfl⟩ _ ⟨rfl, rfl, rfl, rfl, rfl, rfl⟩
    bcast_S512_S1x512_1 bcast_S1x512_S65536x512_0_1 bcast_S2_S1x2_1 bcast_S1x2_S65536x2_0_1 x w1 b1 w2 b2 w3 b3 i j

/-- The perceptron on two flat vectors of states, at row `i`. -/
theorem mlpHost_pair_apply (a b : FVec Ideal S65536 .f32) (w1 : FVec Ideal S2x512 .f32) (b1 : FVec Ideal S512 .f32)
    (w2 : FVec Ideal S512x512 .f32) (b2 : FVec Ideal S512 .f32) (w3 : FVec Ideal S512x2 .f32) (b3 : FVec Ideal S2 .f32)
    (i : Fin 65536) (j : Fin 2) :
    mlpHost (pairCols a b) w1 b1 w2 b2 w3 b3 (ix2 i j) = (Cert.RefNet.netOf w1 b1 w2 b2 w3 b3).out (a (ix1 i)) (b (ix1 i)) j := by
  rw [mlpHost_apply, (pairCols_apply a b i).1, (pairCols_apply a b i).2]

/-! ## A mean over the batch -/

/-- The indices of a vector are its entries' positions. -/
def idxEquiv1 {n : ℕ} : (⟨1, ![n]⟩ : Shape).Idx ≃ Fin n where
  toFun i := i 0
  invFun k := ix1 k
  left_inv i := funext fun a => by
    match a with
    | ⟨0, _⟩ => rfl
  right_inv _ := rfl

/-- A sum over the indices of a vector is the sum over the positions. -/
theorem sum_idx1 {n : ℕ} (f : (⟨1, ![n]⟩ : Shape).Idx → EReal) : ∑ i, f i = ∑ k : Fin n, f (ix1 k) := by
  rw [← Equiv.sum_comp (idxEquiv1 (n := n)).symm f]
  rfl

/-- The host's sum of a batch vector from the zero word, divided by the word of 65536: the sum of the entries,
    divided by that word. -/
theorem mean_eq (X : FVec Ideal S65536 .f32) (g : Fin 65536 → EReal) (hX : ∀ i, X (ix1 i) = g i) :
    Host.divf (Host.reduceAdd X (constant (F := Ideal) S_ .f32 0x00000000#32) reducesTo_S65536_S_d0 h_S_)
        (constant (F := Ideal) S_ .f32 0x47800000#32)
      = fun _ => Ideal.div (∑ i : Fin 65536, g i) (Ideal.ofBits .f32 0x47800000#32) := by
  funext j
  show Ideal.div (Ideal.hostReduceAdd reducesTo_S65536_S_d0 X (Ideal.ofBits .f32 0x00000000#32) j) (Ideal.ofBits .f32 0x47800000#32) = _
  rw [Ideal.hostReduceAdd_total reducesTo_S65536_S_d0 (fun b => b.elim0), Ideal.ofBits_zero_f32, zero_add, sum_idx1]
  exact congrArg (fun s => Ideal.div s (Ideal.ofBits .f32 0x47800000#32)) (Finset.sum_congr rfl fun k _ => hX k)

/-! ## The three means as functions of the arrays -/

/-- The mean of the reconstruction term over the batch. -/
def reconOf (enc dec : Cert.Spec.Net) (a0 a1 : FVec Ideal S65536 .f32) : FVec Ideal S_ .f32 :=
  fun _ => Ideal.div (∑ i : Fin 65536, Cert.Spec.reconTerm enc dec (a0 (ix1 i)) (a1 (ix1 i))) (Ideal.ofBits .f32 0x47800000#32)

/-- The mean of the action term over the batch; the forcing term of a row is the external force times the step. -/
def actionOf (enc : Cert.Spec.Net) (a0 a1 a2 a3 a4 : FVec Ideal S65536 .f32) (a6 : FVec Ideal S_ .f32) : FVec Ideal S_ .f32 :=
  fun _ => Ideal.div (∑ i : Fin 65536, Cert.Spec.actionTerm enc (a0 (ix1 i)) (a1 (ix1 i)) (a2 (ix1 i)) (a3 (ix1 i)) (a4 (ix1 i) * a6 ix0))
    (Ideal.ofBits .f32 0x47800000#32)

/-- The mean over the batch of one minus the cosine of the phase difference less the drift (frequency times step). -/
def evolutionOf (enc : Cert.Spec.Net) (a0 a1 a2 a3 : FVec Ideal S65536 .f32) (a5 a6 : FVec Ideal S_ .f32) : FVec Ideal S_ .f32 :=
  fun _ => Ideal.div (∑ i : Fin 65536, (Ideal.ofBits .f32 0x3F800000#32
      - Ideal.cos (Cert.Spec.phaseDiff enc (a0 (ix1 i)) (a1 (ix1 i)) (a2 (ix1 i)) (a3 (ix1 i)) - a5 ix0 * a6 ix0)))
    (Ideal.ofBits .f32 0x47800000#32)

/-! ## The three row terms, over any arrays -/

/-- The reconstruction term of row `i`, from the two state vectors and the decoder's whole-batch output. -/
theorem recon_row (a0 a1 : FVec Ideal S65536 .f32) (y : FVec Ideal S65536x2 .f32) (i : Fin 65536) :
    addf (mulf (subf a0 (col0 y)) (subf a0 (col0 y))) (mulf (subf a1 (col1 y)) (subf a1 (col1 y))) (ix1 i)
      = (a0 (ix1 i) - y (ix2 i 0)) * (a0 (ix1 i) - y (ix2 i 0)) + (a1 (ix1 i) - y (ix2 i 1)) * (a1 (ix1 i) - y (ix2 i 1)) := by
  show (a0 (ix1 i) - col0 y (ix1 i)) * (a0 (ix1 i) - col0 y (ix1 i))
      + (a1 (ix1 i) - col1 y (ix1 i)) * (a1 (ix1 i) - col1 y (ix1 i)) = _
  rw [col0_apply, col1_apply]

/-- The action term of row `i`, from the encoder's whole-batch output at the second state, its first output at the
    first state, the external force and the step. -/
theorem action_row (y : FVec Ideal S65536x2 .f32) (r a4 : FVec Ideal S65536 .f32) (a6 : FVec Ideal S_ .f32) (i : Fin 65536) :
    mulf (subf (subf (col0 y) r) (mulf a4 (broadcastInDim S65536 ![] bcast_S_S65536 a6)))
        (subf (subf (col0 y) r) (mulf a4 (broadcastInDim S65536 ![] bcast_S_S65536 a6))) (ix1 i)
      = (y (ix2 i 0) - r (ix1 i) - a4 (ix1 i) * a6 ix0) * (y (ix2 i 0) - r (ix1 i) - a4 (ix1 i) * a6 ix0) := by
  show (col0 y (ix1 i) - r (ix1 i) - a4 (ix1 i) * broadcastInDim S65536 ![] bcast_S_S65536 a6 (ix1 i))
      * (col0 y (ix1 i) - r (ix1 i) - a4 (ix1 i) * broadcastInDim S65536 ![] bcast_S_S65536 a6 (ix1 i)) = _
  rw [col0_apply, broadcastInDim_scalar_apply]

/-- One minus the cosine of the phase difference less the drift, in row `i`. -/
theorem evolution_row (y : FVec Ideal S65536x2 .f32) (r : FVec Ideal S65536 .f32) (a5 a6 : FVec Ideal S_ .f32) (i : Fin 65536) :
    subf (broadcastInDim S65536 ![] bcast_S_S65536 (constant (F := Ideal) S_ .f32 0x3F800000#32))
        (Host.cos (subf (subf (col1 y) r) (broadcastInDim S65536 ![] bcast_S_S65536 (mulf a5 a6)))) (ix1 i)
      = Ideal.ofBits .f32 0x3F800000#32 - Ideal.cos (y (ix2 i 1) - r (ix1 i) - a5 ix0 * a6 ix0) := by
  show broadcastInDim S65536 ![] bcast_S_S65536 (constant (F := Ideal) S_ .f32 0x3F800000#32) (ix1 i)
      - Ideal.cos (col1 y (ix1 i) - r (ix1 i) - broadcastInDim S65536 ![] bcast_S_S65536 (mulf a5 a6) (ix1 i)) = _
  rw [col1_apply, broadcastInDim_scalar_apply, broadcastInDim_scalar_apply]
  rfl

/-! ## The run's named terms, row by row -/

section Run

variable (V0 : Valuation τ sig (Elt Ideal))

/-- The encoder: the perceptron of arguments 7 … 12. -/
def encV : Cert.Spec.Net :=
  Cert.RefNet.netOf (V0 (Proc.devRef .tc main_arg7)) (V0 (Proc.devRef .tc main_arg8)) (V0 (Proc.devRef .tc main_arg9))
    (V0 (Proc.devRef .tc main_arg10)) (V0 (Proc.devRef .tc main_arg11)) (V0 (Proc.devRef .tc main_arg12))

/-- The decoder: the perceptron of arguments 13 … 18. -/
def decV : Cert.Spec.Net :=
  Cert.RefNet.netOf (V0 (Proc.devRef .tc main_arg13)) (V0 (Proc.devRef .tc main_arg14)) (V0 (Proc.devRef .tc main_arg15))
    (V0 (Proc.devRef .tc main_arg16)) (V0 (Proc.devRef .tc main_arg17)) (V0 (Proc.devRef .tc main_arg18))

set_option maxRecDepth 8192 in
theorem res16_eq : Value.res_main_v16 V0 = mlpHost (pairCols (V0 (Proc.devRef .tc main_arg0)) (V0 (Proc.devRef .tc main_arg1)))
    (V0 (Proc.devRef .tc main_arg7)) (V0 (Proc.devRef .tc main_arg8)) (V0 (Proc.devRef .tc main_arg9))
    (V0 (Proc.devRef .tc main_arg10)) (V0 (Proc.devRef .tc main_arg11)) (V0 (Proc.devRef .tc main_arg12)) := rfl

set_option maxRecDepth 8192 in
theorem res37_eq : Value.res_main_v37 V0 = mlpHost (pairCols (V0 (Proc.devRef .tc main_arg2)) (V0 (Proc.devRef .tc main_arg3)))
    (V0 (Proc.devRef .tc main_arg7)) (V0 (Proc.devRef .tc main_arg8)) (V0 (Proc.devRef .tc main_arg9))
    (V0 (Proc.devRef .tc main_arg10)) (V0 (Proc.devRef .tc main_arg11)) (V0 (Proc.devRef .tc main_arg12)) := rfl

set_option maxRecDepth 8192 in
theorem res58_eq : Value.res_main_v58 V0 = mlpHost (pairCols (Value.res_main_v18 V0) (Value.res_main_v20 V0))
    (V0 (Proc.devRef .tc main_arg13)) (V0 (Proc.devRef .tc main_arg14)) (V0 (Proc.devRef .tc main_arg15))
    (V0 (Proc.devRef .tc main_arg16)) (V0 (Proc.devRef .tc main_arg17)) (V0 (Proc.devRef .tc main_arg18)) := rfl

/-- The encoder's two outputs at the first state, row by row. -/
theorem enc0_apply (i : Fin 65536) (j : Fin 2) :
    (Value.res_main_v16 V0 : FVec Ideal S65536x2 .f32) (ix2 i j)
      = (encV V0).out ((V0 (Proc.devRef .tc main_arg0) : FVec Ideal S65536 .f32) (ix1 i)) ((V0 (Proc.devRef .tc main_arg1) : FVec Ideal S65536 .f32) (ix1 i)) j := by
  rw [res16_eq, mlpHost_pair_apply]; rfl

/-- The encoder's two outputs at the second state, row by row. -/
theorem enc1_apply (i : Fin 65536) (j : Fin 2) :
    (Value.res_main_v37 V0 : FVec Ideal S65536x2 .f32) (ix2 i j)
      = (encV V0).out ((V0 (Proc.devRef .tc main_arg2) : FVec Ideal S65536 .f32) (ix1 i)) ((V0 (Proc.devRef .tc main_arg3) : FVec Ideal S65536 .f32) (ix1 i)) j := by
  rw [res37_eq, mlpHost_pair_apply]; rfl

theorem res18_apply (i : Fin 65536) :
    (Value.res_main_v18 V0 : FVec Ideal S65536 .f32) (ix1 i)
      = (encV V0).out ((V0 (Proc.devRef .tc main_arg0) : FVec Ideal S65536 .f32) (ix1 i)) ((V0 (Proc.devRef .tc main_arg1) : FVec Ideal S65536 .f32) (ix1 i)) 0 :=
  (col0_apply (Value.res_main_v16 V0) i).trans (enc0_apply V0 i 0)

theorem res20_apply (i : Fin 65536) :
    (Value.res_main_v20 V0 : FVec Ideal S65536 .f32) (ix1 i)
      = (encV V0).out ((V0 (Proc.devRef .tc main_arg0) : FVec Ideal S65536 .f32) (ix1 i)) ((V0 (Proc.devRef .tc main_arg1) : FVec Ideal S65536 .f32) (ix1 i)) 1 :=
  (col1_apply (Value.res_main_v16 V0) i).trans (enc0_apply V0 i 1)

/-- The decoder at the encoder's output at the first state, row by row. -/
theorem dec_apply (i : Fin 65536) (j : Fin 2) :
    (Value.res_main_v58 V0 : FVec Ideal S65536x2 .f32) (ix2 i j)
      = (decV V0).out ((encV V0).out ((V0 (Proc.devRef .tc main_arg0) : FVec Ideal S65536 .f32) (ix1 i)) ((V0 (Proc.devRef .tc main_arg1) : FVec Ideal S65536 .f32) (ix1 i)) 0)
          ((encV V0).out ((V0 (Proc.devRef .tc main_arg0) : FVec Ideal S65536 .f32) (ix1 i)) ((V0 (Proc.devRef .tc main_arg1) : FVec Ideal S65536 .f32) (ix1 i)) 1) j := by
  rw [res58_eq, mlpHost_pair_apply, res18_apply, res20_apply]; rfl

/-- The reconstruction result. -/
theorem recon_eq :
    Host.divf (Host.reduceAdd (addf (mulf (Value.res_main_v63 V0) (Value.res_main_v63 V0)) (mulf (Value.res_main_v65 V0) (Value.res_main_v65 V0)))
        (constant S_ .f32 0x00000000#32) reducesTo_S65536_S_d0 h_S_) (constant S_ .f32 0x47800000#32)
      = reconOf (encV V0) (decV V0) (V0 (Proc.devRef .tc main_arg0)) (V0 (Proc.devRef .tc main_arg1)) := by
  refine mean_eq _ _ fun i => ?_
  refine (recon_row _ _ (Value.res_main_v58 V0) i).trans ?_
  rw [dec_apply, dec_apply]
  rfl

/-- The action result. -/
theorem action_eq :
    Host.divf (Host.reduceAdd (mulf (Value.res_main_v73 V0) (Value.res_main_v73 V0))
        (constant S_ .f32 0x00000000#32) reducesTo_S65536_S_d0 h_S_) (constant S_ .f32 0x47800000#32)
      = actionOf (encV V0) (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg6)) := by
  refine mean_eq _ _ fun i => ?_
  refine (action_row (Value.res_main_v37 V0) (Value.res_main_v18 V0) _ _ i).trans ?_
  rw [enc1_apply, res18_apply]
  rfl

/-- The evolution result. -/
theorem evolution_eq :
    Host.divf (Host.reduceAdd (subf (broadcastInDim S65536 ![] bcast_S_S65536 (constant S_ .f32 0x3F800000#32))
          (Host.cos (subf (subf (shapeCast _ (extractStridedSlice S65536x1 ![0, 1] (Value.res_main_v37 V0) slices_S65536x2_S65536x1_0_1) shapeCasts_S65536x1_S65536)
            (Value.res_main_v20 V0)) (broadcastInDim S65536 ![] bcast_S_S65536 (mulf (V0 (Proc.devRef .tc main_arg5)) (V0 (Proc.devRef .tc main_arg6)))))))
        (constant S_ .f32 0x00000000#32) reducesTo_S65536_S_d0 h_S_) (constant S_ .f32 0x47800000#32)
      = evolutionOf (encV V0) (V0 (Proc.devRef .tc main_arg0)) (V0 (Proc.devRef .tc main_arg1)) (V0 (Proc.devRef .tc main_arg2))
          (V0 (Proc.devRef .tc main_arg3)) (V0 (Proc.devRef .tc main_arg5)) (V0 (Proc.devRef .tc main_arg6)) := by
  refine mean_eq _ _ fun i => ?_
  refine (evolution_row (Value.res_main_v37 V0) (Value.res_main_v20 V0) _ _ i).trans ?_
  rw [enc1_apply, res20_apply]
  rfl

end Run

end Cert.ReferenceIdeal.RefValue

end
-- ==== Proof.LibFoldApply.lean ====
import Idealize.ShloMosaic.Lib.StableHlo.Run

/-!
# Evaluating a fold of host operations when an operation's function hides its operands

`StableHlo.after ops V` read at a buffer is found by peeling the operations from the last to the first: an operation's own
result buffer reads as its function of the operands' contents before it, any other buffer reads as before it. Done by
rewriting in one pass, each read has to be reachable by congruence. A two-operand operation whose function builds a list of
shaped pieces out of its operands (a concatenation: `fun a b => concatenate s d [⟨s₁, a⟩, ⟨s₂, b⟩] h`) puts the two reads, once
the function is applied, inside dependent pairs, where a rewriting pass does not go. `app2 f x y` is `f x y` with the function
kept closed: the two reads stay plain arguments, are evaluated first, and `app2` is unfolded at the end.
-/

namespace Cert.LibFoldApply

open Idealize.ShloMosaic Idealize.ShloMosaic.StableHlo

/-- `f x y`, with `f` kept closed until `app2` is unfolded. -/
def app2 {α β γ : Type} (f : α → β → γ) (x : α) (y : β) : γ := f x y

theorem app2_def {α β γ : Type} (f : α → β → γ) (x : α) (y : β) : app2 f x y = f x y := rfl

variable {τ : Topo} {sig : RefSig} {Val : EltTy → Type} {a b y : Ref sig .tc}

/-- A two-operand operation at its own result buffer: its function, kept closed, of the two operands' contents. -/
theorem binary_result_app (f : a.ty.Contents Val → b.ty.Contents Val → y.ty.Contents Val) (ha hb hy) (F : Valuation τ sig Val) :
    (binary (τ := τ) a b y f ha hb hy).result F (no_index (Proc.devRef .tc y))
      = app2 f (F (Proc.devRef .tc a)) (F (Proc.devRef .tc b)) :=
  binary_result a b y f ha hb hy F

/-- The fold read at a buffer, in one rewriting pass: as the library's pass, with two-operand operations left under
    `app2`. -/
macro "fold_results_app" : tactic =>
  `(tactic| (simp (disch := decide) only [after_cons, after_nil,
      nullary_result', unary_result', Cert.LibFoldApply.binary_result_app, ternary_result', quaternary_result', reshape_result',
      nullary_result_ne', unary_result_ne', binary_result_ne', ternary_result_ne', quaternary_result_ne', reshape_result_ne']))

end Cert.LibFoldApply
-- ==== Proof.KernelTail.lean ====
/-
  The kernel program's host operations after its tiled region, read back.

  After the tiled region the kernel's program finishes on the host: it divides lanes 0 and 1 of the `[1, 128]`
  accumulator by 65536 (the reconstruction and action results), takes the mean over the batch of one minus the cosine
  of the stored phase differences less the drift (the evolution result), computes the symplectic term from the first
  32 rows by the same host operations as the reference, and adds the four up with their weights. Here each of the five
  result buffers is read back as a function of the contents the host operations start from, whatever those are.
-/
import proofs.«114315_j65214783422667_2_alg».proof.Proof.Gen.KernelIdeal.Launch
import proofs.«114315_j65214783422667_2_alg».proof.Proof.RefTail
import proofs.«114315_j65214783422667_2_alg».proof.Proof.RefMeans
import proofs.«114315_j65214783422667_2_alg».proof.Proof.LibFoldApply
import proofs.«114315_j65214783422667_2_alg».proof.Proof.LibTrailUnit
import Idealize.ShloMosaic.Lib.IdealHost
import Idealize.ShloMosaic.Lib.ValueLayout

set_option maxRecDepth 16384

noncomputable section

namespace Cert.KernelIdeal.Tail

open Cert.KernelIdeal Cert.KernelIdeal.Gen Idealize.ShloMosaic Idealize.ShloMosaic.ValueIdx Idealize.SL.Sem
  Idealize.ShloMosaic.StableHlo
open scoped BigOperators

/-! ## Following every buffer back to the operation that wrote it -/

/-- `f x y z w`, with `f` kept closed until `app4` is unfolded. -/
def app4 {α β γ δ ε : Type} (f : α → β → γ → δ → ε) (x : α) (y : β) (z : γ) (w : δ) : ε := f x y z w

theorem app4_def {α β γ δ ε : Type} (f : α → β → γ → δ → ε) (x : α) (y : β) (z : γ) (w : δ) :
    app4 f x y z w = f x y z w := rfl

section
variable {τ : Topo} {sig : RefSig} {Val : EltTy → Type} {x a b c y : Ref sig .tc}

/-- A four-operand operation at its own result buffer: its function, kept closed, of the four operands' contents.
    (A concatenation builds a list of shaped pieces out of its operands; kept closed, the four reads stay plain
    arguments, are followed back first, and the function is applied at the end.) -/
theorem nary4_result_app
    (f : ((k : Fin 4) → ((![x, a, b, c] : Fin 4 → Ref sig .tc) k).ty.Contents Val) → y.ty.Contents Val) (hxs hy)
    (F : Valuation τ sig Val) :
    (nary (τ := τ) ![x, a, b, c] y f hxs hy).result F (no_index (Proc.devRef .tc y))
      = app4 (fun (u0 : x.ty.Contents Val) (u1 : a.ty.Contents Val) (u2 : b.ty.Contents Val) (u3 : c.ty.Contents Val) =>
          f (Fin.cons u0 (Fin.cons u1 (Fin.cons u2 (Fin.cons u3 (fun i => i.elim0))))))
        (F (Proc.devRef .tc x)) (F (Proc.devRef .tc a)) (F (Proc.devRef .tc b)) (F (Proc.devRef .tc c)) :=
  nary4_result f hxs hy F
end

/-- The fold read at a buffer in one rewriting pass, two- and four-operand operations left closed. -/
macro "tail_results" : tactic =>
  `(tactic| (simp (disch := decide) only [after_cons, after_nil,
      nullary_result', unary_result', Cert.LibFoldApply.binary_result_app, reshape_result', Cert.KernelIdeal.Tail.nary4_result_app,
      nullary_result_ne', unary_result_ne', binary_result_ne', reshape_result_ne', nary_result_ne']))

/-! ## The pieces, over any arrays -/

/-- Lane `l` of a `[1, 128]` accumulator, laid flat, cut out and read as a scalar, divided by the word of 65536. -/
theorem lane_mean_eq (acc : FVec Ideal S1x128 .f32) (l : ℕ) (hl : l < 128) (h2 : S128.Slices ![l] S1) :
    Host.divf (shapeCast S_ (extractStridedSlice S1 ![l] (shapeCast S128 acc shapeCasts_S1x128_S128) h2) shapeCasts_S1_S_)
        (constant (F := Ideal) S_ .f32 0x47800000#32)
      = fun _ => Ideal.div (acc (ix2 (0 : Fin 1) (⟨l, hl⟩ : Fin 128))) (Ideal.ofBits .f32 0x47800000#32) := by
  funext j
  show Ideal.div (shapeCast S_ (extractStridedSlice S1 ![l] (shapeCast S128 acc shapeCasts_S1x128_S128) h2) shapeCasts_S1_S_ j)
    (Ideal.ofBits .f32 0x47800000#32) = _
  refine congrArg (fun s => Ideal.div s (Ideal.ofBits .f32 0x47800000#32)) ?_
  refine (shapeCast_apply _ shapeCasts_S1_S_ j (ix1 (0 : Fin 1)) ?_).trans ?_
  · rw [Shape.rowMajor_val_one]
    have h := (S_.rowMajor j).isLt
    have hn : S_.numel = 1 := by decide
    show (0 : ℕ) = _
    omega
  refine (extractStridedSlice_apply ![l] _ h2 (ix1 (0 : Fin 1)) (ix1 (⟨l, hl⟩ : Fin 128)) (fun a => ?_)).trans ?_
  · match a with
    | ⟨0, _⟩ => rfl
  exact shapeCast_1a_a_apply acc shapeCasts_S1x128_S128 ⟨l, hl⟩

/-- One minus the cosine of a stored phase difference less the drift, in row `i`. -/
theorem evol_row (ph : FVec Ideal S65536x1 .f32) (a5 a6 : FVec Ideal S_ .f32) (i : Fin 65536) :
    subf (broadcastInDim S65536 ![] bcast_S_S65536 (constant (F := Ideal) S_ .f32 0x3F800000#32))
        (Host.cos (subf (shapeCast S65536 ph shapeCasts_S65536x1_S65536) (broadcastInDim S65536 ![] bcast_S_S65536 (mulf a5 a6)))) (ix1 i)
      = Ideal.ofBits .f32 0x3F800000#32 - Ideal.cos (ph (ix2 i (0 : Fin 1)) - a5 ix0 * a6 ix0) := by
  show broadcastInDim S65536 ![] bcast_S_S65536 (constant (F := Ideal) S_ .f32 0x3F800000#32) (ix1 i)
      - Ideal.cos (shapeCast S65536 ph shapeCasts_S65536x1_S65536 (ix1 i)
          - broadcastInDim S65536 ![] bcast_S_S65536 (mulf a5 a6) (ix1 i)) = _
  rw [Cert.LibTrailUnit.shapeCast_a1_a_apply, broadcastInDim_scalar_apply, broadcastInDim_scalar_apply]
  rfl

/-- The mean over the batch of one minus the cosine of a per-row phase difference `g` less the drift. -/
def evolOf (g : Fin 65536 → EReal) (a5 a6 : FVec Ideal S_ .f32) : FVec Ideal S_ .f32 :=
  fun _ => Ideal.div (∑ i : Fin 65536, (Ideal.ofBits .f32 0x3F800000#32 - Ideal.cos (g i - a5 ix0 * a6 ix0)))
    (Ideal.ofBits .f32 0x47800000#32)

/-- With the specification's phase difference per row it is the reference's evolution result. -/
theorem evolutionOf_eq (enc : Cert.Spec.Net) (a0 a1 a2 a3 : FVec Ideal S65536 .f32) (a5 a6 : FVec Ideal S_ .f32) :
    Cert.ReferenceIdeal.RefValue.evolutionOf enc a0 a1 a2 a3 a5 a6
      = evolOf (fun i => Cert.Spec.phaseDiff enc (a0 (ix1 i)) (a1 (ix1 i)) (a2 (ix1 i)) (a3 (ix1 i))) a5 a6 := rfl

/-! ## The five result buffers -/

section Tail

variable (W : Valuation τ sig (Elt Ideal))

set_option maxHeartbeats 4000000 in
/-- The reconstruction result: lane 0 of the accumulator, divided by 65536. -/
theorem tail_recon :
    StableHlo.after (hostOps1 (F := Ideal)) W (Proc.devRef .tc main_v23)
      = fun _ => Ideal.div ((W (Proc.devRef .tc main_v19_0) : S1x128.Idx → EReal) (ix2 (0 : Fin 1) (0 : Fin 128)))
          (Ideal.ofBits .f32 0x47800000#32) := by
  simp only [hostOps1]
  tail_results
  exact lane_mean_eq (W (Proc.devRef .tc main_v19_0)) 0 (by decide) slices_S128_S1_0

set_option maxHeartbeats 4000000 in
/-- The action result: lane 1 of the accumulator, divided by 65536. -/
theorem tail_action :
    StableHlo.after (hostOps1 (F := Ideal)) W (Proc.devRef .tc main_v26)
      = fun _ => Ideal.div ((W (Proc.devRef .tc main_v19_0) : S1x128.Idx → EReal) (ix2 (0 : Fin 1) (1 : Fin 128)))
          (Ideal.ofBits .f32 0x47800000#32) := by
  simp only [hostOps1]
  tail_results
  exact lane_mean_eq (W (Proc.devRef .tc main_v19_0)) 1 (by decide) slices_S128_S1_1

set_option maxHeartbeats 4000000 in
/-- The evolution result, from whatever the stored phase differences are row by row. -/
theorem tail_evolution (g : Fin 65536 → EReal)
    (hg : ∀ i : Fin 65536, (W (Proc.devRef .tc main_v19_1) : S65536x1.Idx → EReal) (ix2 i (0 : Fin 1)) = g i) :
    StableHlo.after (hostOps1 (F := Ideal)) W (Proc.devRef .tc main_v35) = evolOf g (W (Proc.devRef .tc main_arg5)) (W (Proc.devRef .tc main_arg6)) := by
  simp only [hostOps1]
  tail_results
  simp only [Cert.LibFoldApply.app2_def]
  refine Cert.ReferenceIdeal.RefValue.mean_eq _ _ fun i => ?_
  refine (evol_row (W (Proc.devRef .tc main_v19_1)) (W (Proc.devRef .tc main_arg5)) (W (Proc.devRef .tc main_arg6)) i).trans ?_
  rw [hg i]

set_option maxHeartbeats 4000000 in
/-- The symplectic result: the reference's host computation on the same arguments. -/
theorem tail_symp :
    StableHlo.after (hostOps1 (F := Ideal)) W (Proc.devRef .tc main_v107)
      = Cert.ReferenceIdeal.RefValue.sympOf (W (Proc.devRef .tc main_arg0)) (W (Proc.devRef .tc main_arg1)) (W (Proc.devRef .tc main_arg7))
          (W (Proc.devRef .tc main_arg8)) (W (Proc.devRef .tc main_arg9)) (W (Proc.devRef .tc main_arg10))
          (W (Proc.devRef .tc main_arg11)) (W (Proc.devRef .tc main_arg12)) := by
  simp only [hostOps1]
  tail_results
  rfl

set_option maxHeartbeats 4000000 in
/-- The total: the weighted sum of the other four results. -/
theorem tail_total :
    StableHlo.after (hostOps1 (F := Ideal)) W (Proc.devRef .tc main_v114)
      = Cert.ReferenceIdeal.RefValue.totalOf (StableHlo.after (hostOps1 (F := Ideal)) W (Proc.devRef .tc main_v23)) (StableHlo.after (hostOps1 (F := Ideal)) W (Proc.devRef .tc main_v26))
          (StableHlo.after (hostOps1 (F := Ideal)) W (Proc.devRef .tc main_v35)) (StableHlo.after (hostOps1 (F := Ideal)) W (Proc.devRef .tc main_v107)) := by
  simp only [hostOps1]
  tail_results
  rfl

end Tail

end Cert.KernelIdeal.Tail

end
-- ==== Proof.RefRun.lean ====
/-
  What the reference program's run leaves in its five result buffers, as explicit functions of the argument arrays.

  Every weakly fair execution of the reference ends with: the action, evolution and reconstruction results at the
  means over the batch of the specification's row terms (the encoder being the perceptron of arguments 7 … 12, the
  decoder that of arguments 13 … 18); the symplectic result at the host computation `sympOf` of the two state vectors
  and the encoder's weights; the total at the weighted sum of those four; and the nineteen arguments unchanged.
-/
import proofs.«114315_j65214783422667_2_alg».proof.Proof.RefMeans
import proofs.«114315_j65214783422667_2_alg».proof.Proof.RefTail

noncomputable section

namespace Cert.ReferenceIdeal.RefValue

open Cert.ReferenceIdeal Cert.ReferenceIdeal.Gen Idealize.ShloMosaic Idealize.ShloMosaic.ValueIdx Idealize.SL.Sem
  Idealize.ShloMosaic.StableHlo

set_option maxRecDepth 8192 in
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76) = actionOf (Cert.RefNet.netOf (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v85) = evolutionOf (Cert.RefNet.netOf (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))
      ∧ r.2.mem ((c.tc : Thread nD τ).loc main_v69) = reconOf (Cert.RefNet.netOf (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (Cert.RefNet.netOf (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) (m ((c.tc : Thread nD τ).loc main_arg0)) (m ((c.tc : Thread nD τ).loc main_arg1))
      ∧ r.2.mem ((c.tc : Thread nD τ).loc main_v157) = sympOf (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v164) = totalOf (reconOf (Cert.RefNet.netOf (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (Cert.RefNet.netOf (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))) (m ((c.tc : Thread nD τ).loc main_arg0)) (m ((c.tc : Thread nD τ).loc main_arg1))) (actionOf (Cert.RefNet.netOf (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))) (evolutionOf (Cert.RefNet.netOf (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6))) (sympOf (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => by
    obtain ⟨h76, h85, h69, h157, h164, hargs⟩ := h c
    have e76 := action_eq (launchContents m c)
    have e85 := evolution_eq (launchContents m c)
    have e69 := recon_eq (launchContents m c)
    have e157 := symp_eq (launchContents m c)
    refine ⟨h76.trans e76, h85.trans e85, h69.trans e69, h157.trans e157, h164.trans ?_, hargs⟩
    show totalOf _ _ _ _ = _
    rw [e69, e76, e85, e157]
    rfl) (Value.run (F := Ideal) m ρ)

end Cert.ReferenceIdeal.RefValue

end
-- ==== Proof.IdealRun.lean ====
/-
  The kernel's host program run to its five results.

  When the kernel's region is left, its accumulator array holds the two sums over all rows (lanes 0 and 1) and its
  phase column every row's phase difference; every other buffer is as the first host stretch left it, the arguments as
  launched.  The last host stretch divides the two sums by 65536, averages one minus the cosine of the phase differences
  less omega times the time step, computes the symplectic term from the arguments alone, and adds the four with the
  loss weights — each read off as the same expression of the arguments that the reference's run leaves.
-/
import proofs.«114315_j65214783422667_2_alg».proof.Proof.IdealLanes
import proofs.«114315_j65214783422667_2_alg».proof.Proof.KernelTail
import proofs.«114315_j65214783422667_2_alg».proof.Proof.RefRun

set_option maxRecDepth 16384

noncomputable section

namespace Cert.KernelIdeal.HandValue

open Cert.KernelIdeal Cert.KernelIdeal.Gen Cert.KernelIdeal.Hand Cert.KernelIdeal.Rows Cert.KernelIdeal.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Core `c`'s buffers when the kernel's region is left. -/
abbrev Wexit (c : Dev nD) : Valuation τ sig (Elt Ideal) :=
  Pipeline.withArrays spec0 c (V0 m c) fun w => (dats m 0 c).arrAt w cfg0.N

theorem Wexit_acc (c : Dev nD) : Wexit m c (Proc.devRef .tc main_v19_0) = accFinal m c :=
  (Pipeline.withArrays_arr spec0 launch0.win.arr_inj c _ _ 15).trans (final15 m c)

theorem Wexit_dq (c : Dev nD) : Wexit m c (Proc.devRef .tc main_v19_1) = dqFinal m c :=
  (Pipeline.withArrays_arr spec0 launch0.win.arr_inj c _ _ 16).trans (final16 m c)

theorem Wexit_arg0 (c : Dev nD) : Wexit m c (Proc.devRef .tc main_arg0) = m ((c : Thread nD τ).loc main_arg0) :=
  (Pipeline.withArrays_of_ne _ c (V0 m c) _ main_arg0 (by decide)).trans (V_arg m c main_arg0 (by decide))
theorem Wexit_arg1 (c : Dev nD) : Wexit m c (Proc.devRef .tc main_arg1) = m ((c : Thread nD τ).loc main_arg1) :=
  (Pipeline.withArrays_of_ne _ c (V0 m c) _ main_arg1 (by decide)).trans (V_arg m c main_arg1 (by decide))
theorem Wexit_arg2 (c : Dev nD) : Wexit m c (Proc.devRef .tc main_arg2) = m ((c : Thread nD τ).loc main_arg2) :=
  (Pipeline.withArrays_of_ne _ c (V0 m c) _ main_arg2 (by decide)).trans (V_arg m c main_arg2 (by decide))
theorem Wexit_arg3 (c : Dev nD) : Wexit m c (Proc.devRef .tc main_arg3) = m ((c : Thread nD τ).loc main_arg3) :=
  (Pipeline.withArrays_of_ne _ c (V0 m c) _ main_arg3 (by decide)).trans (V_arg m c main_arg3 (by decide))
theorem Wexit_arg4 (c : Dev nD) : Wexit m c (Proc.devRef .tc main_arg4) = m ((c : Thread nD τ).loc main_arg4) :=
  (Pipeline.withArrays_of_ne _ c (V0 m c) _ main_arg4 (by decide)).trans (V_arg m c main_arg4 (by decide))
theorem Wexit_arg5 (c : Dev nD) : Wexit m c (Proc.devRef .tc main_arg5) = m ((c : Thread nD τ).loc main_arg5) :=
  (Pipeline.withArrays_of_ne _ c (V0 m c) _ main_arg5 (by decide)).trans (V_arg m c main_arg5 (by decide))
theorem Wexit_arg6 (c : Dev nD) : Wexit m c (Proc.devRef .tc main_arg6) = m ((c : Thread nD τ).loc main_arg6) :=
  (Pipeline.withArrays_of_ne _ c (V0 m c) _ main_arg6 (by decide)).trans (V_arg m c main_arg6 (by decide))
theorem Wexit_arg8 (c : Dev nD) : Wexit m c (Proc.devRef .tc main_arg8) = m ((c : Thread nD τ).loc main_arg8) :=
  (Pipeline.withArrays_of_ne _ c (V0 m c) _ main_arg8 (by decide)).trans (V_arg m c main_arg8 (by decide))
theorem Wexit_arg9 (c : Dev nD) : Wexit m c (Proc.devRef .tc main_arg9) = m ((c : Thread nD τ).loc main_arg9) :=
  (Pipeline.withArrays_of_ne _ c (V0 m c) _ main_arg9 (by decide)).trans (V_arg m c main_arg9 (by decide))
theorem Wexit_arg10 (c : Dev nD) : Wexit m c (Proc.devRef .tc main_arg10) = m ((c : Thread nD τ).loc main_arg10) :=
  (Pipeline.withArrays_of_ne _ c (V0 m c) _ main_arg10 (by decide)).trans (V_arg m c main_arg10 (by decide))
theorem Wexit_arg11 (c : Dev nD) : Wexit m c (Proc.devRef .tc main_arg11) = m ((c : Thread nD τ).loc main_arg11) :=
  (Pipeline.withArrays_of_ne _ c (V0 m c) _ main_arg11 (by decide)).trans (V_arg m c main_arg11 (by decide))
theorem Wexit_arg12 (c : Dev nD) : Wexit m c (Proc.devRef .tc main_arg12) = m ((c : Thread nD τ).loc main_arg12) :=
  (Pipeline.withArrays_of_ne _ c (V0 m c) _ main_arg12 (by decide)).trans (V_arg m c main_arg12 (by decide))
theorem Wexit_arg7 (c : Dev nD) : Wexit m c (Proc.devRef .tc main_arg7) = m ((c : Thread nD τ).loc main_arg7) :=
  (Pipeline.withArrays_arr spec0 launch0.win.arr_inj c _ _ 3).trans
    (((dats m 0 c).arrAt_in 3 rfl _).trans ((A_eq m c 3).trans (V_arg m c main_arg7 (by decide))))

/-- The five results after the last host stretch. -/
theorem res_recon (c : Dev nD) :
    Pipeline.afterTail₀ cfgs (dats m) 0 (V0 m) [hostOps1] c main_v23 = Cert.ReferenceIdeal.RefValue.reconOf (ENC m c) (DEC m c) (m ((c : Thread nD τ).loc main_arg0)) (m ((c : Thread nD τ).loc main_arg1)) := by
  unfold Pipeline.afterTail₀
  rw [List.flatten_cons, List.flatten_nil, List.append_nil]
  refine (Cert.KernelIdeal.Tail.tail_recon (Wexit m c)).trans ?_
  rw [Wexit_acc, accFinal_recon]
  rfl

theorem res_action (c : Dev nD) :
    Pipeline.afterTail₀ cfgs (dats m) 0 (V0 m) [hostOps1] c main_v26 = Cert.ReferenceIdeal.RefValue.actionOf (ENC m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  unfold Pipeline.afterTail₀
  rw [List.flatten_cons, List.flatten_nil, List.append_nil]
  refine (Cert.KernelIdeal.Tail.tail_action (Wexit m c)).trans ?_
  rw [Wexit_acc, accFinal_action]
  rfl

theorem res_evolution (c : Dev nD) :
    Pipeline.afterTail₀ cfgs (dats m) 0 (V0 m) [hostOps1] c main_v35 = Cert.ReferenceIdeal.RefValue.evolutionOf (ENC m c) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) := by
  unfold Pipeline.afterTail₀
  rw [List.flatten_cons, List.flatten_nil, List.append_nil]
  refine (Cert.KernelIdeal.Tail.tail_evolution (Wexit m c) (phaseRow m c) (fun i => by rw [Wexit_dq]; rfl)).trans ?_
  rw [Wexit_arg5, Wexit_arg6, Cert.KernelIdeal.Tail.evolutionOf_eq]
  rfl

theorem res_symp (c : Dev nD) :
    Pipeline.afterTail₀ cfgs (dats m) 0 (V0 m) [hostOps1] c main_v107 = Cert.ReferenceIdeal.RefValue.sympOf (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold Pipeline.afterTail₀
  rw [List.flatten_cons, List.flatten_nil, List.append_nil]
  refine (Cert.KernelIdeal.Tail.tail_symp (Wexit m c)).trans ?_
  rw [Wexit_arg0, Wexit_arg1, Wexit_arg7, Wexit_arg8, Wexit_arg9, Wexit_arg10, Wexit_arg11, Wexit_arg12]

theorem res_total (c : Dev nD) :
    Pipeline.afterTail₀ cfgs (dats m) 0 (V0 m) [hostOps1] c main_v114 = Cert.ReferenceIdeal.RefValue.totalOf (Cert.ReferenceIdeal.RefValue.reconOf (ENC m c) (DEC m c) (m ((c : Thread nD τ).loc main_arg0)) (m ((c : Thread nD τ).loc main_arg1))) (Cert.ReferenceIdeal.RefValue.actionOf (ENC m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) (Cert.ReferenceIdeal.RefValue.evolutionOf (ENC m c) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (Cert.ReferenceIdeal.RefValue.sympOf (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  have h23 := res_recon m c
  have h26 := res_action m c
  have h35 := res_evolution m c
  have h107 := res_symp m c
  unfold Pipeline.afterTail₀ at h23 h26 h35 h107 ⊢
  rw [List.flatten_cons, List.flatten_nil, List.append_nil] at h23 h26 h35 h107 ⊢
  refine (Cert.KernelIdeal.Tail.tail_total (Wexit m c)).trans ?_
  rw [h23, h26, h35, h107]

/-- THE RUN: every weakly fair execution of the kernel's host program ends with the five losses at these expressions of the
    arguments, and the arguments as launched. -/
theorem kernel_run : θ_run defs (onTc (τ := τ) (main (F := Ideal))) ⟨m, fun _ => 0, ρ⟩ (fun r => ∀ c : Dev nD,
      r.2.mem ((c.tc : Thread nD τ).loc main_v26) = Cert.ReferenceIdeal.RefValue.actionOf (ENC m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))
      ∧ r.2.mem ((c.tc : Thread nD τ).loc main_v35) = Cert.ReferenceIdeal.RefValue.evolutionOf (ENC m c) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))
      ∧ r.2.mem ((c.tc : Thread nD τ).loc main_v23) = Cert.ReferenceIdeal.RefValue.reconOf (ENC m c) (DEC m c) (m ((c : Thread nD τ).loc main_arg0)) (m ((c : Thread nD τ).loc main_arg1))
      ∧ r.2.mem ((c.tc : Thread nD τ).loc main_v107) = Cert.ReferenceIdeal.RefValue.sympOf (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_v114) = Cert.ReferenceIdeal.RefValue.totalOf (Cert.ReferenceIdeal.RefValue.reconOf (ENC m c) (DEC m c) (m ((c : Thread nD τ).loc main_arg0)) (m ((c : Thread nD τ).loc main_arg1))) (Cert.ReferenceIdeal.RefValue.actionOf (ENC m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))) (Cert.ReferenceIdeal.RefValue.evolutionOf (ENC m c) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))) (Cert.ReferenceIdeal.RefValue.sympOf (m ((c : Thread nD τ).loc main_arg0)) (m ((c : Thread nD τ).loc main_arg1)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨
    ((h c).2 main_v26 (Pipeline.mem_restRefs_of main_v26 (by decide) (by decide))).trans (res_action m c),
    ((h c).2 main_v35 (Pipeline.mem_restRefs_of main_v35 (by decide) (by decide))).trans (res_evolution m c),
    ((h c).2 main_v23 (Pipeline.mem_restRefs_of main_v23 (by decide) (by decide))).trans (res_recon m c),
    ((h c).2 main_v107 (Pipeline.mem_restRefs_of main_v107 (by decide) (by decide))).trans (res_symp m c),
    ((h c).2 main_v114 (Pipeline.mem_restRefs_of main_v114 (by decide) (by decide))).trans (res_total m c),
    ((h c).2 main_arg0 (Pipeline.mem_restRefs_of main_arg0 (by decide) (by decide))).trans (W_arg m (dats m) c main_arg0 (by decide) (by decide)),
    ((h c).2 main_arg1 (Pipeline.mem_restRefs_of main_arg1 (by decide) (by decide))).trans (W_arg m (dats m) c main_arg1 (by decide) (by decide)),
    ((h c).2 main_arg2 (Pipeline.mem_restRefs_of main_arg2 (by decide) (by decide))).trans (W_arg m (dats m) c main_arg2 (by decide) (by decide)),
    ((h c).2 main_arg3 (Pipeline.mem_restRefs_of main_arg3 (by decide) (by decide))).trans (W_arg m (dats m) c main_arg3 (by decide) (by decide)),
    ((h c).2 main_arg4 (Pipeline.mem_restRefs_of main_arg4 (by decide) (by decide))).trans (W_arg m (dats m) c main_arg4 (by decide) (by decide)),
    ((h c).2 main_arg5 (Pipeline.mem_restRefs_of main_arg5 (by decide) (by decide))).trans (W_arg m (dats m) c main_arg5 (by decide) (by decide)),
    ((h c).2 main_arg6 (Pipeline.mem_restRefs_of main_arg6 (by decide) (by decide))).trans (W_arg m (dats m) c main_arg6 (by decide) (by decide)),
    ((h c).1 3).trans (((dats m 0 c).arrAt_in 3 rfl _).trans ((A_eq m c 3).trans (V_arg m c main_arg7 (by decide)))),
    ((h c).2 main_arg8 (Pipeline.mem_restRefs_of main_arg8 (by decide) (by decide))).trans (W_arg m (dats m) c main_arg8 (by decide) (by decide)),
    ((h c).2 main_arg9 (Pipeline.mem_restRefs_of main_arg9 (by decide) (by decide))).trans (W_arg m (dats m) c main_arg9 (by decide) (by decide)),
    ((h c).2 main_arg10 (Pipeline.mem_restRefs_of main_arg10 (by decide) (by decide))).trans (W_arg m (dats m) c main_arg10 (by decide) (by decide)),
    ((h c).2 main_arg11 (Pipeline.mem_restRefs_of main_arg11 (by decide) (by decide))).trans (W_arg m (dats m) c main_arg11 (by decide) (by decide)),
    ((h c).2 main_arg12 (Pipeline.mem_restRefs_of main_arg12 (by decide) (by decide))).trans (W_arg m (dats m) c main_arg12 (by decide) (by decide)),
    ((h c).1 9).trans (((dats m 0 c).arrAt_in 9 rfl _).trans ((A_eq m c 9).trans (V_arg m c main_arg13 (by decide)))),
    ((h c).2 main_arg14 (Pipeline.mem_restRefs_of main_arg14 (by decide) (by decide))).trans (W_arg m (dats m) c main_arg14 (by decide) (by decide)),
    ((h c).2 main_arg15 (Pipeline.mem_restRefs_of main_arg15 (by decide) (by decide))).trans (W_arg m (dats m) c main_arg15 (by decide) (by decide)),
    ((h c).2 main_arg16 (Pipeline.mem_restRefs_of main_arg16 (by decide) (by decide))).trans (W_arg m (dats m) c main_arg16 (by decide) (by decide)),
    ((h c).2 main_arg17 (Pipeline.mem_restRefs_of main_arg17 (by decide) (by decide))).trans (W_arg m (dats m) c main_arg17 (by decide) (by decide)),
    ((h c).2 main_arg18 (Pipeline.mem_restRefs_of main_arg18 (by decide) (by decide))).trans (W_arg m (dats m) c main_arg18 (by decide) (by decide))⟩)
    (run_main m ρ)

end Cert.KernelIdeal.HandValue

end
-- ==== Proof.lean ====
/-
  A fused physics-informed loss: five scalars from five state arrays of 65536 rows, two scalars and the weights of
  an encoder and a decoder perceptron (2 → 512 → 512 → 2, hyperbolic tangents between).

  The kernel program lays the states out as two [65536,2] arrays and the forcing as a column, runs one fused kernel over
  64 tiles of 1024 rows — per tile the encoder at both states, the decoder at the encoded first state, the tile's sums
  of the reconstruction terms (p0 − p̂0)² + (q0 − q̂0)² and of the action terms (P1 − P0 − F·dt)² added into lanes 0
  and 1 of an accumulator that the first tile zeroes, and the phase differences Q1 − Q0 stored row by row — and then,
  on the host, divides the two sums by 65536, averages 1 − cos(phase difference − ω·dt), computes a symplectic term
  from the first 32 rows with host operations only, and adds the four with weights 1, 10, 5 and 0.1.  The reference
  computes the same five scalars with whole-array host operations.

  Over the extended reals the two agree: a change of float format is the identity, the first layer's two products
  are the two-term dot product, a product into a zero accumulator is the plain sum of products, and the accumulator's
  fold over the tiles of the sums over a tile's rows is the sum over all rows (commutativity, associativity and
  0 + x = x: nothing that needs the inputs finite).  The symplectic term and the weighted total are the same host
  operations on both sides.
  Both kernel programs run to the end, fault nowhere and leave their arguments unchanged: the body is run once for the
  first tile and once for a later tile, the accumulator's contents carried from tile to tile, and no host operation
  writes an argument.  The reference's frame is its run with the results dropped.  The ideal pass rewrote nothing.
-/
import proofs.«114315_j65214783422667_2_alg».proof.Defs
import proofs.«114315_j65214783422667_2_alg».proof.Proof.Gen.Kernel
import proofs.«114315_j65214783422667_2_alg».proof.Proof.Gen.KernelIdeal
import proofs.«114315_j65214783422667_2_alg».proof.Proof.Gen.ReferenceIdeal
import proofs.«114315_j65214783422667_2_alg».proof.Proof.Gen.Pre_finite_inputs
import proofs.«114315_j65214783422667_2_alg».proof.Proof.BitsFrame
import proofs.«114315_j65214783422667_2_alg».proof.Proof.IdealRun
import proofs.«114315_j65214783422667_2_alg».proof.Proof.RefRun
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame: its run with the five results dropped. -/
theorem frame_ri : Cert.frame_ReferenceIdeal := fun m ρ _ =>
  (θ_run Cert.ReferenceIdeal.defs _ _).mono (fun _ h c => (h c).2.2.2.2.2) (Cert.ReferenceIdeal.RefValue.ref_run m ρ)

set_option maxHeartbeats 4000000 in
/-- Run from memories agreeing on the arguments, both programs end with the five losses at one and the same expression of
    the arguments. -/
theorem algebraic : Cert.algebraic_KernelIdeal_ReferenceIdeal := by
  intro m ρ m' ρ' _ hagree
  refine ⟨fun c => Cert.ReferenceIdeal.RefValue.actionOf (Cert.RefNet.netOf (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)), fun c => Cert.ReferenceIdeal.RefValue.evolutionOf (Cert.RefNet.netOf (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.ReferenceIdeal.RefValue.reconOf (Cert.RefNet.netOf (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (Cert.RefNet.netOf (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), fun c => Cert.ReferenceIdeal.RefValue.sympOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), fun c => Cert.ReferenceIdeal.RefValue.totalOf (Cert.ReferenceIdeal.RefValue.reconOf (Cert.RefNet.netOf (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (Cert.RefNet.netOf (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (Cert.ReferenceIdeal.RefValue.actionOf (Cert.RefNet.netOf (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6))) (Cert.ReferenceIdeal.RefValue.evolutionOf (Cert.RefNet.netOf (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (Cert.ReferenceIdeal.RefValue.sympOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))),
    Cert.KernelIdeal.HandValue.kernel_run m ρ, ?_⟩
  refine (θ_run Cert.ReferenceIdeal.defs _ _).mono (fun _ h c => ?_) (Cert.ReferenceIdeal.RefValue.ref_run m' ρ')
  obtain ⟨e0, e1, e2, e3, e4, e5, e6, e7, e8, e9, e10, e11, e12, e13, e14, e15, e16, e17, e18⟩ := hagree c
  obtain ⟨h0, h1, h2, h3, h4, hargs⟩ := h c
  refine ⟨h0.trans ?_, h1.trans ?_, h2.trans ?_, h3.trans ?_, h4.trans ?_, hargs⟩ <;>
    simp only [e0, e1, e2, e3, e4, e5, e6, e7, e8, e9, e10, e11, e12, e13, e14, e15, e16, e17, e18]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
